-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x32x32 : Shape := ⟨4, ![4096, 3, 32, 32]⟩
abbrev S5x2x96x84 : Shape := ⟨4, ![5, 2, 96, 84]⟩
abbrev S1x84 : Shape := ⟨2, ![1, 84]⟩
abbrev S5x2x84x80 : Shape := ⟨4, ![5, 2, 84, 80]⟩
abbrev S1x80 : Shape := ⟨2, ![1, 80]⟩
abbrev S5x80x120 : Shape := ⟨3, ![5, 80, 120]⟩
abbrev S1x120 : Shape := ⟨2, ![1, 120]⟩
abbrev S120x84 : Shape := ⟨2, ![120, 84]⟩
abbrev S84x10 : Shape := ⟨2, ![84, 10]⟩
abbrev S1x10 : Shape := ⟨2, ![1, 10]⟩
abbrev S_ : Shape := ⟨0, ![]⟩

class Facts : Prop where
  bcast_S_S4096x3x32x32 : S_.BroadcastsInDim S4096x3x32x32 (![] : Fin 0 → Fin S4096x3x32x32.rank)
  reducesTo_S4096x3x32x32_S_d0_1_2_3 : S4096x3x32x32.ReducesTo [0, 1, 2, 3] S_
  h_S_ : 0 < S_.numel
  bitsLt_bf16_f32 : FTy.bits .bf16 < FTy.bits .f32
  bcast_S_S5x2x96x84 : S_.BroadcastsInDim S5x2x96x84 (![] : Fin 0 → Fin S5x2x96x84.rank)
  reducesTo_S5x2x96x84_S_d0_1_2_3 : S5x2x96x84.ReducesTo [0, 1, 2, 3] S_
  bcast_S_S1x84 : S_.BroadcastsInDim S1x84 (![] : Fin 0 → Fin S1x84.rank)
  reducesTo_S1x84_S_d0_1 : S1x84.ReducesTo [0, 1] S_
  bcast_S_S5x2x84x80 : S_.BroadcastsInDim S5x2x84x80 (![] : Fin 0 → Fin S5x2x84x80.rank)
  reducesTo_S5x2x84x80_S_d0_1_2_3 : S5x2x84x80.ReducesTo [0, 1, 2, 3] S_
  bcast_S_S1x80 : S_.BroadcastsInDim S1x80 (![] : Fin 0 → Fin S1x80.rank)
  reducesTo_S1x80_S_d0_1 : S1x80.ReducesTo [0, 1] S_
  bcast_S_S5x80x120 : S_.BroadcastsInDim S5x80x120 (![] : Fin 0 → Fin S5x80x120.rank)
  reducesTo_S5x80x120_S_d0_1_2 : S5x80x120.ReducesTo [0, 1, 2] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S84x10 : S_.BroadcastsInDim S84x10 (![] : Fin 0 → Fin S84x10.rank)
  reducesTo_S84x10_S_d0_1 : S84x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_arg10 : FVec F S1x10 .f32) (main_v47 : IVec S_ 1) (main_v51 : IVec S84x10 1) (main_c_17 : IVec S_ 1) : IVec S_ 1 :=
  let main_v52 : IVec S_ 1 := (fun x v => Host.reduce IntOp.andi x v reducesTo_S84x10_S_d0_1 h_S_) main_v51 main_c_17
  let main_v53 : IVec S_ 1 := andi main_v47 main_v52
  let main_v54 : FVec F S1x10 .f32 := Host.absf main_arg10
  let main_cst_18 : FVec F S_ .f32 := constant S_ .f32 0x7F800000#32
  let main_v55 : FVec F S1x10 .f32 := broadcastInDim S1x10 ![] bcast_S_S1x10 main_cst_18
  let main_v56 : IVec S1x10 1 := cmpf .olt main_v54 main_v55
  let main_c_19 : IVec S_ 1 := constantI S_ 1 1#1
  let main_v57 : IVec S_ 1 := (fun x v => Host.reduce IntOp.andi x v reducesTo_S1x10_S_d0_1 h_S_) main_v56 main_c_19
  let main_v58 : IVec S_ 1 := andi main_v53 main_v57
  main_v58

def fn_part2 {F : FTy → Type} [FloatOps F] (main_arg7 : FVec F S120x84 .bf16) (main_arg8 : FVec F S1x84 .f32) (main_arg9 : FVec F S84x10 .bf16) (main_arg10 : FVec F S1x10 .f32) (main_v31 : IVec S_ 1) (main_v34 : IVec S1x120 1) : IVec S_ 1 :=
  let main_c_11 : IVec S_ 1 := constantI S_ 1 1#1
  let main_v35 : IVec S_ 1 := (fun x v => Host.reduce IntOp.andi x v reducesTo_S1x120_S_d0_1 h_S_) main_v34 main_c_11
  let main_v36 : IVec S_ 1 := andi main_v31 main_v35
  let main_v37 : FVec F S120x84 .f32 := (extf .f32 · bitsLt_bf16_f32) main_arg7
  let main_v38 : FVec F S120x84 .f32 := Host.absf main_v37
  let main_cst_12 : FVec F S_ .f32 := constant S_ .f32 0x7F800000#32
  let main_v39 : FVec F S120x84 .f32 := broadcastInDim S120x84 ![] bcast_S_S120x84 main_cst_12
  let main_v40 : IVec S120x84 1 := cmpf .olt main_v38 main_v39
  let main_c_13 : IVec S_ 1 := constantI S_ 1 1#1
  let main_v41 : IVec S_ 1 := (fun x v => Host.reduce IntOp.andi x v reducesTo_S120x84_S_d0_1 h_S_) main_v40 main_c_13
  let main_v42 : IVec S_ 1 := andi main_v36 main_v41
  let main_v43 : FVec F S1x84 .f32 := Host.absf main_arg8
  let main_cst_14 : FVec F S_ .f32 := constant S_ .f32 0x7F800000#32
  let main_v44 : FVec F S1x84 .f32 := broadcastInDim S1x84 ![] bcast_S_S1x84 main_cst_14
  let main_v45 : IVec S1x84 1 := cmpf .olt main_v43 main_v44
  let main_c_15 : IVec S_ 1 := constantI S_ 1 1#1
  let main_v46 : IVec S_ 1 := (fun x v => Host.reduce IntOp.andi x v reducesTo_S1x84_S_d0_1 h_S_) main_v45 main_c_15
  let main_v47 : IVec S_ 1 := andi main_v42 main_v46
  let main_v48 : FVec F S84x10 .f32 := (extf .f32 · bitsLt_bf16_f32) main_arg9
  let main_v49 : FVec F S84x10 .f32 := Host.absf main_v48
  let main_cst_16 : FVec F S_ .f32 := constant S_ .f32 0x7F800000#32
  let main_v50 : FVec F S84x10 .f32 := broadcastInDim S84x10 ![] bcast_S_S84x10 main_cst_16
  let main_v51 : IVec S84x10 1 := cmpf .olt main_v49 main_v50
  let main_c_17 : IVec S_ 1 := constantI S_ 1 1#1
  fn_part3 (F := F) main_arg10 main_v47 main_v51 main_c_17

def fn_part1 {F : FTy → Type} [FloatOps F] (main_arg4 : FVec F S1x80 .f32) (main_arg5 : FVec F S5x80x120 .bf16) (main_arg6 : FVec F S1x120 .f32) (main_arg7 : FVec F S120x84 .bf16) (main_arg8 : FVec F S1x84 .f32) (main_arg9 : FVec F S84x10 .bf16) (main_arg10 : FVec F S1x10 .f32) (main_v14 : IVec S_ 1) (main_v16 : FVec F S5x2x84x80 .f32) (main_cst_4 : FVec F S_ .f32) : IVec S_ 1 :=
  let main_v17 : FVec F S5x2x84x80 .f32 := broadcastInDim S5x2x84x80 ![] bcast_S_S5x2x84x80 main_cst_4
  let main_v18 : IVec S5x2x84x80 1 := cmpf .olt main_v16 main_v17
  let main_c_5 : IVec S_ 1 := constantI S_ 1 1#1
  let main_v19 : IVec S_ 1 := (fun x v => Host.reduce IntOp.andi x v reducesTo_S5x2x84x80_S_d0_1_2_3 h_S_) main_v18 main_c_5
  let main_v20 : IVec S_ 1 := andi main_v14 main_v19
  let main_v21 : FVec F S1x80 .f32 := Host.absf main_arg4
  let main_cst_6 : FVec F S_ .f32 := constant S_ .f32 0x7F800000#32
  let main_v22 : FVec F S1x80 .f32 := broadcastInDim S1x80 ![] bcast_S_S1x80 main_cst_6
  let main_v23 : IVec S1x80 1 := cmpf .olt main_v21 main_v22
  let main_c_7 : IVec S_ 1 := constantI S_ 1 1#1
  let main_v24 : IVec S_ 1 := (fun x v => Host.reduce IntOp.andi x v reducesTo_S1x80_S_d0_1 h_S_) main_v23 main_c_7
  let main_v25 : IVec S_ 1 := andi main_v20 main_v24
  let main_v26 : FVec F S5x80x120 .f32 := (extf .f32 · bitsLt_bf16_f32) main_arg5
  let main_v27 : FVec F S5x80x120 .f32 := Host.absf main_v26
  let main_cst_8 : FVec F S_ .f32 := constant S_ .f32 0x7F800000#32
  let main_v28 : FVec F S5x80x120 .f32 := broadcastInDim S5x80x120 ![] bcast_S_S5x80x120 main_cst_8
  let main_v29 : IVec S5x80x120 1 := cmpf .olt main_v27 main_v28
  let main_c_9 : IVec S_ 1 := constantI S_ 1 1#1
  let main_v30 : IVec S_ 1 := (fun x v => Host.reduce IntOp.andi x v reducesTo_S5x80x120_S_d0_1_2 h_S_) main_v29 main_c_9
  let main_v31 : IVec S_ 1 := andi main_v25 main_v30
  let main_v32 : FVec F S1x120 .f32 := Host.absf main_arg6
  let main_cst_10 : FVec F S_ .f32 := constant S_ .f32 0x7F800000#32
  let main_v33 : FVec F S1x120 .f32 := broadcastInDim S1x120 ![] bcast_S_S1x120 main_cst_10
  let main_v34 : IVec S1x120 1 := cmpf .olt main_v32 main_v33
  fn_part2 (F := F) main_arg7 main_arg8 main_arg9 main_arg10 main_v31 main_v34

def fn {F : FTy → Type} [FloatOps F] (main_arg0 : FVec F S4096x3x32x32 .f32) (main_arg1 : FVec F S5x2x96x84 .bf16) (main_arg2 : FVec F S1x84 .f32) (main_arg3 : FVec F S5x2x84x80 .bf16) (main_arg4 : FVec F S1x80 .f32) (main_arg5 : FVec F S5x80x120 .bf16) (main_arg6 : FVec F S1x120 .f32) (main_arg7 : FVec F S120x84 .bf16) (main_arg8 : FVec F S1x84 .f32) (main_arg9 : FVec F S84x10 .bf16) (main_arg10 : FVec F S1x10 .f32) : IVec S_ 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_c : IVec S_ 1 := constantI S_ 1 1#1
  let main_v3 : IVec S_ 1 := (fun x v => Host.reduce IntOp.andi x v reducesTo_S4096x3x32x32_S_d0_1_2_3 h_S_) main_v2 main_c
  let main_v4 : FVec F S5x2x96x84 .f32 := (extf .f32 · bitsLt_bf16_f32) main_arg1
  let main_v5 : FVec F S5x2x96x84 .f32 := Host.absf main_v4
  let main_cst_0 : FVec F S_ .f32 := constant S_ .f32 0x7F800000#32
  let main_v6 : FVec F S5x2x96x84 .f32 := broadcastInDim S5x2x96x84 ![] bcast_S_S5x2x96x84 main_cst_0
  let main_v7 : IVec S5x2x96x84 1 := cmpf .olt main_v5 main_v6
  let main_c_1 : IVec S_ 1 := constantI S_ 1 1#1
  let main_v8 : IVec S_ 1 := (fun x v => Host.reduce IntOp.andi x v reducesTo_S5x2x96x84_S_d0_1_2_3 h_S_) main_v7 main_c_1
  let main_v9 : IVec S_ 1 := andi main_v3 main_v8
  let main_v10 : FVec F S1x84 .f32 := Host.absf main_arg2
  let main_cst_2 : FVec F S_ .f32 := constant S_ .f32 0x7F800000#32
  let main_v11 : FVec F S1x84 .f32 := broadcastInDim S1x84 ![] bcast_S_S1x84 main_cst_2
  let main_v12 : IVec S1x84 1 := cmpf .olt main_v10 main_v11
  let main_c_3 : IVec S_ 1 := constantI S_ 1 1#1
  let main_v13 : IVec S_ 1 := (fun x v => Host.reduce IntOp.andi x v reducesTo_S1x84_S_d0_1 h_S_) main_v12 main_c_3
  let main_v14 : IVec S_ 1 := andi main_v9 main_v13
  let main_v15 : FVec F S5x2x84x80 .f32 := (extf .f32 · bitsLt_bf16_f32) main_arg3
  let main_v16 : FVec F S5x2x84x80 .f32 := Host.absf main_v15
  let main_cst_4 : FVec F S_ .f32 := constant S_ .f32 0x7F800000#32
  fn_part1 (F := F) main_arg4 main_arg5 main_arg6 main_arg7 main_arg8 main_arg9 main_arg10 main_v14 main_v16 main_cst_4
-- ==== Kernel.lean ====
abbrev S4096x3x32x32 : Shape := ⟨4, ![4096, 3, 32, 32]⟩
abbrev S5x2x96x84 : Shape := ⟨4, ![5, 2, 96, 84]⟩
abbrev S1x84 : Shape := ⟨2, ![1, 84]⟩
abbrev S5x2x84x80 : Shape := ⟨4, ![5, 2, 84, 80]⟩
abbrev S1x80 : Shape := ⟨2, ![1, 80]⟩
abbrev S5x80x120 : Shape := ⟨3, ![5, 80, 120]⟩
abbrev S1x120 : Shape := ⟨2, ![1, 120]⟩
abbrev S120x84 : Shape := ⟨2, ![120, 84]⟩
abbrev S84x10 : Shape := ⟨2, ![84, 10]⟩
abbrev S1x10 : Shape := ⟨2, ![1, 10]⟩
abbrev S4096x32x3x32 : Shape := ⟨4, ![4096, 32, 3, 32]⟩
abbrev S4096x32x96 : Shape := ⟨3, ![4096, 32, 96]⟩
abbrev S5x2x32x3x84 : Shape := ⟨5, ![5, 2, 32, 3, 84]⟩
abbrev S5x2x3x32x84 : Shape := ⟨5, ![5, 2, 3, 32, 84]⟩
abbrev S_ : Shape := ⟨0, ![]⟩
abbrev S5x2x96x128 : Shape := ⟨4, ![5, 2, 96, 128]⟩
abbrev S5x1x96x128 : Shape := ⟨4, ![5, 1, 96, 128]⟩
abbrev S5x96x128 : Shape := ⟨3, ![5, 96, 128]⟩
abbrev S5x96x256 : Shape := ⟨3, ![5, 96, 256]⟩
abbrev S480x256 : Shape := ⟨2, ![480, 256]⟩
abbrev S5x2x84x128 : Shape := ⟨4, ![5, 2, 84, 128]⟩
abbrev S5x1x84x128 : Shape := ⟨4, ![5, 1, 84, 128]⟩
abbrev S5x84x128 : Shape := ⟨3, ![5, 84, 128]⟩
abbrev S5x84x256 : Shape := ⟨3, ![5, 84, 256]⟩
abbrev S420x256 : Shape := ⟨2, ![420, 256]⟩
abbrev S8x128x120 : Shape := ⟨3, ![8, 128, 120]⟩
abbrev S1024x120 : Shape := ⟨2, ![1024, 120]⟩
abbrev S1x128 : Shape := ⟨2, ![1, 128]⟩
abbrev S4096x10 : Shape := ⟨2, ![4096, 10]⟩
abbrev S512x32x96 : Shape := ⟨3, ![512, 32, 96]⟩
abbrev S512x10 : Shape := ⟨2, ![512, 10]⟩
abbrev S16384x96 : Shape := ⟨2, ![16384, 96]⟩
abbrev S16384x480 : Shape := ⟨2, ![16384, 480]⟩
abbrev S16384x256 : Shape := ⟨2, ![16384, 256]⟩
abbrev S16384x128 : Shape := ⟨2, ![16384, 128]⟩
abbrev S8192x256 : Shape := ⟨2, ![8192, 256]⟩
abbrev S8192x128 : Shape := ⟨2, ![8192, 128]⟩
abbrev S8192x84 : Shape := ⟨2, ![8192, 84]⟩
abbrev S8192x420 : Shape := ⟨2, ![8192, 420]⟩
abbrev S4096x256 : Shape := ⟨2, ![4096, 256]⟩
abbrev S4096x128 : Shape := ⟨2, ![4096, 128]⟩
abbrev S512x1024 : Shape := ⟨2, ![512, 1024]⟩
abbrev S512x120 : Shape := ⟨2, ![512, 120]⟩
abbrev S512x84 : Shape := ⟨2, ![512, 84]⟩

abbrev nBuf : Space → Nat
  | .hbm => 46
  | .vmem => 14
  | .smem => 0
  | _ => 0

abbrev bufTy : (tb : Table) → Fin (tcTables nBuf tb) → BufTy
  | .hbm, ⟨0, _⟩ => ⟨S4096x3x32x32, .f32⟩
  | .hbm, ⟨1, _⟩ => ⟨S5x2x96x84, .bf16⟩
  | .hbm, ⟨2, _⟩ => ⟨S1x84, .f32⟩
  | .hbm, ⟨3, _⟩ => ⟨S5x2x84x80, .bf16⟩
  | .hbm, ⟨4, _⟩ => ⟨S1x80, .f32⟩
  | .hbm, ⟨5, _⟩ => ⟨S5x80x120, .bf16⟩
  | .hbm, ⟨6, _⟩ => ⟨S1x120, .f32⟩
  | .hbm, ⟨7, _⟩ => ⟨S120x84, .bf16⟩
  | .hbm, ⟨8, _⟩ => ⟨S1x84, .f32⟩
  | .hbm, ⟨9, _⟩ => ⟨S84x10, .bf16⟩
  | .hbm, ⟨10, _⟩ => ⟨S1x10, .f32⟩
  | .hbm, ⟨11, _⟩ => ⟨S4096x3x32x32, .bf16⟩
  | .hbm, ⟨12, _⟩ => ⟨S4096x32x3x32, .bf16⟩
  | .hbm, ⟨13, _⟩ => ⟨S4096x32x96, .bf16⟩
  | .hbm, ⟨14, _⟩ => ⟨S5x2x32x3x84, .bf16⟩
  | .hbm, ⟨15, _⟩ => ⟨S5x2x3x32x84, .bf16⟩
  | .hbm, ⟨16, _⟩ => ⟨S5x2x96x84, .bf16⟩
  | .hbm, ⟨17, _⟩ => ⟨S_, .i32⟩
  | .hbm, ⟨18, _⟩ => ⟨S_, .bf16⟩
  | .hbm, ⟨19, _⟩ => ⟨S5x2x96x128, .bf16⟩
  | .hbm, ⟨20, _⟩ => ⟨S5x1x96x128, .bf16⟩
  | .hbm, ⟨21, _⟩ => ⟨S5x96x128, .bf16⟩
  | .hbm, ⟨22, _⟩ => ⟨S5x1x96x128, .bf16⟩
  | .hbm, ⟨23, _⟩ => ⟨S5x96x128, .bf16⟩
  | .hbm, ⟨24, _⟩ => ⟨S5x96x256, .bf16⟩
  | .hbm, ⟨25, _⟩ => ⟨S480x256, .bf16⟩
  | .hbm, ⟨26, _⟩ => ⟨S_, .i32⟩
  | .hbm, ⟨27, _⟩ => ⟨S_, .bf16⟩
  | .hbm, ⟨28, _⟩ => ⟨S5x2x84x128, .bf16⟩
  | .hbm, ⟨29, _⟩ => ⟨S5x1x84x128, .bf16⟩
  | .hbm, ⟨30, _⟩ => ⟨S5x84x128, .bf16⟩
  | .hbm, ⟨31, _⟩ => ⟨S5x1x84x128, .bf16⟩
  | .hbm, ⟨32, _⟩ => ⟨S5x84x128, .bf16⟩
  | .hbm, ⟨33, _⟩ => ⟨S5x84x256, .bf16⟩
  | .hbm, ⟨34, _⟩ => ⟨S420x256, .bf16⟩
  | .hbm, ⟨35, _⟩ => ⟨S_, .i32⟩
  | .hbm, ⟨36, _⟩ => ⟨S_, .bf16⟩
  | .hbm, ⟨37, _⟩ => ⟨S8x128x120, .bf16⟩
  | .hbm, ⟨38, _⟩ => ⟨S1024x120, .bf16⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S4096x10, .f32⟩
  | .local _ .vmem, ⟨0, _⟩ => ⟨S512x32x96, .bf16⟩
  | .local _ .vmem, ⟨1, _⟩ => ⟨S512x32x96, .bf16⟩
  | .local _ .vmem, ⟨2, _⟩ => ⟨S480x256, .bf16⟩
  | .local _ .vmem, ⟨3, _⟩ => ⟨S1x128, .f32⟩
  | .local _ .vmem, ⟨4, _⟩ => ⟨S420x256, .bf16⟩
  | .local _ .vmem, ⟨5, _⟩ => ⟨S1x128, .f32⟩
  | .local _ .vmem, ⟨6, _⟩ => ⟨S1024x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x10, .bf16⟩
  | .local _ .vmem, ⟨11, _⟩ => ⟨S1x10, .f32⟩
  | .local _ .vmem, ⟨12, _⟩ => ⟨S512x10, .f32⟩
  | .local _ .vmem, ⟨13, _⟩ => ⟨S512x10, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c : Ref sig .tc := ⟨.hbm, 17, rfl⟩
abbrev main_call0_call0_v0 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_c_0 : Ref sig .tc := ⟨.hbm, 26, rfl⟩
abbrev main_call0_call1_v0 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_c_1 : Ref sig .tc := ⟨.hbm, 35, rfl⟩
abbrev main_call0_call2_v0 : Ref sig .tc := ⟨.hbm, 36, rfl⟩
abbrev main_call0_v20 : Ref sig .tc := ⟨.hbm, 37, rfl⟩
abbrev main_call0_v21 : Ref sig .tc := ⟨.hbm, 38, rfl⟩
abbrev main_call0_c_2 : Ref sig .tc := ⟨.hbm, 39, rfl⟩
abbrev main_call0_call3_v0 : Ref sig .tc := ⟨.hbm, 40, rfl⟩
abbrev main_call0_v22 : Ref sig .tc := ⟨.hbm, 41, rfl⟩
abbrev main_call0_c_3 : Ref sig .tc := ⟨.hbm, 42, rfl⟩
abbrev main_call0_call4_v0 : Ref sig .tc := ⟨.hbm, 43, rfl⟩
abbrev main_call0_v23 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S420x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S4096x3x32x32_S4096x32x3x32_0_2_1_3 : S4096x3x32x32.Transposes [0, 2, 1, 3] S4096x32x3x32
  shapeCasts_S4096x32x3x32_S4096x32x96 : S4096x32x3x32.ShapeCasts S4096x32x96
  shapeCasts_S5x2x96x84_S5x2x32x3x84 : S5x2x96x84.ShapeCasts S5x2x32x3x84
  transposes_S5x2x32x3x84_S5x2x3x32x84_0_1_3_2_4 : S5x2x32x3x84.Transposes [0, 1, 3, 2, 4] S5x2x3x32x84
  shapeCasts_S5x2x3x32x84_S5x2x96x84 : S5x2x3x32x84.ShapeCasts S5x2x96x84
  pads_S5x2x96x84_S5x2x96x128_000_000_000_0440 : S5x2x96x84.Pads (![0, 0, 0, 0] : Fin 4 → Nat) ![0, 0, 0, 44] ![0, 0, 0, 0] S5x2x96x128
  h_S_ : 0 < S_.numel
  slices_S5x2x96x128_S5x1x96x128_0_0_0_0 : S5x2x96x128.Slices ![0, 0, 0, 0] S5x1x96x128
  shapeCasts_S5x1x96x128_S5x96x128 : S5x1x96x128.ShapeCasts S5x96x128
  slices_S5x2x96x128_S5x1x96x128_0_1_0_0 : S5x2x96x128.Slices ![0, 1, 0, 0] S5x1x96x128
  concatenates_S5x96x128_S5x96x128_S5x96x256_d2 : Shape.Concatenates [S5x96x128, S5x96x128] S5x96x256 2
  shapeCasts_S5x96x256_S480x256 : S5x96x256.ShapeCasts S480x256
  pads_S5x2x84x80_S5x2x84x128_000_000_000_0480 : S5x2x84x80.Pads (![0, 0, 0, 0] : Fin 4 → Nat) ![0, 0, 0, 48] ![0, 0, 0, 0] S5x2x84x128
  slices_S5x2x84x128_S5x1x84x128_0_0_0_0 : S5x2x84x128.Slices ![0, 0, 0, 0] S5x1x84x128
  shapeCasts_S5x1x84x128_S5x84x128 : S5x1x84x128.ShapeCasts S5x84x128
  slices_S5x2x84x128_S5x1x84x128_0_1_0_0 : S5x2x84x128.Slices ![0, 1, 0, 0] S5x1x84x128
  concatenates_S5x84x128_S5x84x128_S5x84x256_d2 : Shape.Concatenates [S5x84x128, S5x84x128] S5x84x256 2
  shapeCasts_S5x84x256_S420x256 : S5x84x256.ShapeCasts S420x256
  pads_S5x80x120_S8x128x120_030_0480_000 : S5x80x120.Pads (![0, 0, 0] : Fin 3 → Nat) ![3, 48, 0] ![0, 0, 0] S8x128x120
  shapeCasts_S8x128x120_S1024x120 : S8x128x120.ShapeCasts S1024x120
  pads_S1x84_S1x128_000_0440 : S1x84.Pads (![0, 0] : Fin 2 → Nat) ![0, 44] ![0, 0] S1x128
  pads_S1x80_S1x128_000_0480 : S1x80.Pads (![0, 0] : Fin 2 → Nat) ![0, 48] ![0, 0] S1x128
  inb_S512x32x96_S512x32x96_0_0_0 : ∀ a, (![0, 0, 0] : Fin 3 → Nat) a + S512x32x96.size a ≤ S512x32x96.size a
  h_S512x32x96 : 0 < S512x32x96.numel
  shapeCasts_S512x32x96_S512x32x96 : S512x32x96.ShapeCasts S512x32x96
  shapeCasts_S512x32x96_S16384x96 : S512x32x96.ShapeCasts S16384x96
  rotates_S16384x96_d0 : S16384x96.Rotates 0 none
  concatenates_S16384x96_S16384x96_S16384x96_S16384x96_S16384x96_S16384x480_d1 : Shape.Concatenates [S16384x96, S16384x96, S16384x96, S16384x96, S16384x96] S16384x480 1
  inb_S480x256_S480x256_0_0 : ∀ a, (![0, 0] : Fin 2 → Nat) a + S480x256.size a ≤ S480x256.size a
  h_S480x256 : 0 < S480x256.numel
  shapeCasts_S480x256_S480x256 : S480x256.ShapeCasts S480x256
  slices_S16384x256_o0_0_S16384x128 : S16384x256.Slices ![0, 0] S16384x128
  slices_S16384x256_o0_128_S16384x128 : S16384x256.Slices ![0, 128] S16384x128
  shapeCasts_S16384x128_S8192x256 : S16384x128.ShapeCasts S8192x256
  slices_S8192x256_o0_0_S8192x128 : S8192x256.Slices ![0, 0] S8192x128
  slices_S8192x256_o0_128_S8192x128 : S8192x256.Slices ![0, 128] S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S8192x128_o0_0_S8192x84 : S8192x128.Slices ![0, 0] S8192x84
  rotates_S8192x84_d0 : S8192x84.Rotates 0 none
  concatenates_S8192x84_S8192x84_S8192x84_S8192x84_S8192x84_S8192x420_d1 : Shape.Concatenates [S8192x84, S8192x84, S8192x84, S8192x84, S8192x84] S8192x420 1
  inb_S420x256_S420x256_0_0 : ∀ a, (![0, 0] : Fin 2 → Nat) a + S420x256.size a ≤ S420x256.size a
  h_S420x256 : 0 < S420x256.numel
  shapeCasts_S420x256_S420x256 : S420x256.ShapeCasts S420x256
  shapeCasts_S8192x128_S4096x256 : S8192x128.ShapeCasts S4096x256
  slices_S4096x256_o0_0_S4096x128 : S4096x256.Slices ![0, 0] S4096x128
  slices_S4096x256_o0_128_S4096x128 : S4096x256.Slices ![0, 128] S4096x128
  broadcasts_S1x128_S4096x128 : S1x128.Broadcasts S4096x128
  shapeCasts_S4096x128_S512x1024 : S4096x128.ShapeCasts S512x1024
  inb_S1024x120_S1024x120_0_0 : ∀ a, (![0, 0] : Fin 2 → Nat) a + S1024x120.size a ≤ S1024x120.size a
  h_S1024x120 : 0 < S1024x120.numel
  shapeCasts_S1024x120_S1024x120 : S1024x120.ShapeCasts S1024x120
  inb_S1x120_S1x120_0_0 : ∀ a, (![0, 0] : Fin 2 → Nat) a + S1x120.size a ≤ S1x120.size a
  h_S1x120 : 0 < S1x120.numel
  broadcasts_S1x120_S512x120 : S1x120.Broadcasts S512x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S512x84 : S1x84.Broadcasts S512x84
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S16384x480_S480x256_S16384x256_1_0_0_1_n_n_wf : DotDims.WF S16384x480 S480x256 S16384x256 [1] [0] [0] [1] [] []
  dot_S8192x420_S420x256_S8192x256_1_0_0_1_n_n_wf : DotDims.WF S8192x420 S420x256 S8192x256 [1] [0] [0] [1] [] []
  dot_S512x1024_S1024x120_S512x120_1_0_0_1_n_n_wf : DotDims.WF S512x1024 S1024x120 S512x120 [1] [0] [0] [1] [] []
  dot_S512x120_S120x84_S512x84_1_0_0_1_n_n_wf : DotDims.WF S512x120 S120x84 S512x84 [1] [0] [0] [1] [] []
  dot_S512x84_S84x10_S512x10_1_0_0_1_n_n_wf : DotDims.WF S512x84 S84x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x96.size a ≤ S4096x32x96.size a
  hwx0_0 : ∀ i : grid0.Coords, EltTy.bits .bf16 = 32 ∨ (Rect.block (s := S4096x32x96) S512x32x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x256.size a ≤ S480x256.size a
  hwx0_1 : ∀ i : grid0.Coords, EltTy.bits .bf16 = 32 ∨ (Rect.block (s := S480x256) S480x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S420x256.size a ≤ S420x256.size a
  hwx0_3 : ∀ i : grid0.Coords, EltTy.bits .bf16 = 32 ∨ (Rect.block (s := S420x256) S420x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x120.size a ≤ S1024x120.size a
  hwx0_5 : ∀ i : grid0.Coords, EltTy.bits .bf16 = 32 ∨ (Rect.block (s := S1024x120) S1024x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .bf16 = 32 ∨ (Rect.block (s := S84x10) S84x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x10.size a ≤ S4096x10.size a
  hwx0_11 : ∀ i : grid0.Coords, EltTy.bits .f32 = 32 ∨ (Rect.block (s := S4096x10) S512x10.size (cc0_transform_11 i) (hinb0_11 i)).WholeWords (EltTy.packing .f32)

variable [Facts₀]

def dot_S16384x480_S480x256_S16384x256_1_0_0_1_n_n : DotDims S16384x480 S480x256 S16384x256 where
  lhsContracting := [1]
  rhsContracting := [0]
  lhsNonContracting := [0]
  rhsNonContracting := [1]
  lhsBatch := []
  rhsBatch := []
  wf := dot_S16384x480_S480x256_S16384x256_1_0_0_1_n_n_wf
def dot_S8192x420_S420x256_S8192x256_1_0_0_1_n_n : DotDims S8192x420 S420x256 S8192x256 where
  lhsContracting := [1]
  rhsContracting := [0]
  lhsNonContracting := [0]
  rhsNonContracting := [1]
  lhsBatch := []
  rhsBatch := []
  wf := dot_S8192x420_S420x256_S8192x256_1_0_0_1_n_n_wf
def dot_S512x1024_S1024x120_S512x120_1_0_0_1_n_n : DotDims S512x1024 S1024x120 S512x120 where
  lhsContracting := [1]
  rhsContracting := [0]
  lhsNonContracting := [0]
  rhsNonContracting := [1]
  lhsBatch := []
  rhsBatch := []
  wf := dot_S512x1024_S1024x120_S512x120_1_0_0_1_n_n_wf
def dot_S512x120_S120x84_S512x84_1_0_0_1_n_n : DotDims S512x120 S120x84 S512x84 where
  lhsContracting := [1]
  rhsContracting := [0]
  lhsNonContracting := [0]
  rhsNonContracting := [1]
  lhsBatch := []
  rhsBatch := []
  wf := dot_S512x120_S120x84_S512x84_1_0_0_1_n_n_wf
def dot_S512x84_S84x10_S512x10_1_0_0_1_n_n : DotDims S512x84 S84x10 S512x10 where
  lhsContracting := [1]
  rhsContracting := [0]
  lhsNonContracting := [0]
  rhsNonContracting := [1]
  lhsBatch := []
  rhsBatch := []
  wf := dot_S512x84_S84x10_S512x10_1_0_0_1_n_n_wf

abbrev win0_0 : Pipeline.Window sig grid0 :=
  Pipeline.Window.ofSpec (Memref.whole main_call0_v2) S512x32x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S480x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S420x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v21) S1024x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S512x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x32x32 : Shape := ⟨4, ![4096, 3, 32, 32]⟩
abbrev S5x2x96x84 : Shape := ⟨4, ![5, 2, 96, 84]⟩
abbrev S1x84 : Shape := ⟨2, ![1, 84]⟩
abbrev S5x2x84x80 : Shape := ⟨4, ![5, 2, 84, 80]⟩
abbrev S1x80 : Shape := ⟨2, ![1, 80]⟩
abbrev S5x80x120 : Shape := ⟨3, ![5, 80, 120]⟩
abbrev S1x120 : Shape := ⟨2, ![1, 120]⟩
abbrev S120x84 : Shape := ⟨2, ![120, 84]⟩
abbrev S84x10 : Shape := ⟨2, ![84, 10]⟩
abbrev S1x10 : Shape := ⟨2, ![1, 10]⟩
abbrev S4096x32x32x3 : Shape := ⟨4, ![4096, 32, 32, 3]⟩
abbrev S4096x32x96 : Shape := ⟨3, ![4096, 32, 96]⟩
abbrev S4096x1x10 : Shape := ⟨3, ![4096, 1, 10]⟩
abbrev S4096x10 : Shape := ⟨2, ![4096, 10]⟩
abbrev S1x32x96 : Shape := ⟨3, ![1, 32, 96]⟩
abbrev S1x1x10 : Shape := ⟨3, ![1, 1, 10]⟩
abbrev S14x84 : Shape := ⟨2, ![14, 84]⟩
abbrev S28x84 : Shape := ⟨2, ![28, 84]⟩
abbrev S1x28x96 : Shape := ⟨3, ![1, 28, 96]⟩
abbrev S28x96 : Shape := ⟨2, ![28, 96]⟩
abbrev S1x1x96x84 : Shape := ⟨4, ![1, 1, 96, 84]⟩
abbrev S96x84 : Shape := ⟨2, ![96, 84]⟩
abbrev S10x80 : Shape := ⟨2, ![10, 80]⟩
abbrev S10x84 : Shape := ⟨2, ![10, 84]⟩
abbrev S1x1x84x80 : Shape := ⟨4, ![1, 1, 84, 80]⟩
abbrev S84x80 : Shape := ⟨2, ![84, 80]⟩
abbrev S1x80x120 : Shape := ⟨3, ![1, 80, 120]⟩
abbrev S80x120 : Shape := ⟨2, ![80, 120]⟩

abbrev nBuf : Space → Nat
  | .hbm => 16
  | .vmem => 15
  | .smem => 0
  | _ => 0

abbrev bufTy : (tb : Table) → Fin (tcTables nBuf tb) → BufTy
  | .hbm, ⟨0, _⟩ => ⟨S4096x3x32x32, .f32⟩
  | .hbm, ⟨1, _⟩ => ⟨S5x2x96x84, .bf16⟩
  | .hbm, ⟨2, _⟩ => ⟨S1x84, .f32⟩
  | .hbm, ⟨3, _⟩ => ⟨S5x2x84x80, .bf16⟩
  | .hbm, ⟨4, _⟩ => ⟨S1x80, .f32⟩
  | .hbm, ⟨5, _⟩ => ⟨S5x80x120, .bf16⟩
  | .hbm, ⟨6, _⟩ => ⟨S1x120, .f32⟩
  | .hbm, ⟨7, _⟩ => ⟨S120x84, .bf16⟩
  | .hbm, ⟨8, _⟩ => ⟨S1x84, .f32⟩
  | .hbm, ⟨9, _⟩ => ⟨S84x10, .bf16⟩
  | .hbm, ⟨10, _⟩ => ⟨S1x10, .f32⟩
  | .hbm, ⟨11, _⟩ => ⟨S4096x32x32x3, .f32⟩
  | .hbm, ⟨12, _⟩ => ⟨S4096x32x96, .f32⟩
  | .hbm, ⟨13, _⟩ => ⟨S4096x32x96, .bf16⟩
  | .hbm, ⟨14, _⟩ => ⟨S4096x1x10, .f32⟩
  | .hbm, ⟨15, _⟩ => ⟨S4096x10, .f32⟩
  | .local _ .vmem, ⟨0, _⟩ => ⟨S1x32x96, .bf16⟩
  | .local _ .vmem, ⟨1, _⟩ => ⟨S1x32x96, .bf16⟩
  | .local _ .vmem, ⟨2, _⟩ => ⟨S5x2x96x84, .bf16⟩
  | .local _ .vmem, ⟨3, _⟩ => ⟨S1x84, .f32⟩
  | .local _ .vmem, ⟨4, _⟩ => ⟨S5x2x84x80, .bf16⟩
  | .local _ .vmem, ⟨5, _⟩ => ⟨S1x80, .f32⟩
  | .local _ .vmem, ⟨6, _⟩ => ⟨S5x80x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x10, .bf16⟩
  | .local _ .vmem, ⟨11, _⟩ => ⟨S1x10, .f32⟩
  | .local _ .vmem, ⟨12, _⟩ => ⟨S1x1x10, .f32⟩
  | .local _ .vmem, ⟨13, _⟩ => ⟨S1x1x10, .f32⟩
  | .local _ .vmem, ⟨14, _⟩ => ⟨S14x84, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2x96x84 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x2x84x80 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x80x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x3x32x32_S4096x32x32x3_0_2_3_1 : S4096x3x32x32.Transposes [0, 2, 3, 1] S4096x32x32x3
  shapeCasts_S4096x32x32x3_S4096x32x96 : S4096x32x32x3.ShapeCasts S4096x32x96
  bitsLt_bf16_f32 : FTy.bits .bf16 < FTy.bits .f32
  shapeCasts_S4096x1x10_S4096x10 : S4096x1x10.ShapeCasts S4096x10
  inb_S1x32x96_S1x28x96_0_0_0 : ∀ a, (![0, 0, 0] : Fin 3 → Nat) a + S1x28x96.size a ≤ S1x32x96.size a
  h_S1x28x96 : 0 < S1x28x96.numel
  shapeCasts_S1x28x96_S28x96 : S1x28x96.ShapeCasts S28x96
  inb_S5x2x96x84_S1x1x96x84_0_0_0_0 : ∀ a, (![0, 0, 0, 0] : Fin 4 → Nat) a + S1x1x96x84.size a ≤ S5x2x96x84.size a
  h_S1x1x96x84 : 0 < S1x1x96x84.numel
  shapeCasts_S1x1x96x84_S96x84 : S1x1x96x84.ShapeCasts S96x84
  inb_S5x2x96x84_S1x1x96x84_0_1_0_0 : ∀ a, (![0, 1, 0, 0] : Fin 4 → Nat) a + S1x1x96x84.size a ≤ S5x2x96x84.size a
  inb_S1x32x96_S1x28x96_0_1_0 : ∀ a, (![0, 1, 0] : Fin 3 → Nat) a + S1x28x96.size a ≤ S1x32x96.size a
  inb_S5x2x96x84_S1x1x96x84_1_0_0_0 : ∀ a, (![1, 0, 0, 0] : Fin 4 → Nat) a + S1x1x96x84.size a ≤ S5x2x96x84.size a
  inb_S5x2x96x84_S1x1x96x84_1_1_0_0 : ∀ a, (![1, 1, 0, 0] : Fin 4 → Nat) a + S1x1x96x84.size a ≤ S5x2x96x84.size a
  inb_S1x32x96_S1x28x96_0_2_0 : ∀ a, (![0, 2, 0] : Fin 3 → Nat) a + S1x28x96.size a ≤ S1x32x96.size a
  inb_S5x2x96x84_S1x1x96x84_2_0_0_0 : ∀ a, (![2, 0, 0, 0] : Fin 4 → Nat) a + S1x1x96x84.size a ≤ S5x2x96x84.size a
  inb_S5x2x96x84_S1x1x96x84_2_1_0_0 : ∀ a, (![2, 1, 0, 0] : Fin 4 → Nat) a + S1x1x96x84.size a ≤ S5x2x96x84.size a
  inb_S1x32x96_S1x28x96_0_3_0 : ∀ a, (![0, 3, 0] : Fin 3 → Nat) a + S1x28x96.size a ≤ S1x32x96.size a
  inb_S5x2x96x84_S1x1x96x84_3_0_0_0 : ∀ a, (![3, 0, 0, 0] : Fin 4 → Nat) a + S1x1x96x84.size a ≤ S5x2x96x84.size a
  inb_S5x2x96x84_S1x1x96x84_3_1_0_0 : ∀ a, (![3, 1, 0, 0] : Fin 4 → Nat) a + S1x1x96x84.size a ≤ S5x2x96x84.size a
  inb_S1x32x96_S1x28x96_0_4_0 : ∀ a, (![0, 4, 0] : Fin 3 → Nat) a + S1x28x96.size a ≤ S1x32x96.size a
  inb_S5x2x96x84_S1x1x96x84_4_0_0_0 : ∀ a, (![4, 0, 0, 0] : Fin 4 → Nat) a + S1x1x96x84.size a ≤ S5x2x96x84.size a
  inb_S5x2x96x84_S1x1x96x84_4_1_0_0 : ∀ a, (![4, 1, 0, 0] : Fin 4 → Nat) a + S1x1x96x84.size a ≤ S5x2x96x84.size a
  inb_S1x84_S1x84_0_0 : ∀ a, (![0, 0] : Fin 2 → Nat) a + S1x84.size a ≤ S1x84.size a
  h_S1x84 : 0 < S1x84.numel
  slices_S28x84_o0_0_S1x84 : S28x84.Slices ![0, 0] S1x84
  slices_S28x84_o1_0_S1x84 : S28x84.Slices ![1, 0] S1x84
  inb_S14x84_S1x84_0_0 : ∀ a, (![0, 0] : Fin 2 → Nat) a + S1x84.size a ≤ S14x84.size a
  shapeCasts_S1x84_S1x84 : S1x84.ShapeCasts S1x84
  slices_S28x84_o2_0_S1x84 : S28x84.Slices ![2, 0] S1x84
  slices_S28x84_o3_0_S1x84 : S28x84.Slices ![3, 0] S1x84
  inb_S14x84_S1x84_1_0 : ∀ a, (![1, 0] : Fin 2 → Nat) a + S1x84.size a ≤ S14x84.size a
  slices_S28x84_o4_0_S1x84 : S28x84.Slices ![4, 0] S1x84
  slices_S28x84_o5_0_S1x84 : S28x84.Slices ![5, 0] S1x84
  inb_S14x84_S1x84_2_0 : ∀ a, (![2, 0] : Fin 2 → Nat) a + S1x84.size a ≤ S14x84.size a
  slices_S28x84_o6_0_S1x84 : S28x84.Slices ![6, 0] S1x84
  slices_S28x84_o7_0_S1x84 : S28x84.Slices ![7, 0] S1x84
  inb_S14x84_S1x84_3_0 : ∀ a, (![3, 0] : Fin 2 → Nat) a + S1x84.size a ≤ S14x84.size a
  slices_S28x84_o8_0_S1x84 : S28x84.Slices ![8, 0] S1x84
  slices_S28x84_o9_0_S1x84 : S28x84.Slices ![9, 0] S1x84
  inb_S14x84_S1x84_4_0 : ∀ a, (![4, 0] : Fin 2 → Nat) a + S1x84.size a ≤ S14x84.size a
  slices_S28x84_o10_0_S1x84 : S28x84.Slices ![10, 0] S1x84
  slices_S28x84_o11_0_S1x84 : S28x84.Slices ![11, 0] S1x84
  inb_S14x84_S1x84_5_0 : ∀ a, (![5, 0] : Fin 2 → Nat) a + S1x84.size a ≤ S14x84.size a
  slices_S28x84_o12_0_S1x84 : S28x84.Slices ![12, 0] S1x84
  slices_S28x84_o13_0_S1x84 : S28x84.Slices ![13, 0] S1x84
  inb_S14x84_S1x84_6_0 : ∀ a, (![6, 0] : Fin 2 → Nat) a + S1x84.size a ≤ S14x84.size a
  slices_S28x84_o14_0_S1x84 : S28x84.Slices ![14, 0] S1x84
  slices_S28x84_o15_0_S1x84 : S28x84.Slices ![15, 0] S1x84
  inb_S14x84_S1x84_7_0 : ∀ a, (![7, 0] : Fin 2 → Nat) a + S1x84.size a ≤ S14x84.size a
  slices_S28x84_o16_0_S1x84 : S28x84.Slices ![16, 0] S1x84
  slices_S28x84_o17_0_S1x84 : S28x84.Slices ![17, 0] S1x84
  inb_S14x84_S1x84_8_0 : ∀ a, (![8, 0] : Fin 2 → Nat) a + S1x84.size a ≤ S14x84.size a
  slices_S28x84_o18_0_S1x84 : S28x84.Slices ![18, 0] S1x84
  slices_S28x84_o19_0_S1x84 : S28x84.Slices ![19, 0] S1x84
  inb_S14x84_S1x84_9_0 : ∀ a, (![9, 0] : Fin 2 → Nat) a + S1x84.size a ≤ S14x84.size a
  slices_S28x84_o20_0_S1x84 : S28x84.Slices ![20, 0] S1x84
  slices_S28x84_o21_0_S1x84 : S28x84.Slices ![21, 0] S1x84
  inb_S14x84_S1x84_10_0 : ∀ a, (![10, 0] : Fin 2 → Nat) a + S1x84.size a ≤ S14x84.size a
  slices_S28x84_o22_0_S1x84 : S28x84.Slices ![22, 0] S1x84
  slices_S28x84_o23_0_S1x84 : S28x84.Slices ![23, 0] S1x84
  inb_S14x84_S1x84_11_0 : ∀ a, (![11, 0] : Fin 2 → Nat) a + S1x84.size a ≤ S14x84.size a
  slices_S28x84_o24_0_S1x84 : S28x84.Slices ![24, 0] S1x84
  slices_S28x84_o25_0_S1x84 : S28x84.Slices ![25, 0] S1x84
  inb_S14x84_S1x84_12_0 : ∀ a, (![12, 0] : Fin 2 → Nat) a + S1x84.size a ≤ S14x84.size a
  slices_S28x84_o26_0_S1x84 : S28x84.Slices ![26, 0] S1x84
  slices_S28x84_o27_0_S1x84 : S28x84.Slices ![27, 0] S1x84
  inb_S14x84_S1x84_13_0 : ∀ a, (![13, 0] : Fin 2 → Nat) a + S1x84.size a ≤ S14x84.size a
  inb_S14x84_S10x84_0_0 : ∀ a, (![0, 0] : Fin 2 → Nat) a + S10x84.size a ≤ S14x84.size a
  h_S10x84 : 0 < S10x84.numel
  inb_S5x2x84x80_S1x1x84x80_0_0_0_0 : ∀ a, (![0, 0, 0, 0] : Fin 4 → Nat) a + S1x1x84x80.size a ≤ S5x2x84x80.size a
  h_S1x1x84x80 : 0 < S1x1x84x80.numel
  shapeCasts_S1x1x84x80_S84x80 : S1x1x84x80.ShapeCasts S84x80
  inb_S5x2x84x80_S1x1x84x80_0_1_0_0 : ∀ a, (![0, 1, 0, 0] : Fin 4 → Nat) a + S1x1x84x80.size a ≤ S5x2x84x80.size a
  inb_S14x84_S10x84_1_0 : ∀ a, (![1, 0] : Fin 2 → Nat) a + S10x84.size a ≤ S14x84.size a
  inb_S5x2x84x80_S1x1x84x80_1_0_0_0 : ∀ a, (![1, 0, 0, 0] : Fin 4 → Nat) a + S1x1x84x80.size a ≤ S5x2x84x80.size a
  inb_S5x2x84x80_S1x1x84x80_1_1_0_0 : ∀ a, (![1, 1, 0, 0] : Fin 4 → Nat) a + S1x1x84x80.size a ≤ S5x2x84x80.size a
  inb_S14x84_S10x84_2_0 : ∀ a, (![2, 0] : Fin 2 → Nat) a + S10x84.size a ≤ S14x84.size a
  inb_S5x2x84x80_S1x1x84x80_2_0_0_0 : ∀ a, (![2, 0, 0, 0] : Fin 4 → Nat) a + S1x1x84x80.size a ≤ S5x2x84x80.size a
  inb_S5x2x84x80_S1x1x84x80_2_1_0_0 : ∀ a, (![2, 1, 0, 0] : Fin 4 → Nat) a + S1x1x84x80.size a ≤ S5x2x84x80.size a
  inb_S14x84_S10x84_3_0 : ∀ a, (![3, 0] : Fin 2 → Nat) a + S10x84.size a ≤ S14x84.size a
  inb_S5x2x84x80_S1x1x84x80_3_0_0_0 : ∀ a, (![3, 0, 0, 0] : Fin 4 → Nat) a + S1x1x84x80.size a ≤ S5x2x84x80.size a
  inb_S5x2x84x80_S1x1x84x80_3_1_0_0 : ∀ a, (![3, 1, 0, 0] : Fin 4 → Nat) a + S1x1x84x80.size a ≤ S5x2x84x80.size a
  inb_S14x84_S10x84_4_0 : ∀ a, (![4, 0] : Fin 2 → Nat) a + S10x84.size a ≤ S14x84.size a
  inb_S5x2x84x80_S1x1x84x80_4_0_0_0 : ∀ a, (![4, 0, 0, 0] : Fin 4 → Nat) a + S1x1x84x80.size a ≤ S5x2x84x80.size a
  inb_S5x2x84x80_S1x1x84x80_4_1_0_0 : ∀ a, (![4, 1, 0, 0] : Fin 4 → Nat) a + S1x1x84x80.size a ≤ S5x2x84x80.size a
  inb_S1x80_S1x80_0_0 : ∀ a, (![0, 0] : Fin 2 → Nat) a + S1x80.size a ≤ S1x80.size a
  h_S1x80 : 0 < S1x80.numel
  inb_S1x120_S1x120_0_0 : ∀ a, (![0, 0] : Fin 2 → Nat) a + S1x120.size a ≤ S1x120.size a
  h_S1x120 : 0 < S1x120.numel
  slices_S10x80_o0_0_S1x80 : S10x80.Slices ![0, 0] S1x80
  slices_S10x80_o1_0_S1x80 : S10x80.Slices ![1, 0] S1x80
  inb_S5x80x120_S1x80x120_0_0_0 : ∀ a, (![0, 0, 0] : Fin 3 → Nat) a + S1x80x120.size a ≤ S5x80x120.size a
  h_S1x80x120 : 0 < S1x80x120.numel
  shapeCasts_S1x80x120_S80x120 : S1x80x120.ShapeCasts S80x120
  slices_S10x80_o2_0_S1x80 : S10x80.Slices ![2, 0] S1x80
  slices_S10x80_o3_0_S1x80 : S10x80.Slices ![3, 0] S1x80
  inb_S5x80x120_S1x80x120_1_0_0 : ∀ a, (![1, 0, 0] : Fin 3 → Nat) a + S1x80x120.size a ≤ S5x80x120.size a
  slices_S10x80_o4_0_S1x80 : S10x80.Slices ![4, 0] S1x80
  slices_S10x80_o5_0_S1x80 : S10x80.Slices ![5, 0] S1x80
  inb_S5x80x120_S1x80x120_2_0_0 : ∀ a, (![2, 0, 0] : Fin 3 → Nat) a + S1x80x120.size a ≤ S5x80x120.size a
  slices_S10x80_o6_0_S1x80 : S10x80.Slices ![6, 0] S1x80
  slices_S10x80_o7_0_S1x80 : S10x80.Slices ![7, 0] S1x80
  inb_S5x80x120_S1x80x120_3_0_0 : ∀ a, (![3, 0, 0] : Fin 3 → Nat) a + S1x80x120.size a ≤ S5x80x120.size a
  slices_S10x80_o8_0_S1x80 : S10x80.Slices ![8, 0] S1x80
  slices_S10x80_o9_0_S1x80 : S10x80.Slices ![9, 0] S1x80
  inb_S5x80x120_S1x80x120_4_0_0 : ∀ a, (![4, 0, 0] : Fin 3 → Nat) a + S1x80x120.size a ≤ S5x80x120.size a
  inb_S120x84_S120x84_0_0 : ∀ a, (![0, 0] : Fin 2 → Nat) a + S120x84.size a ≤ S120x84.size a
  h_S120x84 : 0 < S120x84.numel
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  dot_S28x96_S96x84_S28x84_1_0_0_1_n_n_wf : DotDims.WF S28x96 S96x84 S28x84 [1] [0] [0] [1] [] []
  dot_S10x84_S84x80_S10x80_1_0_0_1_n_n_wf : DotDims.WF S10x84 S84x80 S10x80 [1] [0] [0] [1] [] []
  dot_S1x80_S80x120_S1x120_1_0_0_1_n_n_wf : DotDims.WF S1x80 S80x120 S1x120 [1] [0] [0] [1] [] []
  dot_S1x120_S120x84_S1x84_1_0_0_1_n_n_wf : DotDims.WF S1x120 S120x84 S1x84 [1] [0] [0] [1] [] []
  dot_S1x84_S84x10_S1x10_1_0_0_1_n_n_wf : DotDims.WF S1x84 S84x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x96.size a ≤ S4096x32x96.size a
  hwx0_0 : ∀ i : grid0.Coords, EltTy.bits .bf16 = 32 ∨ (Rect.block (s := S4096x32x96) S1x32x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x2x96x84.size a ≤ S5x2x96x84.size a
  hwx0_1 : ∀ i : grid0.Coords, EltTy.bits .bf16 = 32 ∨ (Rect.block (s := S5x2x96x84) S5x2x96x84.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x84.size a ≤ S1x84.size a
  hwx0_2 : ∀ i : grid0.Coords, EltTy.bits .f32 = 32 ∨ (Rect.block (s := S1x84) S1x84.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x2x84x80.size a ≤ S5x2x84x80.size a
  hwx0_3 : ∀ i : grid0.Coords, EltTy.bits .bf16 = 32 ∨ (Rect.block (s := S5x2x84x80) S5x2x84x80.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x80x120.size a ≤ S5x80x120.size a
  hwx0_5 : ∀ i : grid0.Coords, EltTy.bits .bf16 = 32 ∨ (Rect.block (s := S5x80x120) S5x80x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x10.size a ≤ S84x10.size a
  hwx0_9 : ∀ i : grid0.Coords, EltTy.bits .bf16 = 32 ∨ (Rect.block (s := S84x10) S84x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x10.size a ≤ S4096x1x10.size a
  hwx0_11 : ∀ i : grid0.Coords, EltTy.bits .f32 = 32 ∨ (Rect.block (s := S4096x1x10) S1x1x10.size (cc0_transform_11 i) (hinb0_11 i)).WholeWords (EltTy.packing .f32)

variable [Facts₀]

def dot_S28x96_S96x84_S28x84_1_0_0_1_n_n : DotDims S28x96 S96x84 S28x84 where
  lhsContracting := [1]
  rhsContracting := [0]
  lhsNonContracting := [0]
  rhsNonContracting := [1]
  lhsBatch := []
  rhsBatch := []
  wf := dot_S28x96_S96x84_S28x84_1_0_0_1_n_n_wf
def dot_S10x84_S84x80_S10x80_1_0_0_1_n_n : DotDims S10x84 S84x80 S10x80 where
  lhsContracting := [1]
  rhsContracting := [0]
  lhsNonContracting := [0]
  rhsNonContracting := [1]
  lhsBatch := []
  rhsBatch := []
  wf := dot_S10x84_S84x80_S10x80_1_0_0_1_n_n_wf
def dot_S1x80_S80x120_S1x120_1_0_0_1_n_n : DotDims S1x80 S80x120 S1x120 where
  lhsContracting := [1]
  rhsContracting := [0]
  lhsNonContracting := [0]
  rhsNonContracting := [1]
  lhsBatch := []
  rhsBatch := []
  wf := dot_S1x80_S80x120_S1x120_1_0_0_1_n_n_wf
def dot_S1x120_S120x84_S1x84_1_0_0_1_n_n : DotDims S1x120 S120x84 S1x84 where
  lhsContracting := [1]
  rhsContracting := [0]
  lhsNonContracting := [0]
  rhsNonContracting := [1]
  lhsBatch := []
  rhsBatch := []
  wf := dot_S1x120_S120x84_S1x84_1_0_0_1_n_n_wf
def dot_S1x84_S84x10_S1x10_1_0_0_1_n_n : DotDims S1x84 S84x10 S1x10 where
  lhsContracting := [1]
  rhsContracting := [0]
  lhsNonContracting := [0]
  rhsNonContracting := [1]
  lhsBatch := []
  rhsBatch := []
  wf := dot_S1x84_S84x10_S1x10_1_0_0_1_n_n_wf

abbrev win0_0 : Pipeline.Window sig grid0 :=
  Pipeline.Window.ofSpec (Memref.whole main_call0_v2) S1x32x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x2x96x84.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x84.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x2x84x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x80x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v3) S1x1x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  The network both programs compute, as ONE function of the eleven argument arrays over the extended reals.

  An image `b` is read as 32 rows of 96 lanes, lane `l = 3·w + c` holding channel `c` of column `w`.
  * `conv1 b i p j` (row `i < 28`, parity `p`, lane `j < 84`): the banded 5-tap convolution
    `∑ di < 5, ∑ l < 96, img b (i + di) l · W1[di, p, l, j]`; parity `p` selects the even / odd column of a 2×2 pooling cell.
  * `pool1 b hp j` (`hp < 14`): the 2×2 max pool (first over the parity, then over the rows `2·hp`, `2·hp + 1`), plus the bias,
    clamped below at zero.
  * `conv2`, `pool2`: the same one level down (10 rows of 80 lanes, pooled to 5 rows).
  * `fc1`, `fc2`, `out`: the three dense layers; `fc1` contracts the 5 × 80 pooled activations of an image.
  No float format change appears: over the extended reals it is the identity.
-/
import Idealize.ShloMosaic.PureOps.Ideal
import Idealize.ShloMosaic.Lib.ValueIdx

noncomputable section

namespace Cert.Spec

open Idealize.ShloMosaic Idealize.ShloMosaic.ValueIdx

abbrev TX : Shape := ⟨4, ![4096, 3, 32, 32]⟩
abbrev TW1 : Shape := ⟨4, ![5, 2, 96, 84]⟩
abbrev TB1 : Shape := ⟨2, ![1, 84]⟩
abbrev TW2 : Shape := ⟨4, ![5, 2, 84, 80]⟩
abbrev TB2 : Shape := ⟨2, ![1, 80]⟩
abbrev TWF1 : Shape := ⟨3, ![5, 80, 120]⟩
abbrev TBF1 : Shape := ⟨2, ![1, 120]⟩
abbrev TWF2 : Shape := ⟨2, ![120, 84]⟩
abbrev TBF2 : Shape := ⟨2, ![1, 84]⟩
abbrev TWF3 : Shape := ⟨2, ![84, 10]⟩
abbrev TBF3 : Shape := ⟨2, ![1, 10]⟩
abbrev TOut : Shape := ⟨2, ![4096, 10]⟩

/-- The eleven argument arrays, as extended-real valued functions of their indices. -/
structure Args where
  X : TX.Idx → EReal
  W1 : TW1.Idx → EReal
  B1 : TB1.Idx → EReal
  W2 : TW2.Idx → EReal
  B2 : TB2.Idx → EReal
  WF1 : TWF1.Idx → EReal
  BF1 : TBF1.Idx → EReal
  WF2 : TWF2.Idx → EReal
  BF2 : TBF2.Idx → EReal
  WF3 : TWF3.Idx → EReal
  BF3 : TBF3.Idx → EReal

variable (A : Args)

/-- Row `h`, lane `l = 3·w + c` of image `b`: channel `l % 3` at column `l / 3`. -/
def img (b : Fin 4096) (h : Fin 32) (l : Fin 96) : EReal :=
  A.X (ix4 b (⟨l.val % 3, Nat.mod_lt _ (by norm_num)⟩ : Fin 3) h (⟨l.val / 3, by have := l.isLt; omega⟩ : Fin 32))

/-- The first banded convolution at output row `i`, parity `p`, lane `j`. -/
def conv1 (b : Fin 4096) (i : Fin 28) (p : Fin 2) (j : Fin 84) : EReal :=
  ∑ di : Fin 5, ∑ l : Fin 96,
    img A b (⟨i.val + di.val, by have := i.isLt; have := di.isLt; omega⟩ : Fin 32) l * A.W1 (ix4 di p l j)

/-- First pooled activation: max over the 2×2 cell, plus bias, clamped at zero. -/
def pool1 (b : Fin 4096) (hp : Fin 14) (j : Fin 84) : EReal :=
  max (max (max (conv1 A b (⟨2 * hp.val, by have := hp.isLt; omega⟩ : Fin 28) 0 j)
                (conv1 A b (⟨2 * hp.val, by have := hp.isLt; omega⟩ : Fin 28) 1 j))
           (max (conv1 A b (⟨2 * hp.val + 1, by have := hp.isLt; omega⟩ : Fin 28) 0 j)
                (conv1 A b (⟨2 * hp.val + 1, by have := hp.isLt; omega⟩ : Fin 28) 1 j))
       + A.B1 (ix2 (0 : Fin 1) j)) 0

/-- The second banded convolution at output row `i`, parity `p`, lane `j`. -/
def conv2 (b : Fin 4096) (i : Fin 10) (p : Fin 2) (j : Fin 80) : EReal :=
  ∑ di : Fin 5, ∑ l : Fin 84,
    pool1 A b (⟨i.val + di.val, by have := i.isLt; have := di.isLt; omega⟩ : Fin 14) l * A.W2 (ix4 di p l j)

/-- Second pooled activation. -/
def pool2 (b : Fin 4096) (hp : Fin 5) (j : Fin 80) : EReal :=
  max (max (max (conv2 A b (⟨2 * hp.val, by have := hp.isLt; omega⟩ : Fin 10) 0 j)
                (conv2 A b (⟨2 * hp.val, by have := hp.isLt; omega⟩ : Fin 10) 1 j))
           (max (conv2 A b (⟨2 * hp.val + 1, by have := hp.isLt; omega⟩ : Fin 10) 0 j)
                (conv2 A b (⟨2 * hp.val + 1, by have := hp.isLt; omega⟩ : Fin 10) 1 j))
       + A.B2 (ix2 (0 : Fin 1) j)) 0

/-- First dense layer: bias plus the contraction over the 5 × 80 pooled activations, clamped at zero. -/
def fc1 (b : Fin 4096) (o : Fin 120) : EReal :=
  max (A.BF1 (ix2 (0 : Fin 1) o) + ∑ hp : Fin 5, ∑ j : Fin 80, pool2 A b hp j * A.WF1 (ix3 hp j o)) 0

/-- Second dense layer. -/
def fc2 (b : Fin 4096) (o : Fin 84) : EReal :=
  max ((∑ k : Fin 120, fc1 A b k * A.WF2 (ix2 k o)) + A.BF2 (ix2 (0 : Fin 1) o)) 0

/-- Third dense layer: the logits of image `b`. -/
def out (b : Fin 4096) (o : Fin 10) : EReal :=
  (∑ k : Fin 84, fc2 A b k * A.WF3 (ix2 k o)) + A.BF3 (ix2 (0 : Fin 1) o)

/-- The whole result array [4096, 10]. -/
def net : TOut.Idx → EReal := fun j => out A (j 0) (j 1)

end Cert.Spec

end
-- ==== Proof.Interface.lean ====
/-
  The two facts about one launch of each program's body that join the runs to the network `Cert.Spec`, stated once so that
  the runs and the bodies can be proved apart, and the argument arrays of a memory read as `Cert.Spec.Args`.

  * `KerBody`: at grid point `t` the kernel's body is handed 512 images (rows of 96 lanes, lane `32·c + w`), the first
    convolution's weights as one [480, 256] matrix (row `96·di + 32·c + w`, column `128·p + j`, zero for `j ≥ 84`), the
    second's as one [420, 256] matrix (row `84·di + l`, column `128·p + j`, zero for `j ≥ 80`), both biases padded with
    zeros to 128 lanes, the first dense layer's weights as one [1024, 120] matrix (row `128·hp + j`, zero for `hp ≥ 5` or
    `j ≥ 80`) and the remaining arrays as they are; it then writes the logits of the images `512·t … 512·t + 511`.
  * `RefBody`: at grid point `b` the reference's body is handed image `b` (lane `3·w + c`) and the ten other arrays as they
    are, and writes the logits of image `b`.
-/
import proofs.«158183_g2000402634679036_pallasbulk_659_42_alg».proof.Proof.Spec
import proofs.«158183_g2000402634679036_pallasbulk_659_42_alg».proof.Proof.Gen.KernelIdeal.Frame
import proofs.«158183_g2000402634679036_pallasbulk_659_42_alg».proof.Proof.Gen.ReferenceIdeal.Frame

noncomputable section

open Idealize.ShloMosaic Idealize.ShloMosaic.ValueIdx Idealize.SL.Sem

namespace Cert.KerSide

/-- The argument arrays of a memory of the kernel's program, on device `c`. -/
def args (m : (ℓ : Loc Cert.KernelIdeal.nD Cert.KernelIdeal.τ Cert.KernelIdeal.sig) → Buf (Elt Ideal) ℓ) (c : Dev Cert.KernelIdeal.nD) : Cert.Spec.Args where
  X := m ((c.tc : Thread Cert.KernelIdeal.nD Cert.KernelIdeal.τ).loc Cert.KernelIdeal.main_arg0)
  W1 := m ((c.tc : Thread Cert.KernelIdeal.nD Cert.KernelIdeal.τ).loc Cert.KernelIdeal.main_arg1)
  B1 := m ((c.tc : Thread Cert.KernelIdeal.nD Cert.KernelIdeal.τ).loc Cert.KernelIdeal.main_arg2)
  W2 := m ((c.tc : Thread Cert.KernelIdeal.nD Cert.KernelIdeal.τ).loc Cert.KernelIdeal.main_arg3)
  B2 := m ((c.tc : Thread Cert.KernelIdeal.nD Cert.KernelIdeal.τ).loc Cert.KernelIdeal.main_arg4)
  WF1 := m ((c.tc : Thread Cert.KernelIdeal.nD Cert.KernelIdeal.τ).loc Cert.KernelIdeal.main_arg5)
  BF1 := m ((c.tc : Thread Cert.KernelIdeal.nD Cert.KernelIdeal.τ).loc Cert.KernelIdeal.main_arg6)
  WF2 := m ((c.tc : Thread Cert.KernelIdeal.nD Cert.KernelIdeal.τ).loc Cert.KernelIdeal.main_arg7)
  BF2 := m ((c.tc : Thread Cert.KernelIdeal.nD Cert.KernelIdeal.τ).loc Cert.KernelIdeal.main_arg8)
  WF3 := m ((c.tc : Thread Cert.KernelIdeal.nD Cert.KernelIdeal.τ).loc Cert.KernelIdeal.main_arg9)
  BF3 := m ((c.tc : Thread Cert.KernelIdeal.nD Cert.KernelIdeal.τ).loc Cert.KernelIdeal.main_arg10)

end Cert.KerSide

namespace Cert.RefSide

/-- The argument arrays of a memory of the reference's program, on device `c`. -/
def args (m : (ℓ : Loc Cert.ReferenceIdeal.nD Cert.ReferenceIdeal.τ Cert.ReferenceIdeal.sig) → Buf (Elt Ideal) ℓ) (c : Dev Cert.ReferenceIdeal.nD) : Cert.Spec.Args where
  X := m ((c.tc : Thread Cert.ReferenceIdeal.nD Cert.ReferenceIdeal.τ).loc Cert.ReferenceIdeal.main_arg0)
  W1 := m ((c.tc : Thread Cert.ReferenceIdeal.nD Cert.ReferenceIdeal.τ).loc Cert.ReferenceIdeal.main_arg1)
  B1 := m ((c.tc : Thread Cert.ReferenceIdeal.nD Cert.ReferenceIdeal.τ).loc Cert.ReferenceIdeal.main_arg2)
  W2 := m ((c.tc : Thread Cert.ReferenceIdeal.nD Cert.ReferenceIdeal.τ).loc Cert.ReferenceIdeal.main_arg3)
  B2 := m ((c.tc : Thread Cert.ReferenceIdeal.nD Cert.ReferenceIdeal.τ).loc Cert.ReferenceIdeal.main_arg4)
  WF1 := m ((c.tc : Thread Cert.ReferenceIdeal.nD Cert.ReferenceIdeal.τ).loc Cert.ReferenceIdeal.main_arg5)
  BF1 := m ((c.tc : Thread Cert.ReferenceIdeal.nD Cert.ReferenceIdeal.τ).loc Cert.ReferenceIdeal.main_arg6)
  WF2 := m ((c.tc : Thread Cert.ReferenceIdeal.nD Cert.ReferenceIdeal.τ).loc Cert.ReferenceIdeal.main_arg7)
  BF2 := m ((c.tc : Thread Cert.ReferenceIdeal.nD Cert.ReferenceIdeal.τ).loc Cert.ReferenceIdeal.main_arg8)
  WF3 := m ((c.tc : Thread Cert.ReferenceIdeal.nD Cert.ReferenceIdeal.τ).loc Cert.ReferenceIdeal.main_arg9)
  BF3 := m ((c.tc : Thread Cert.ReferenceIdeal.nD Cert.ReferenceIdeal.τ).loc Cert.ReferenceIdeal.main_arg10)

end Cert.RefSide

namespace Cert.Bridge

/-- What one launch of the kernel's body writes, given its input blocks in terms of the argument arrays. -/
def KerBody : Prop :=
  ∀ (A : Cert.Spec.Args) (t : Fin 8)
    (x0 : Vec Ideal Cert.KernelIdeal.S512x32x96 .bf16) (x1 : Vec Ideal Cert.KernelIdeal.S480x256 .bf16) (x2 : Vec Ideal Cert.KernelIdeal.S1x128 .f32)
    (x3 : Vec Ideal Cert.KernelIdeal.S420x256 .bf16) (x4 : Vec Ideal Cert.KernelIdeal.S1x128 .f32) (x5 : Vec Ideal Cert.KernelIdeal.S1024x120 .bf16)
    (x6 : Vec Ideal Cert.KernelIdeal.S1x120 .f32) (x7 : Vec Ideal Cert.KernelIdeal.S120x84 .bf16) (x8 : Vec Ideal Cert.KernelIdeal.S1x84 .f32)
    (x9 : Vec Ideal Cert.KernelIdeal.S84x10 .bf16) (x10 : Vec Ideal Cert.KernelIdeal.S1x10 .f32),
    (∀ (bl : Fin 512) (h : Fin 32) (l : Fin 96), x0 (ix3 bl h l) =
      A.X (ix4 (⟨512 * t.val + bl.val, by have := t.isLt; have := bl.isLt; omega⟩ : Fin 4096)
               (⟨l.val / 32, by have := l.isLt; omega⟩ : Fin 3) h (⟨l.val % 32, Nat.mod_lt _ (by norm_num)⟩ : Fin 32))) →
    (∀ (k : Fin 480) (q : Fin 256), x1 (ix2 k q) =
      if hq : q.val % 128 < 84 then
        A.W1 (ix4 (⟨k.val / 96, by have := k.isLt; omega⟩ : Fin 5) (⟨q.val / 128, by have := q.isLt; omega⟩ : Fin 2)
                  (⟨3 * (k.val % 32) + (k.val % 96) / 32, by omega⟩ : Fin 96) (⟨q.val % 128, hq⟩ : Fin 84))
      else 0) →
    (∀ j : Fin 128, x2 (ix2 (0 : Fin 1) j) = if hj : j.val < 84 then A.B1 (ix2 (0 : Fin 1) (⟨j.val, hj⟩ : Fin 84)) else 0) →
    (∀ (k : Fin 420) (q : Fin 256), x3 (ix2 k q) =
      if hq : q.val % 128 < 80 then
        A.W2 (ix4 (⟨k.val / 84, by have := k.isLt; omega⟩ : Fin 5) (⟨q.val / 128, by have := q.isLt; omega⟩ : Fin 2)
                  (⟨k.val % 84, Nat.mod_lt _ (by norm_num)⟩ : Fin 84) (⟨q.val % 128, hq⟩ : Fin 80))
      else 0) →
    (∀ j : Fin 128, x4 (ix2 (0 : Fin 1) j) = if hj : j.val < 80 then A.B2 (ix2 (0 : Fin 1) (⟨j.val, hj⟩ : Fin 80)) else 0) →
    (∀ (k : Fin 1024) (o : Fin 120), x5 (ix2 k o) =
      if hk : k.val / 128 < 5 ∧ k.val % 128 < 80 then
        A.WF1 (ix3 (⟨k.val / 128, hk.1⟩ : Fin 5) (⟨k.val % 128, hk.2⟩ : Fin 80) o)
      else 0) →
    x6 = A.BF1 → x7 = A.WF2 → x8 = A.BF2 → x9 = A.WF3 → x10 = A.BF3 →
    ∀ (bl : Fin 512) (o : Fin 10),
      Cert.KernelIdeal.Gen.out0_11 (F := Ideal) x0 x1 x2 x3 x4 x5 x6 x7 x8 x9 x10 (ix2 bl o)
        = Cert.Spec.out A (⟨512 * t.val + bl.val, by have := t.isLt; have := bl.isLt; omega⟩ : Fin 4096) o

/-- What one launch of the reference's body writes, given its input blocks in terms of the argument arrays. -/
def RefBody : Prop :=
  ∀ (A : Cert.Spec.Args) (b : Fin 4096) (c : Dev Cert.ReferenceIdeal.nD) (i : Cert.ReferenceIdeal.grid0.Coords)
    (arg1 : Memref Cert.ReferenceIdeal.sig .tc .vmem Cert.ReferenceIdeal.S1x32x96 .bf16) (harg1 : arg1.IsWhole) (arg2 : Memref Cert.ReferenceIdeal.sig .tc .vmem Cert.ReferenceIdeal.S5x2x96x84 .bf16) (harg2 : arg2.IsWhole) (arg3 : Memref Cert.ReferenceIdeal.sig .tc .vmem Cert.ReferenceIdeal.S1x84 .f32) (harg3 : arg3.IsWhole) (arg4 : Memref Cert.ReferenceIdeal.sig .tc .vmem Cert.ReferenceIdeal.S5x2x84x80 .bf16) (harg4 : arg4.IsWhole) (arg5 : Memref Cert.ReferenceIdeal.sig .tc .vmem Cert.ReferenceIdeal.S1x80 .f32) (harg5 : arg5.IsWhole) (arg6 : Memref Cert.ReferenceIdeal.sig .tc .vmem Cert.ReferenceIdeal.S5x80x120 .bf16) (harg6 : arg6.IsWhole) (arg7 : Memref Cert.ReferenceIdeal.sig .tc .vmem Cert.ReferenceIdeal.S1x120 .f32) (harg7 : arg7.IsWhole) (arg8 : Memref Cert.ReferenceIdeal.sig .tc .vmem Cert.ReferenceIdeal.S120x84 .bf16) (harg8 : arg8.IsWhole) (arg9 : Memref Cert.ReferenceIdeal.sig .tc .vmem Cert.ReferenceIdeal.S1x84 .f32) (harg9 : arg9.IsWhole) (arg10 : Memref Cert.ReferenceIdeal.sig .tc .vmem Cert.ReferenceIdeal.S84x10 .bf16) (harg10 : arg10.IsWhole) (arg11 : Memref Cert.ReferenceIdeal.sig .tc .vmem Cert.ReferenceIdeal.S1x10 .f32) (harg11 : arg11.IsWhole) (arg12 : Memref Cert.ReferenceIdeal.sig .tc .vmem Cert.ReferenceIdeal.S1x1x10 .f32) (harg12 : arg12.IsWhole) (arg13 : Memref Cert.ReferenceIdeal.sig .tc .vmem Cert.ReferenceIdeal.S14x84 .f32) (harg13 : arg13.IsWhole)
    (x0 : Vec Ideal Cert.ReferenceIdeal.S1x32x96 .bf16) (x1 : Vec Ideal Cert.ReferenceIdeal.S5x2x96x84 .bf16) (x2 : Vec Ideal Cert.ReferenceIdeal.S1x84 .f32)
    (x3 : Vec Ideal Cert.ReferenceIdeal.S5x2x84x80 .bf16) (x4 : Vec Ideal Cert.ReferenceIdeal.S1x80 .f32) (x5 : Vec Ideal Cert.ReferenceIdeal.S5x80x120 .bf16)
    (x6 : Vec Ideal Cert.ReferenceIdeal.S1x120 .f32) (x7 : Vec Ideal Cert.ReferenceIdeal.S120x84 .bf16) (x8 : Vec Ideal Cert.ReferenceIdeal.S1x84 .f32)
    (x9 : Vec Ideal Cert.ReferenceIdeal.S84x10 .bf16) (x10 : Vec Ideal Cert.ReferenceIdeal.S1x10 .f32),
    (∀ (h : Fin 32) (l : Fin 96), x0 (ix3 (0 : Fin 1) h l) = Cert.Spec.img A b h l) →
    x1 = A.W1 → x2 = A.B1 → x3 = A.W2 → x4 = A.B2 → x5 = A.WF1 → x6 = A.BF1 → x7 = A.WF2 → x8 = A.BF2 → x9 = A.WF3 → x10 = A.BF3 →
    ∀ o : Fin 10,
      Cert.ReferenceIdeal.Gen.out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix3 (0 : Fin 1) (0 : Fin 1) o)
        = Cert.Spec.out A b o

end Cert.Bridge

end
-- ==== Proof.Assemble.lean ====
/-
  The two runs joined: if the kernel's program ends with its result array at the network of its arguments, and the
  reference's program with its result array at the network of its arguments, then from memories that agree on the
  arguments both end with the same result array — the network is one function of the eleven argument arrays.
-/
import proofs.«158183_g2000402634679036_pallasbulk_659_42_alg».proof.Defs
import proofs.«158183_g2000402634679036_pallasbulk_659_42_alg».proof.Proof.Interface
import proofs.«158183_g2000402634679036_pallasbulk_659_42_alg».proof.Proof.Gen.KernelIdeal
import proofs.«158183_g2000402634679036_pallasbulk_659_42_alg».proof.Proof.Gen.ReferenceIdeal
import proofs.«158183_g2000402634679036_pallasbulk_659_42_alg».proof.Proof.Gen.Pre_finite_inputs

noncomputable section

namespace Cert.Proof

open Idealize.ShloMosaic Idealize.SL.Sem

theorem algebraic_of
    (kerRun : (∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = Cert.Spec.net (Cert.KerSide.args m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))))
    (refRun : (∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0) = Cert.Spec.net (Cert.RefSide.args m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Spec.net (Cert.KerSide.args m c), kerRun m ρ, ?_⟩
  refine (θ_run Cert.ReferenceIdeal.defs _ _).mono (fun r h c => ⟨(h c).1.trans ?_, (h c).2⟩) (refRun m' ρ')
  refine congrArg Cert.Spec.net ?_
  obtain ⟨h0, h1, h2, h3, h4, h5, h6, h7, h8, h9, h10⟩ := hagree c
  unfold Cert.RefSide.args Cert.KerSide.args
  rw [h0, h1, h2, h3, h4, h5, h6, h7, h8, h9, h10]

end Cert.Proof

end
-- ==== Proof.KerBodyStages.lean ====
/-
  The kernel's body as a chain of named arrays over the extended reals, from the eleven input blocks to the block it
  stores: the 512 images as one stack of 16384 rows (`rows1`), the five row taps side by side (`taps1`), the first
  product (`acc1`), its maximum over the two lane halves (`wide1`) and over row pairs (`tall1`), bias and clamp
  (`act1`); the same once more on the 84 live lanes (`live1`, `taps2`, `acc2`, `wide2`, `fold2`, `tall2`, `act2`); the
  eight rows of an image folded into lanes (`flat2`) and the three dense layers (`acc3`, `act3`, `acc4`, `act4`,
  `logits`). What the body leaves in its output block is `logits`.
-/
import proofs.«158183_g2000402634679036_pallasbulk_659_42_alg».proof.Proof.Gen.KernelIdeal.Frame
import Idealize.ShloMosaic.Lib.Pipeline.Value
import Idealize.ShloMosaic.PureOps.Ideal
import Idealize.ShloMosaic.PureOps.Ideal.Laws

noncomputable section

namespace Cert.KernelIdeal.Body

open Cert.KernelIdeal Cert.KernelIdeal.Gen Idealize.ShloMosaic

variable (x0 : Vec Ideal S512x32x96 .bf16) (x1 : Vec Ideal S480x256 .bf16) (x2 : Vec Ideal S1x128 .f32)
  (x3 : Vec Ideal S420x256 .bf16) (x4 : Vec Ideal S1x128 .f32) (x5 : Vec Ideal S1024x120 .bf16)
  (x6 : Vec Ideal S1x120 .f32) (x7 : Vec Ideal S120x84 .bf16) (x8 : Vec Ideal S1x84 .f32)
  (x9 : Vec Ideal S84x10 .bf16) (x10 : Vec Ideal S1x10 .f32)

/-- The 512 images as one stack of 16384 rows of 96 lanes. -/
def rows1 : FVec Ideal S16384x96 .bf16 :=
  shapeCast S16384x96 (shapeCast S512x32x96 x0 shapeCasts_S512x32x96_S512x32x96) shapeCasts_S512x32x96_S16384x96

/-- The stack beside itself moved up by one, two, three and four rows. -/
def taps1 : FVec Ideal S16384x480 .bf16 :=
  concatenate S16384x480 1 [⟨S16384x96, rows1 x0⟩, ⟨S16384x96, dynamicRotate 0 16383#32 none (rows1 x0) rotates_S16384x96_d0⟩,
    ⟨S16384x96, dynamicRotate 0 16382#32 none (rows1 x0) rotates_S16384x96_d0⟩, ⟨S16384x96, dynamicRotate 0 16381#32 none (rows1 x0) rotates_S16384x96_d0⟩,
    ⟨S16384x96, dynamicRotate 0 16380#32 none (rows1 x0) rotates_S16384x96_d0⟩] concatenates_S16384x96_S16384x96_S16384x96_S16384x96_S16384x96_S16384x480_d1

/-- The first product. -/
def acc1 : FVec Ideal S16384x256 .f32 :=
  matmul dot_S16384x480_S480x256_S16384x256_1_0_0_1_n_n none (taps1 x0) (shapeCast S480x256 x1 shapeCasts_S480x256_S480x256 : FVec Ideal S480x256 .bf16)
    (constant S16384x256 .f32 0x00000000#32)

/-- Maximum over the two halves of the lanes. -/
def wide1 : FVec Ideal S16384x128 .f32 :=
  maximumf (extractStridedSlice S16384x128 ![0, 0] (acc1 x0 x1) slices_S16384x256_o0_0_S16384x128)
    (extractStridedSlice S16384x128 ![0, 128] (acc1 x0 x1) slices_S16384x256_o0_128_S16384x128)

/-- Maximum over pairs of rows. -/
def tall1 : FVec Ideal S8192x128 .f32 :=
  maximumf (extractStridedSlice S8192x128 ![0, 0] (shapeCast S8192x256 (wide1 x0 x1) shapeCasts_S16384x128_S8192x256) slices_S8192x256_o0_0_S8192x128)
    (extractStridedSlice S8192x128 ![0, 128] (shapeCast S8192x256 (wide1 x0 x1) shapeCasts_S16384x128_S8192x256) slices_S8192x256_o0_128_S8192x128)

/-- Bias, clamp at zero. -/
def act1 : FVec Ideal S8192x128 .bf16 :=
  truncf .bf16 (maximumf (addf (tall1 x0 x1) (broadcastTo S8192x128 (shapeCast S1x128 x2 shapeCasts_S1x128_S1x128) broadcasts_S1x128_S8192x128))
    (broadcast S8192x128 (Scalar.ofBits .f32 0x00000000#32))) bitsLt_bf16_f32

/-- The 84 live lanes. -/
def live1 : FVec Ideal S8192x84 .bf16 :=
  extractStridedSlice S8192x84 ![0, 0] (act1 x0 x1 x2) slices_S8192x128_o0_0_S8192x84

/-- The live lanes beside themselves moved up by one to four rows. -/
def taps2 : FVec Ideal S8192x420 .bf16 :=
  concatenate S8192x420 1 [⟨S8192x84, live1 x0 x1 x2⟩, ⟨S8192x84, dynamicRotate 0 8191#32 none (live1 x0 x1 x2) rotates_S8192x84_d0⟩,
    ⟨S8192x84, dynamicRotate 0 8190#32 none (live1 x0 x1 x2) rotates_S8192x84_d0⟩, ⟨S8192x84, dynamicRotate 0 8189#32 none (live1 x0 x1 x2) rotates_S8192x84_d0⟩,
    ⟨S8192x84, dynamicRotate 0 8188#32 none (live1 x0 x1 x2) rotates_S8192x84_d0⟩] concatenates_S8192x84_S8192x84_S8192x84_S8192x84_S8192x84_S8192x420_d1

/-- The second product. -/
def acc2 : FVec Ideal S8192x256 .f32 :=
  matmul dot_S8192x420_S420x256_S8192x256_1_0_0_1_n_n none (taps2 x0 x1 x2) (shapeCast S420x256 x3 shapeCasts_S420x256_S420x256 : FVec Ideal S420x256 .bf16)
    (constant S8192x256 .f32 0x00000000#32)

def wide2 : FVec Ideal S8192x128 .f32 :=
  maximumf (extractStridedSlice S8192x128 ![0, 0] (acc2 x0 x1 x2 x3) slices_S8192x256_o0_0_S8192x128)
    (extractStridedSlice S8192x128 ![0, 128] (acc2 x0 x1 x2 x3) slices_S8192x256_o0_128_S8192x128)

/-- Row pairs side by side. -/
def fold2 : FVec Ideal S4096x256 .f32 :=
  shapeCast S4096x256 (wide2 x0 x1 x2 x3) shapeCasts_S8192x128_S4096x256

def tall2 : FVec Ideal S4096x128 .f32 :=
  maximumf (extractStridedSlice S4096x128 ![0, 0] (fold2 x0 x1 x2 x3) slices_S4096x256_o0_0_S4096x128)
    (extractStridedSlice S4096x128 ![0, 128] (fold2 x0 x1 x2 x3) slices_S4096x256_o0_128_S4096x128)

def act2 : FVec Ideal S4096x128 .bf16 :=
  truncf .bf16 (maximumf (addf (tall2 x0 x1 x2 x3) (broadcastTo S4096x128 (shapeCast S1x128 x4 shapeCasts_S1x128_S1x128) broadcasts_S1x128_S4096x128))
    (broadcast S4096x128 (Scalar.ofBits .f32 0x00000000#32))) bitsLt_bf16_f32

/-- The eight rows of an image side by side. -/
def flat2 : FVec Ideal S512x1024 .bf16 :=
  shapeCast S512x1024 (act2 x0 x1 x2 x3 x4) shapeCasts_S4096x128_S512x1024

def acc3 : FVec Ideal S512x120 .f32 :=
  matmul dot_S512x1024_S1024x120_S512x120_1_0_0_1_n_n none (flat2 x0 x1 x2 x3 x4) (shapeCast S1024x120 x5 shapeCasts_S1024x120_S1024x120 : FVec Ideal S1024x120 .bf16)
    (constant S512x120 .f32 0x00000000#32)

def act3 : FVec Ideal S512x120 .bf16 :=
  truncf .bf16 (maximumf (addf (acc3 x0 x1 x2 x3 x4 x5) (broadcastTo S512x120 x6 broadcasts_S1x120_S512x120))
    (broadcast S512x120 (Scalar.ofBits .f32 0x00000000#32))) bitsLt_bf16_f32

def acc4 : FVec Ideal S512x84 .f32 :=
  matmul (φ₁ := .bf16) (φ₂ := .bf16) dot_S512x120_S120x84_S512x84_1_0_0_1_n_n none (act3 x0 x1 x2 x3 x4 x5 x6) (x7 : FVec Ideal S120x84 .bf16) (constant S512x84 .f32 0x00000000#32)

def act4 : FVec Ideal S512x84 .bf16 :=
  truncf .bf16 (maximumf (addf (acc4 x0 x1 x2 x3 x4 x5 x6 x7) (broadcastTo S512x84 x8 broadcasts_S1x84_S512x84))
    (broadcast S512x84 (Scalar.ofBits .f32 0x00000000#32))) bitsLt_bf16_f32

/-- The stored block. -/
def logits : FVec Ideal S512x10 .f32 :=
  addf (matmul (φ₁ := .bf16) (φ₂ := .bf16) dot_S512x84_S84x10_S512x10_1_0_0_1_n_n none (act4 x0 x1 x2 x3 x4 x5 x6 x7 x8) (x9 : FVec Ideal S84x10 .bf16) (constant S512x10 .f32 0x00000000#32))
    (broadcastTo S512x10 x10 broadcasts_S1x10_S512x10)

theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in its output block is the last array of the chain. -/
theorem out_eq_logits : out0_11 (F := Ideal) x0 x1 x2 x3 x4 x5 x6 x7 x8 x9 x10 = logits x0 x1 x2 x3 x4 x5 x6 x7 x8 x9 x10 := by
  unfold out0_11
  rw [View.canon_unit_zero zero2]
  simp only [View.ld_unit_zero (S := S512x32x96) zero3, View.ld_unit_zero (S := S480x256) zero2, View.ld_unit_zero (S := S1x128) zero2,
    View.ld_unit_zero (S := S420x256) zero2, View.ld_unit_zero (S := S1024x120) zero2, View.ld_unit_zero (S := S1x120) zero2,
    View.ld_unit_zero (S := S120x84) zero2, View.ld_unit_zero (S := S1x84) zero2, View.ld_unit_zero (S := S84x10) zero2,
    View.ld_unit_zero (S := S1x10) zero2]
  rfl

end Cert.KernelIdeal.Body

end
-- ==== Proof.KerBodyLayout.lean ====
/-
  The layout operations of the kernel's body read at one entry, over any element type.
  * A rotation of the rows by `s` puts at row `r` the row `(r + N - s % N) % N`.
  * Folding [A, B, C] into [A·B, C] puts at row `r` the entry (r / B, r % B); folding [2·R, C] into [R, 2·C] puts at
    (r, q) the entry (2·r + q / C, q % C); folding [8·R, C] into [R, 8·C] the entry (8·r + q / C, q % C).
  * A concatenation of five equal pieces along the lanes puts at lane `k` lane `k % C` of piece `k / C`.
  * The left and right halves of the lanes, a leading slice of the lanes, and a row broadcast down the rows.
-/
import Idealize.ShloMosaic.Lib.Pipeline.Value
import Idealize.ShloMosaic.Lib.KernelVsHost
import Idealize.ShloMosaic.Lib.ValueIdx

noncomputable section

namespace Cert.Layout

open Idealize.ShloMosaic Idealize.ShloMosaic.ValueIdx

variable {α : Type}

/-- Rows rotated by `sb`: row `r` holds the operand's row `(r + N - sb % N) % N`. -/
theorem rotate_rows {N C : Nat} (sb : BitVec 32) (x : (⟨2, ![N, C]⟩ : Shape).Idx → α)
    (h : (⟨2, ![N, C]⟩ : Shape).Rotates 0 none) (r : Fin N) (l : Fin C) :
    dynamicRotate (0 : Fin 2) sb none x h (ix2 r l)
      = x (ix2 (⟨(r.val + N - sb.toNat % N) % N, Nat.mod_lt _ (Fin.pos r)⟩ : Fin N) l) :=
  dynamicRotate_apply (0 : Fin 2) sb x h _ _ (fun b => by
    match b with
    | ⟨0, _⟩ => rfl
    | ⟨1, _⟩ => rfl)

/-- [A, B, C] folded into [A·B, C]. -/
theorem fold_images {A B C M : Nat} (x : (⟨3, ![A, B, C]⟩ : Shape).Idx → α)
    (h : (⟨3, ![A, B, C]⟩ : Shape).ShapeCasts (⟨2, ![M, C]⟩ : Shape)) (hB : 0 < B) (hM : M = A * B) (r : Fin M) (l : Fin C) :
    shapeCast (⟨2, ![M, C]⟩ : Shape) x h (ix2 r l)
      = x (ix3 (⟨r.val / B, by have := r.isLt; subst hM; exact Nat.div_lt_of_lt_mul (lt_of_lt_of_eq this (Nat.mul_comm A B))⟩ : Fin A)
               (⟨r.val % B, Nat.mod_lt _ hB⟩ : Fin B) l) :=
  shapeCast_apply x h _ _ (by
    rw [Shape.rowMajor_val_three, Shape.rowMajor_val_two]
    show (r.val / B * B + r.val % B) * C + l.val = r.val * C + l.val
    rw [Nat.div_add_mod'])

/-- [G·R, C] folded into [R, G·C]: entry (r, q) is entry (G·r + q / C, q % C). -/
theorem fold_rows {R C M W : Nat} (G : Nat) (x : (⟨2, ![M, C]⟩ : Shape).Idx → α)
    (h : (⟨2, ![M, C]⟩ : Shape).ShapeCasts (⟨2, ![R, W]⟩ : Shape)) (hC : 0 < C) (hM : M = G * R) (hW : W = G * C)
    (r : Fin R) (q : Fin W) :
    shapeCast (⟨2, ![R, W]⟩ : Shape) x h (ix2 r q)
      = x (ix2 (⟨G * r.val + q.val / C, by
                  have := r.isLt; have hq := q.isLt; subst hM; subst hW
                  have : q.val / C < G := Nat.div_lt_of_lt_mul (lt_of_lt_of_eq hq (Nat.mul_comm G C))
                  nlinarith⟩ : Fin M)
               (⟨q.val % C, Nat.mod_lt _ hC⟩ : Fin C)) :=
  shapeCast_apply x h _ _ (by
    rw [Shape.rowMajor_val_two, Shape.rowMajor_val_two]
    show (G * r.val + q.val / C) * C + q.val % C = r.val * W + q.val
    subst hW
    have := Nat.div_add_mod' q.val C
    nlinarith)

/-- The lanes from `off` on, `C'` of them. -/
theorem lanes_from {N C C' : Nat} (off : Nat) (x : (⟨2, ![N, C]⟩ : Shape).Idx → α)
    (h : (⟨2, ![N, C]⟩ : Shape).Slices ![0, off] (⟨2, ![N, C']⟩ : Shape)) (hoff : off + C' ≤ C) (r : Fin N) (j : Fin C') :
    extractStridedSlice (⟨2, ![N, C']⟩ : Shape) ![0, off] x h (ix2 r j)
      = x (ix2 r (⟨off + j.val, by have := j.isLt; omega⟩ : Fin C)) :=
  extractStridedSlice_apply ![0, off] x h _ _ (fun a => by
    match a with
    | ⟨0, _⟩ => show r.val = 0 + r.val; omega
    | ⟨1, _⟩ => rfl)

/-- One row broadcast down `N` rows. -/
theorem row_down {N C : Nat} (x : (⟨2, ![1, C]⟩ : Shape).Idx → α)
    (h : (⟨2, ![1, C]⟩ : Shape).Broadcasts (⟨2, ![N, C]⟩ : Shape)) (hC : C ≠ 1) (r : Fin N) (j : Fin C) :
    broadcastTo (⟨2, ![N, C]⟩ : Shape) x h (ix2 r j) = x (ix2 (0 : Fin 1) j) :=
  broadcastTo_apply x h _ _ (fun a => by
    match a with
    | ⟨0, _⟩ => rfl
    | ⟨1, _⟩ => show j.val = if C = 1 then 0 else j.val; rw [if_neg hC])

/-- Row pairs laid side by side, left half of the lanes: entry (r, j) is entry (2·r, j). -/
theorem pair_left {R C M W : Nat} (x : (⟨2, ![M, C]⟩ : Shape).Idx → α)
    (h : (⟨2, ![M, C]⟩ : Shape).ShapeCasts (⟨2, ![R, W]⟩ : Shape))
    (hs : (⟨2, ![R, W]⟩ : Shape).Slices ![0, 0] (⟨2, ![R, C]⟩ : Shape))
    (hC : 0 < C) (hM : M = 2 * R) (hW : W = 2 * C) (r : Fin R) (j : Fin C) :
    extractStridedSlice (⟨2, ![R, C]⟩ : Shape) ![0, 0] (shapeCast (⟨2, ![R, W]⟩ : Shape) x h) hs (ix2 r j)
      = x (ix2 (⟨2 * r.val, by have := r.isLt; omega⟩ : Fin M) j) := by
  refine (lanes_from 0 _ hs (by omega) r j).trans ?_
  refine (fold_rows 2 x h hC hM hW r _).trans ?_
  refine congrArg x (funext fun a => Fin.ext ?_)
  have hj := j.isLt
  match a with
  | ⟨0, _⟩ =>
    show 2 * r.val + (0 + j.val) / C = 2 * r.val
    rw [Nat.zero_add, Nat.div_eq_of_lt hj, Nat.add_zero]
  | ⟨1, _⟩ =>
    show (0 + j.val) % C = j.val
    rw [Nat.zero_add, Nat.mod_eq_of_lt hj]

/-- Row pairs laid side by side, right half of the lanes: entry (r, j) is entry (2·r + 1, j). -/
theorem pair_right {R C M W : Nat} (x : (⟨2, ![M, C]⟩ : Shape).Idx → α)
    (h : (⟨2, ![M, C]⟩ : Shape).ShapeCasts (⟨2, ![R, W]⟩ : Shape))
    (hs : (⟨2, ![R, W]⟩ : Shape).Slices ![0, C] (⟨2, ![R, C]⟩ : Shape))
    (hC : 0 < C) (hM : M = 2 * R) (hW : W = 2 * C) (r : Fin R) (j : Fin C) :
    extractStridedSlice (⟨2, ![R, C]⟩ : Shape) ![0, C] (shapeCast (⟨2, ![R, W]⟩ : Shape) x h) hs (ix2 r j)
      = x (ix2 (⟨2 * r.val + 1, by have := r.isLt; omega⟩ : Fin M) j) := by
  refine (lanes_from C _ hs (by omega) r j).trans ?_
  refine (fold_rows 2 x h hC hM hW r _).trans ?_
  refine congrArg x (funext fun a => Fin.ext ?_)
  have hj := j.isLt
  match a with
  | ⟨0, _⟩ =>
    show 2 * r.val + (C + j.val) / C = 2 * r.val + 1
    rw [Nat.add_div_left _ hC, Nat.div_eq_of_lt hj]
  | ⟨1, _⟩ =>
    show (C + j.val) % C = j.val
    rw [Nat.add_mod_left, Nat.mod_eq_of_lt hj]

/-- Five equal pieces laid side by side along the lanes: lane `0·C + c` is lane `c` of piece 0. -/
theorem piece0_of_five {N C W : Nat} (p0 p1 p2 p3 p4 : (⟨2, ![N, C]⟩ : Shape).Idx → α)
    (h : Shape.Concatenates (([⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] : List ((s : Shape) × (s.Idx → α))).map (·.1)) (⟨2, ![N, W]⟩ : Shape) 1)
    (r : Fin N) (k : Fin W) (c : Fin C) (hk : k.val = 0 * C + c.val) :
    concatenate (⟨2, ![N, W]⟩ : Shape) 1 [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) = p0 (ix2 r c) :=
  concatenate_apply_piece (1 : Fin 2) [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) 0 (by simp) (⟨2, ![N, C]⟩ : Shape) p0 rfl rfl (0 * C)
    (by simp) (ix2 r c)
    (fun b hb => by
      match b with
      | ⟨0, _⟩ => rfl
      | ⟨1, _⟩ => exact absurd rfl hb)
    (by show 0 * C + c.val = k.val; omega)

/-- Five equal pieces laid side by side along the lanes: lane `1·C + c` is lane `c` of piece 1. -/
theorem piece1_of_five {N C W : Nat} (p0 p1 p2 p3 p4 : (⟨2, ![N, C]⟩ : Shape).Idx → α)
    (h : Shape.Concatenates (([⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] : List ((s : Shape) × (s.Idx → α))).map (·.1)) (⟨2, ![N, W]⟩ : Shape) 1)
    (r : Fin N) (k : Fin W) (c : Fin C) (hk : k.val = 1 * C + c.val) :
    concatenate (⟨2, ![N, W]⟩ : Shape) 1 [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) = p1 (ix2 r c) :=
  concatenate_apply_piece (1 : Fin 2) [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) 1 (by simp) (⟨2, ![N, C]⟩ : Shape) p1 rfl rfl (1 * C)
    (by simp) (ix2 r c)
    (fun b hb => by
      match b with
      | ⟨0, _⟩ => rfl
      | ⟨1, _⟩ => exact absurd rfl hb)
    (by show 1 * C + c.val = k.val; omega)

/-- Five equal pieces laid side by side along the lanes: lane `2·C + c` is lane `c` of piece 2. -/
theorem piece2_of_five {N C W : Nat} (p0 p1 p2 p3 p4 : (⟨2, ![N, C]⟩ : Shape).Idx → α)
    (h : Shape.Concatenates (([⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] : List ((s : Shape) × (s.Idx → α))).map (·.1)) (⟨2, ![N, W]⟩ : Shape) 1)
    (r : Fin N) (k : Fin W) (c : Fin C) (hk : k.val = 2 * C + c.val) :
    concatenate (⟨2, ![N, W]⟩ : Shape) 1 [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) = p2 (ix2 r c) :=
  concatenate_apply_piece (1 : Fin 2) [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) 2 (by simp) (⟨2, ![N, C]⟩ : Shape) p2 rfl rfl (2 * C)
    (by simp; ring) (ix2 r c)
    (fun b hb => by
      match b with
      | ⟨0, _⟩ => rfl
      | ⟨1, _⟩ => exact absurd rfl hb)
    (by show 2 * C + c.val = k.val; omega)

/-- Five equal pieces laid side by side along the lanes: lane `3·C + c` is lane `c` of piece 3. -/
theorem piece3_of_five {N C W : Nat} (p0 p1 p2 p3 p4 : (⟨2, ![N, C]⟩ : Shape).Idx → α)
    (h : Shape.Concatenates (([⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] : List ((s : Shape) × (s.Idx → α))).map (·.1)) (⟨2, ![N, W]⟩ : Shape) 1)
    (r : Fin N) (k : Fin W) (c : Fin C) (hk : k.val = 3 * C + c.val) :
    concatenate (⟨2, ![N, W]⟩ : Shape) 1 [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) = p3 (ix2 r c) :=
  concatenate_apply_piece (1 : Fin 2) [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) 3 (by simp) (⟨2, ![N, C]⟩ : Shape) p3 rfl rfl (3 * C)
    (by simp; ring) (ix2 r c)
    (fun b hb => by
      match b with
      | ⟨0, _⟩ => rfl
      | ⟨1, _⟩ => exact absurd rfl hb)
    (by show 3 * C + c.val = k.val; omega)

/-- Five equal pieces laid side by side along the lanes: lane `4·C + c` is lane `c` of piece 4. -/
theorem piece4_of_five {N C W : Nat} (p0 p1 p2 p3 p4 : (⟨2, ![N, C]⟩ : Shape).Idx → α)
    (h : Shape.Concatenates (([⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] : List ((s : Shape) × (s.Idx → α))).map (·.1)) (⟨2, ![N, W]⟩ : Shape) 1)
    (r : Fin N) (k : Fin W) (c : Fin C) (hk : k.val = 4 * C + c.val) :
    concatenate (⟨2, ![N, W]⟩ : Shape) 1 [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) = p4 (ix2 r c) :=
  concatenate_apply_piece (1 : Fin 2) [⟨(⟨2, ![N, C]⟩ : Shape), p0⟩, ⟨(⟨2, ![N, C]⟩ : Shape), p1⟩, ⟨(⟨2, ![N, C]⟩ : Shape), p2⟩, ⟨(⟨2, ![N, C]⟩ : Shape), p3⟩, ⟨(⟨2, ![N, C]⟩ : Shape), p4⟩] h (ix2 r k) 4 (by simp) (⟨2, ![N, C]⟩ : Shape) p4 rfl rfl (4 * C)
    (by simp; ring) (ix2 r c)
    (fun b hb => by
      match b with
      | ⟨0, _⟩ => rfl
      | ⟨1, _⟩ => exact absurd rfl hb)
    (by show 4 * C + c.val = k.val; omega)

/-- An array beside itself rotated by N − 1, N − 2, N − 3 and N − 4 rows: lane `n·C + c` of row `r` is lane `c` of row
    `(r + n) % N`. -/
theorem five_taps {N C W : Nat} (x : (⟨2, ![N, C]⟩ : Shape).Idx → α) (s1 s2 s3 s4 : BitVec 32)
    (hr : (⟨2, ![N, C]⟩ : Shape).Rotates 0 none)
    (hc : Shape.Concatenates (([⟨(⟨2, ![N, C]⟩ : Shape), x⟩, ⟨(⟨2, ![N, C]⟩ : Shape), dynamicRotate (0 : Fin 2) s1 none x hr⟩, ⟨(⟨2, ![N, C]⟩ : Shape), dynamicRotate (0 : Fin 2) s2 none x hr⟩, ⟨(⟨2, ![N, C]⟩ : Shape), dynamicRotate (0 : Fin 2) s3 none x hr⟩, ⟨(⟨2, ![N, C]⟩ : Shape), dynamicRotate (0 : Fin 2) s4 none x hr⟩] : List ((s : Shape) × (s.Idx → α))).map (·.1)) (⟨2, ![N, W]⟩ : Shape) 1)
    (hN : 4 < N) (h1 : s1.toNat % N = N - 1) (h2 : s2.toNat % N = N - 2) (h3 : s3.toNat % N = N - 3) (h4 : s4.toNat % N = N - 4)
    (r : Fin N) (n : Fin 5) (c : Fin C) (k : Fin W) (hk : k.val = n.val * C + c.val) :
    concatenate (⟨2, ![N, W]⟩ : Shape) 1 [⟨(⟨2, ![N, C]⟩ : Shape), x⟩, ⟨(⟨2, ![N, C]⟩ : Shape), dynamicRotate (0 : Fin 2) s1 none x hr⟩, ⟨(⟨2, ![N, C]⟩ : Shape), dynamicRotate (0 : Fin 2) s2 none x hr⟩, ⟨(⟨2, ![N, C]⟩ : Shape), dynamicRotate (0 : Fin 2) s3 none x hr⟩, ⟨(⟨2, ![N, C]⟩ : Shape), dynamicRotate (0 : Fin 2) s4 none x hr⟩] hc (ix2 r k)
      = x (ix2 (⟨(r.val + n.val) % N, Nat.mod_lt _ (Fin.pos r)⟩ : Fin N) c) := by
  fin_cases n
  · refine (piece0_of_five _ _ _ _ _ hc r k c (by simpa using hk)).trans ?_
    exact congrArg x (congrArg (fun a => ix2 a c) (Fin.ext (by
      show r.val = (r.val + 0) % N
      rw [Nat.add_zero, Nat.mod_eq_of_lt r.isLt])))
  · refine (piece1_of_five _ _ _ _ _ hc r k c (by simpa using hk)).trans ?_
    refine (rotate_rows s1 x hr r c).trans ?_
    exact congrArg x (congrArg (fun a => ix2 a c) (Fin.ext (by
      show (r.val + N - s1.toNat % N) % N = (r.val + 1) % N
      rw [h1]; have := r.isLt
      have e : r.val + N - (N - 1) = r.val + 1 := by omega
      rw [e])))
  · refine (piece2_of_five _ _ _ _ _ hc r k c (by simpa using hk)).trans ?_
    refine (rotate_rows s2 x hr r c).trans ?_
    exact congrArg x (congrArg (fun a => ix2 a c) (Fin.ext (by
      show (r.val + N - s2.toNat % N) % N = (r.val + 2) % N
      rw [h2]; have := r.isLt
      have e : r.val + N - (N - 2) = r.val + 2 := by omega
      rw [e])))
  · refine (piece3_of_five _ _ _ _ _ hc r k c (by simpa using hk)).trans ?_
    refine (rotate_rows s3 x hr r c).trans ?_
    exact congrArg x (congrArg (fun a => ix2 a c) (Fin.ext (by
      show (r.val + N - s3.toNat % N) % N = (r.val + 3) % N
      rw [h3]; have := r.isLt
      have e : r.val + N - (N - 3) = r.val + 3 := by omega
      rw [e])))
  · refine (piece4_of_five _ _ _ _ _ hc r k c (by simpa using hk)).trans ?_
    refine (rotate_rows s4 x hr r c).trans ?_
    exact congrArg x (congrArg (fun a => ix2 a c) (Fin.ext (by
      show (r.val + N - s4.toNat % N) % N = (r.val + 4) % N
      rw [h4]; have := r.isLt
      have e : r.val + N - (N - 4) = r.val + 4 := by omega
      rw [e])))

end Cert.Layout

end
-- ==== Proof.KerBodyDots.lean ====
/-
  The five matrix products of the kernel's body, each read at one entry over the extended reals: a product of an
  [M, K] by a [K, N] array into a zero accumulator has, at (i, j), the sum over k of lhs (i, k) · rhs (k, j).
-/
import proofs.«158183_g2000402634679036_pallasbulk_659_42_alg».proof.Proof.Gen.KernelIdeal.Frame
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx

/-! ### The [16384, 480] · [480, 256] product -/

theorem conv1_lhs0 (i : S16384x256.Idx) (q : dot_S16384x480_S480x256_S16384x256_1_0_0_1_n_n.contr.Idx) : (dot_S16384x480_S480x256_S16384x256_1_0_0_1_n_n.lhsIdx i q 0).val = (i 0).val := by
  unfold DotDims.lhsIdx
  rw [dif_neg (show ¬(0 : Fin S16384x480.rank) ∈ dot_S16384x480_S480x256_S16384x256_1_0_0_1_n_n.lhsBatch by decide), dif_pos (show (0 : Fin S16384x480.rank) ∈ dot_S16384x480_S480x256_S16384x256_1_0_0_1_n_n.lhsNonContracting by decide)]
  rfl

theorem conv1_lhs1 (i : S16384x256.Idx) (q : dot_S16384x480_S480x256_S16384x256_1_0_0_1_n_n.contr.Idx) : (dot_S16384x480_S480x256_S16384x256_1_0_0_1_n_n.lhsIdx i q 1).val = (q ⟨0, by decide⟩).val :=
  dot_S16384x480_S480x256_S16384x256_1_0_0_1_n_n.lhsIdx_val_of_single rfl i q

theorem conv1_rhs0 (i : S16384x256.Idx) (q : dot_S16384x480_S480x256_S16384x256_1_0_0_1_n_n.contr.Idx) : (dot_S16384x480_S480x256_S16384x256_1_0_0_1_n_n.rhsIdx i q 0).val = (q ⟨0, by decide⟩).val :=
  dot_S16384x480_S480x256_S16384x256_1_0_0_1_n_n.rhsIdx_val_of_single rfl i q

theorem conv1_rhs1 (i : S16384x256.Idx) (q : dot_S16384x480_S480x256_S16384x256_1_0_0_1_n_n.contr.Idx) : (dot_S16384x480_S480x256_S16384x256_1_0_0_1_n_n.rhsIdx i q 1).val = (i 1).val := by
  unfold DotDims.rhsIdx
  rw [dif_neg (show ¬(1 : Fin S480x256.rank) ∈ dot_S16384x480_S480x256_S16384x256_1_0_0_1_n_n.rhsBatch by decide), dif_pos (show (1 : Fin S480x256.rank) ∈ dot_S16384x480_S480x256_S16384x256_1_0_0_1_n_n.rhsNonContracting by decide)]
  rfl

/-- Entry (i, j) of the product into a zero accumulator is the sum over the 480 contracted positions. -/
theorem conv1_dot {φ₁ φ₂ : FTy} (lhs : FVec Ideal S16384x480 φ₁) (rhs : FVec Ideal S480x256 φ₂) (i : Fin 16384) (j : Fin 256) :
    matmul dot_S16384x480_S480x256_S16384x256_1_0_0_1_n_n none lhs rhs (constant (F := Ideal) S16384x256 .f32 0x00000000#32) (ix2 i j)
      = ∑ k : Fin 480, lhs (ix2 i k) * rhs (ix2 k j) := by
  simp only [matmul]
  rw [Ideal.matmul_constant_zero_apply, ← Equiv.sum_comp (ValueIdx.contrEquiv1 dot_S16384x480_S480x256_S16384x256_1_0_0_1_n_n 480 rfl rfl).symm]
  refine Finset.sum_congr rfl fun k _ => ?_
  have hk := ValueIdx.contrEquiv1_symm_val dot_S16384x480_S480x256_S16384x256_1_0_0_1_n_n 480 rfl rfl k
  have el : dot_S16384x480_S480x256_S16384x256_1_0_0_1_n_n.lhsIdx (ix2 i j) ((ValueIdx.contrEquiv1 dot_S16384x480_S480x256_S16384x256_1_0_0_1_n_n 480 rfl rfl).symm k) = ix2 i k := funext fun a => Fin.ext (by
    match a with
    | ⟨0, _⟩ => exact conv1_lhs0 _ _
    | ⟨1, _⟩ => exact (conv1_lhs1 _ _).trans hk)
  have er : dot_S16384x480_S480x256_S16384x256_1_0_0_1_n_n.rhsIdx (ix2 i j) ((ValueIdx.contrEquiv1 dot_S16384x480_S480x256_S16384x256_1_0_0_1_n_n 480 rfl rfl).symm k) = ix2 k j := funext fun a => Fin.ext (by
    match a with
    | ⟨0, _⟩ => exact (conv1_rhs0 _ _).trans hk
    | ⟨1, _⟩ => exact conv1_rhs1 _ _)
  rw [el, er]

/-! ### The [8192, 420] · [420, 256] product -/

theorem conv2_lhs0 (i : S8192x256.Idx) (q : dot_S8192x420_S420x256_S8192x256_1_0_0_1_n_n.contr.Idx) : (dot_S8192x420_S420x256_S8192x256_1_0_0_1_n_n.lhsIdx i q 0).val = (i 0).val := by
  unfold DotDims.lhsIdx
  rw [dif_neg (show ¬(0 : Fin S8192x420.rank) ∈ dot_S8192x420_S420x256_S8192x256_1_0_0_1_n_n.lhsBatch by decide), dif_pos (show (0 : Fin S8192x420.rank) ∈ dot_S8192x420_S420x256_S8192x256_1_0_0_1_n_n.lhsNonContracting by decide)]
  rfl

theorem conv2_lhs1 (i : S8192x256.Idx) (q : dot_S8192x420_S420x256_S8192x256_1_0_0_1_n_n.contr.Idx) : (dot_S8192x420_S420x256_S8192x256_1_0_0_1_n_n.lhsIdx i q 1).val = (q ⟨0, by decide⟩).val :=
  dot_S8192x420_S420x256_S8192x256_1_0_0_1_n_n.lhsIdx_val_of_single rfl i q

theorem conv2_rhs0 (i : S8192x256.Idx) (q : dot_S8192x420_S420x256_S8192x256_1_0_0_1_n_n.contr.Idx) : (dot_S8192x420_S420x256_S8192x256_1_0_0_1_n_n.rhsIdx i q 0).val = (q ⟨0, by decide⟩).val :=
  dot_S8192x420_S420x256_S8192x256_1_0_0_1_n_n.rhsIdx_val_of_single rfl i q

theorem conv2_rhs1 (i : S8192x256.Idx) (q : dot_S8192x420_S420x256_S8192x256_1_0_0_1_n_n.contr.Idx) : (dot_S8192x420_S420x256_S8192x256_1_0_0_1_n_n.rhsIdx i q 1).val = (i 1).val := by
  unfold DotDims.rhsIdx
  rw [dif_neg (show ¬(1 : Fin S420x256.rank) ∈ dot_S8192x420_S420x256_S8192x256_1_0_0_1_n_n.rhsBatch by decide), dif_pos (show (1 : Fin S420x256.rank) ∈ dot_S8192x420_S420x256_S8192x256_1_0_0_1_n_n.rhsNonContracting by decide)]
  rfl

/-- Entry (i, j) of the product into a zero accumulator is the sum over the 420 contracted positions. -/
theorem conv2_dot {φ₁ φ₂ : FTy} (lhs : FVec Ideal S8192x420 φ₁) (rhs : FVec Ideal S420x256 φ₂) (i : Fin 8192) (j : Fin 256) :
    matmul dot_S8192x420_S420x256_S8192x256_1_0_0_1_n_n none lhs rhs (constant (F := Ideal) S8192x256 .f32 0x00000000#32) (ix2 i j)
      = ∑ k : Fin 420, lhs (ix2 i k) * rhs (ix2 k j) := by
  simp only [matmul]
  rw [Ideal.matmul_constant_zero_apply, ← Equiv.sum_comp (ValueIdx.contrEquiv1 dot_S8192x420_S420x256_S8192x256_1_0_0_1_n_n 420 rfl rfl).symm]
  refine Finset.sum_congr rfl fun k _ => ?_
  have hk := ValueIdx.contrEquiv1_symm_val dot_S8192x420_S420x256_S8192x256_1_0_0_1_n_n 420 rfl rfl k
  have el : dot_S8192x420_S420x256_S8192x256_1_0_0_1_n_n.lhsIdx (ix2 i j) ((ValueIdx.contrEquiv1 dot_S8192x420_S420x256_S8192x256_1_0_0_1_n_n 420 rfl rfl).symm k) = ix2 i k := funext fun a => Fin.ext (by
    match a with
    | ⟨0, _⟩ => exact conv2_lhs0 _ _
    | ⟨1, _⟩ => exact (conv2_lhs1 _ _).trans hk)
  have er : dot_S8192x420_S420x256_S8192x256_1_0_0_1_n_n.rhsIdx (ix2 i j) ((ValueIdx.contrEquiv1 dot_S8192x420_S420x256_S8192x256_1_0_0_1_n_n 420 rfl rfl).symm k) = ix2 k j := funext fun a => Fin.ext (by
    match a with
    | ⟨0, _⟩ => exact (conv2_rhs0 _ _).trans hk
    | ⟨1, _⟩ => exact conv2_rhs1 _ _)
  rw [el, er]

/-! ### The [512, 1024] · [1024, 120] product -/

theorem fc1_lhs0 (i : S512x120.Idx) (q : dot_S512x1024_S1024x120_S512x120_1_0_0_1_n_n.contr.Idx) : (dot_S512x1024_S1024x120_S512x120_1_0_0_1_n_n.lhsIdx i q 0).val = (i 0).val := by
  unfold DotDims.lhsIdx
  rw [dif_neg (show ¬(0 : Fin S512x1024.rank) ∈ dot_S512x1024_S1024x120_S512x120_1_0_0_1_n_n.lhsBatch by decide), dif_pos (show (0 : Fin S512x1024.rank) ∈ dot_S512x1024_S1024x120_S512x120_1_0_0_1_n_n.lhsNonContracting by decide)]
  rfl

theorem fc1_lhs1 (i : S512x120.Idx) (q : dot_S512x1024_S1024x120_S512x120_1_0_0_1_n_n.contr.Idx) : (dot_S512x1024_S1024x120_S512x120_1_0_0_1_n_n.lhsIdx i q 1).val = (q ⟨0, by decide⟩).val :=
  dot_S512x1024_S1024x120_S512x120_1_0_0_1_n_n.lhsIdx_val_of_single rfl i q

theorem fc1_rhs0 (i : S512x120.Idx) (q : dot_S512x1024_S1024x120_S512x120_1_0_0_1_n_n.contr.Idx) : (dot_S512x1024_S1024x120_S512x120_1_0_0_1_n_n.rhsIdx i q 0).val = (q ⟨0, by decide⟩).val :=
  dot_S512x1024_S1024x120_S512x120_1_0_0_1_n_n.rhsIdx_val_of_single rfl i q

theorem fc1_rhs1 (i : S512x120.Idx) (q : dot_S512x1024_S1024x120_S512x120_1_0_0_1_n_n.contr.Idx) : (dot_S512x1024_S1024x120_S512x120_1_0_0_1_n_n.rhsIdx i q 1).val = (i 1).val := by
  unfold DotDims.rhsIdx
  rw [dif_neg (show ¬(1 : Fin S1024x120.rank) ∈ dot_S512x1024_S1024x120_S512x120_1_0_0_1_n_n.rhsBatch by decide), dif_pos (show (1 : Fin S1024x120.rank) ∈ dot_S512x1024_S1024x120_S512x120_1_0_0_1_n_n.rhsNonContracting by decide)]
  rfl

/-- Entry (i, j) of the product into a zero accumulator is the sum over the 1024 contracted positions. -/
theorem fc1_dot {φ₁ φ₂ : FTy} (lhs : FVec Ideal S512x1024 φ₁) (rhs : FVec Ideal S1024x120 φ₂) (i : Fin 512) (j : Fin 120) :
    matmul dot_S512x1024_S1024x120_S512x120_1_0_0_1_n_n none lhs rhs (constant (F := Ideal) S512x120 .f32 0x00000000#32) (ix2 i j)
      = ∑ k : Fin 1024, lhs (ix2 i k) * rhs (ix2 k j) := by
  simp only [matmul]
  rw [Ideal.matmul_constant_zero_apply, ← Equiv.sum_comp (ValueIdx.contrEquiv1 dot_S512x1024_S1024x120_S512x120_1_0_0_1_n_n 1024 rfl rfl).symm]
  refine Finset.sum_congr rfl fun k _ => ?_
  have hk := ValueIdx.contrEquiv1_symm_val dot_S512x1024_S1024x120_S512x120_1_0_0_1_n_n 1024 rfl rfl k
  have el : dot_S512x1024_S1024x120_S512x120_1_0_0_1_n_n.lhsIdx (ix2 i j) ((ValueIdx.contrEquiv1 dot_S512x1024_S1024x120_S512x120_1_0_0_1_n_n 1024 rfl rfl).symm k) = ix2 i k := funext fun a => Fin.ext (by
    match a with
    | ⟨0, _⟩ => exact fc1_lhs0 _ _
    | ⟨1, _⟩ => exact (fc1_lhs1 _ _).trans hk)
  have er : dot_S512x1024_S1024x120_S512x120_1_0_0_1_n_n.rhsIdx (ix2 i j) ((ValueIdx.contrEquiv1 dot_S512x1024_S1024x120_S512x120_1_0_0_1_n_n 1024 rfl rfl).symm k) = ix2 k j := funext fun a => Fin.ext (by
    match a with
    | ⟨0, _⟩ => exact (fc1_rhs0 _ _).trans hk
    | ⟨1, _⟩ => exact fc1_rhs1 _ _)
  rw [el, er]

/-! ### The [512, 120] · [120, 84] product -/

theorem fc2_lhs0 (i : S512x84.Idx) (q : dot_S512x120_S120x84_S512x84_1_0_0_1_n_n.contr.Idx) : (dot_S512x120_S120x84_S512x84_1_0_0_1_n_n.lhsIdx i q 0).val = (i 0).val := by
  unfold DotDims.lhsIdx
  rw [dif_neg (show ¬(0 : Fin S512x120.rank) ∈ dot_S512x120_S120x84_S512x84_1_0_0_1_n_n.lhsBatch by decide), dif_pos (show (0 : Fin S512x120.rank) ∈ dot_S512x120_S120x84_S512x84_1_0_0_1_n_n.lhsNonContracting by decide)]
  rfl

theorem fc2_lhs1 (i : S512x84.Idx) (q : dot_S512x120_S120x84_S512x84_1_0_0_1_n_n.contr.Idx) : (dot_S512x120_S120x84_S512x84_1_0_0_1_n_n.lhsIdx i q 1).val = (q ⟨0, by decide⟩).val :=
  dot_S512x120_S120x84_S512x84_1_0_0_1_n_n.lhsIdx_val_of_single rfl i q

theorem fc2_rhs0 (i : S512x84.Idx) (q : dot_S512x120_S120x84_S512x84_1_0_0_1_n_n.contr.Idx) : (dot_S512x120_S120x84_S512x84_1_0_0_1_n_n.rhsIdx i q 0).val = (q ⟨0, by decide⟩).val :=
  dot_S512x120_S120x84_S512x84_1_0_0_1_n_n.rhsIdx_val_of_single rfl i q

theorem fc2_rhs1 (i : S512x84.Idx) (q : dot_S512x120_S120x84_S512x84_1_0_0_1_n_n.contr.Idx) : (dot_S512x120_S120x84_S512x84_1_0_0_1_n_n.rhsIdx i q 1).val = (i 1).val := by
  unfold DotDims.rhsIdx
  rw [dif_neg (show ¬(1 : Fin S120x84.rank) ∈ dot_S512x120_S120x84_S512x84_1_0_0_1_n_n.rhsBatch by decide), dif_pos (show (1 : Fin S120x84.rank) ∈ dot_S512x120_S120x84_S512x84_1_0_0_1_n_n.rhsNonContracting by decide)]
  rfl

/-- Entry (i, j) of the product into a zero accumulator is the sum over the 120 contracted positions. -/
theorem fc2_dot {φ₁ φ₂ : FTy} (lhs : FVec Ideal S512x120 φ₁) (rhs : FVec Ideal S120x84 φ₂) (i : Fin 512) (j : Fin 84) :
    matmul dot_S512x120_S120x84_S512x84_1_0_0_1_n_n none lhs rhs (constant (F := Ideal) S512x84 .f32 0x00000000#32) (ix2 i j)
      = ∑ k : Fin 120, lhs (ix2 i k) * rhs (ix2 k j) := by
  simp only [matmul]
  rw [Ideal.matmul_constant_zero_apply, ← Equiv.sum_comp (ValueIdx.contrEquiv1 dot_S512x120_S120x84_S512x84_1_0_0_1_n_n 120 rfl rfl).symm]
  refine Finset.sum_congr rfl fun k _ => ?_
  have hk := ValueIdx.contrEquiv1_symm_val dot_S512x120_S120x84_S512x84_1_0_0_1_n_n 120 rfl rfl k
  have el : dot_S512x120_S120x84_S512x84_1_0_0_1_n_n.lhsIdx (ix2 i j) ((ValueIdx.contrEquiv1 dot_S512x120_S120x84_S512x84_1_0_0_1_n_n 120 rfl rfl).symm k) = ix2 i k := funext fun a => Fin.ext (by
    match a with
    | ⟨0, _⟩ => exact fc2_lhs0 _ _
    | ⟨1, _⟩ => exact (fc2_lhs1 _ _).trans hk)
  have er : dot_S512x120_S120x84_S512x84_1_0_0_1_n_n.rhsIdx (ix2 i j) ((ValueIdx.contrEquiv1 dot_S512x120_S120x84_S512x84_1_0_0_1_n_n 120 rfl rfl).symm k) = ix2 k j := funext fun a => Fin.ext (by
    match a with
    | ⟨0, _⟩ => exact (fc2_rhs0 _ _).trans hk
    | ⟨1, _⟩ => exact fc2_rhs1 _ _)
  rw [el, er]

/-! ### The [512, 84] · [84, 10] product -/

theorem fc3_lhs0 (i : S512x10.Idx) (q : dot_S512x84_S84x10_S512x10_1_0_0_1_n_n.contr.Idx) : (dot_S512x84_S84x10_S512x10_1_0_0_1_n_n.lhsIdx i q 0).val = (i 0).val := by
  unfold DotDims.lhsIdx
  rw [dif_neg (show ¬(0 : Fin S512x84.rank) ∈ dot_S512x84_S84x10_S512x10_1_0_0_1_n_n.lhsBatch by decide), dif_pos (show (0 : Fin S512x84.rank) ∈ dot_S512x84_S84x10_S512x10_1_0_0_1_n_n.lhsNonContracting by decide)]
  rfl

theorem fc3_lhs1 (i : S512x10.Idx) (q : dot_S512x84_S84x10_S512x10_1_0_0_1_n_n.contr.Idx) : (dot_S512x84_S84x10_S512x10_1_0_0_1_n_n.lhsIdx i q 1).val = (q ⟨0, by decide⟩).val :=
  dot_S512x84_S84x10_S512x10_1_0_0_1_n_n.lhsIdx_val_of_single rfl i q

theorem fc3_rhs0 (i : S512x10.Idx) (q : dot_S512x84_S84x10_S512x10_1_0_0_1_n_n.contr.Idx) : (dot_S512x84_S84x10_S512x10_1_0_0_1_n_n.rhsIdx i q 0).val = (q ⟨0, by decide⟩).val :=
  dot_S512x84_S84x10_S512x10_1_0_0_1_n_n.rhsIdx_val_of_single rfl i q

theorem fc3_rhs1 (i : S512x10.Idx) (q : dot_S512x84_S84x10_S512x10_1_0_0_1_n_n.contr.Idx) : (dot_S512x84_S84x10_S512x10_1_0_0_1_n_n.rhsIdx i q 1).val = (i 1).val := by
  unfold DotDims.rhsIdx
  rw [dif_neg (show ¬(1 : Fin S84x10.rank) ∈ dot_S512x84_S84x10_S512x10_1_0_0_1_n_n.rhsBatch by decide), dif_pos (show (1 : Fin S84x10.rank) ∈ dot_S512x84_S84x10_S512x10_1_0_0_1_n_n.rhsNonContracting by decide)]
  rfl

/-- Entry (i, j) of the product into a zero accumulator is the sum over the 84 contracted positions. -/
theorem fc3_dot {φ₁ φ₂ : FTy} (lhs : FVec Ideal S512x84 φ₁) (rhs : FVec Ideal S84x10 φ₂) (i : Fin 512) (j : Fin 10) :
    matmul dot_S512x84_S84x10_S512x10_1_0_0_1_n_n none lhs rhs (constant (F := Ideal) S512x10 .f32 0x00000000#32) (ix2 i j)
      = ∑ k : Fin 84, lhs (ix2 i k) * rhs (ix2 k j) := by
  simp only [matmul]
  rw [Ideal.matmul_constant_zero_apply, ← Equiv.sum_comp (ValueIdx.contrEquiv1 dot_S512x84_S84x10_S512x10_1_0_0_1_n_n 84 rfl rfl).symm]
  refine Finset.sum_congr rfl fun k _ => ?_
  have hk := ValueIdx.contrEquiv1_symm_val dot_S512x84_S84x10_S512x10_1_0_0_1_n_n 84 rfl rfl k
  have el : dot_S512x84_S84x10_S512x10_1_0_0_1_n_n.lhsIdx (ix2 i j) ((ValueIdx.contrEquiv1 dot_S512x84_S84x10_S512x10_1_0_0_1_n_n 84 rfl rfl).symm k) = ix2 i k := funext fun a => Fin.ext (by
    match a with
    | ⟨0, _⟩ => exact fc3_lhs0 _ _
    | ⟨1, _⟩ => exact (fc3_lhs1 _ _).trans hk)
  have er : dot_S512x84_S84x10_S512x10_1_0_0_1_n_n.rhsIdx (ix2 i j) ((ValueIdx.contrEquiv1 dot_S512x84_S84x10_S512x10_1_0_0_1_n_n 84 rfl rfl).symm k) = ix2 k j := funext fun a => Fin.ext (by
    match a with
    | ⟨0, _⟩ => exact (fc3_rhs0 _ _).trans hk
    | ⟨1, _⟩ => exact fc3_rhs1 _ _)
  rw [el, er]

end Cert.KernelIdeal.Body

end
-- ==== Proof.KerBodyIndex.lean ====
/-
  Each array of the kernel's chain read at one entry, in terms of the array before it.
-/
import proofs.«158183_g2000402634679036_pallasbulk_659_42_alg».proof.Proof.KerBodyStages
import proofs.«158183_g2000402634679036_pallasbulk_659_42_alg».proof.Proof.KerBodyLayout
import proofs.«158183_g2000402634679036_pallasbulk_659_42_alg».proof.Proof.KerBodyDots

noncomputable section

namespace Cert.KernelIdeal.Body

open Cert.KernelIdeal Cert.KernelIdeal.Gen Idealize.ShloMosaic Idealize.ShloMosaic.ValueIdx Cert.Layout

variable (x0 : Vec Ideal S512x32x96 .bf16) (x1 : Vec Ideal S480x256 .bf16) (x2 : Vec Ideal S1x128 .f32)
  (x3 : Vec Ideal S420x256 .bf16) (x4 : Vec Ideal S1x128 .f32) (x5 : Vec Ideal S1024x120 .bf16)
  (x6 : Vec Ideal S1x120 .f32) (x7 : Vec Ideal S120x84 .bf16) (x8 : Vec Ideal S1x84 .f32)
  (x9 : Vec Ideal S84x10 .bf16) (x10 : Vec Ideal S1x10 .f32)

/-- Row `r` of the stack is row `r % 32` of image `r / 32`. -/
theorem rows1_apply (r : Fin 16384) (l : Fin 96) :
    rows1 x0 (ix2 r l) = x0 (ix3 (⟨r.val / 32, by have := r.isLt; omega⟩ : Fin 512) (⟨r.val % 32, Nat.mod_lt _ (by norm_num)⟩ : Fin 32) l) := by
  unfold rows1
  rw [shapeCast_self]
  exact fold_images (A := 512) (B := 32) (C := 96) (M := 16384) x0 _ (by norm_num) (by norm_num) r l

/-- Lane `96·n + c` of the taps at row `r` is lane `c` of row `(r + n) % 16384` of the stack. -/
theorem taps1_apply (r : Fin 16384) (n : Fin 5) (c : Fin 96) (k : Fin 480) (hk : k.val = n.val * 96 + c.val) :
    taps1 x0 (ix2 r k) = rows1 x0 (ix2 (⟨(r.val + n.val) % 16384, Nat.mod_lt _ (by norm_num)⟩ : Fin 16384) c) := by
  unfold taps1
  exact five_taps (N := 16384) (C := 96) (W := 480) (rows1 x0) 16383#32 16382#32 16381#32 16380#32 _ _ (by norm_num)
    (by decide) (by decide) (by decide) (by decide) r n c k hk

/-- The first product at (r, q). -/
theorem acc1_apply (r : Fin 16384) (q : Fin 256) :
    acc1 x0 x1 (ix2 r q) = ∑ k : Fin 480, taps1 x0 (ix2 r k) * x1 (ix2 k q) := by
  unfold acc1
  rw [conv1_dot, shapeCast_self]

theorem wide1_apply (r : Fin 16384) (j : Fin 128) :
    wide1 x0 x1 (ix2 r j) = max (acc1 x0 x1 (ix2 r (⟨j.val, by have := j.isLt; omega⟩ : Fin 256)))
      (acc1 x0 x1 (ix2 r (⟨128 + j.val, by have := j.isLt; omega⟩ : Fin 256))) := by
  unfold wide1
  rw [maximumf_apply, lanes_from 0 _ _ (by norm_num) r j, lanes_from 128 _ _ (by norm_num) r j]
  simp only [Nat.zero_add]

theorem tall1_apply (r : Fin 8192) (j : Fin 128) :
    tall1 x0 x1 (ix2 r j) = max (wide1 x0 x1 (ix2 (⟨2 * r.val, by have := r.isLt; omega⟩ : Fin 16384) j))
      (wide1 x0 x1 (ix2 (⟨2 * r.val + 1, by have := r.isLt; omega⟩ : Fin 16384) j)) := by
  unfold tall1
  rw [maximumf_apply]
  exact congrArg₂ max
    (pair_left (R := 8192) (C := 128) (M := 16384) (W := 256) (wide1 x0 x1) shapeCasts_S16384x128_S8192x256
      slices_S8192x256_o0_0_S8192x128 (by norm_num) (by norm_num) (by norm_num) r j)
    (pair_right (R := 8192) (C := 128) (M := 16384) (W := 256) (wide1 x0 x1) shapeCasts_S16384x128_S8192x256
      slices_S8192x256_o0_128_S8192x128 (by norm_num) (by norm_num) (by norm_num) r j)

theorem act1_apply (r : Fin 8192) (j : Fin 128) :
    act1 x0 x1 x2 (ix2 r j) = max (tall1 x0 x1 (ix2 r j) + x2 (ix2 (0 : Fin 1) j)) 0 := by
  unfold act1
  rw [truncf_apply, maximumf_apply, addf_apply, row_down _ _ (by norm_num) r j, shapeCast_self]
  show max _ (Ideal.ofBits .f32 0x00000000#32) = _
  rw [Ideal.ofBits_zero_f32]

theorem live1_apply (r : Fin 8192) (j : Fin 84) :
    live1 x0 x1 x2 (ix2 r j) = act1 x0 x1 x2 (ix2 r (⟨j.val, by have := j.isLt; omega⟩ : Fin 128)) := by
  unfold live1
  rw [lanes_from 0 _ _ (by norm_num) r j]
  simp only [Nat.zero_add]

theorem taps2_apply (r : Fin 8192) (n : Fin 5) (c : Fin 84) (k : Fin 420) (hk : k.val = n.val * 84 + c.val) :
    taps2 x0 x1 x2 (ix2 r k) = live1 x0 x1 x2 (ix2 (⟨(r.val + n.val) % 8192, Nat.mod_lt _ (by norm_num)⟩ : Fin 8192) c) := by
  unfold taps2
  exact five_taps (N := 8192) (C := 84) (W := 420) (live1 x0 x1 x2) 8191#32 8190#32 8189#32 8188#32 _ _ (by norm_num)
    (by decide) (by decide) (by decide) (by decide) r n c k hk

theorem acc2_apply (r : Fin 8192) (q : Fin 256) :
    acc2 x0 x1 x2 x3 (ix2 r q) = ∑ k : Fin 420, taps2 x0 x1 x2 (ix2 r k) * x3 (ix2 k q) := by
  unfold acc2
  rw [conv2_dot, shapeCast_self]

theorem wide2_apply (r : Fin 8192) (j : Fin 128) :
    wide2 x0 x1 x2 x3 (ix2 r j) = max (acc2 x0 x1 x2 x3 (ix2 r (⟨j.val, by have := j.isLt; omega⟩ : Fin 256)))
      (acc2 x0 x1 x2 x3 (ix2 r (⟨128 + j.val, by have := j.isLt; omega⟩ : Fin 256))) := by
  unfold wide2
  rw [maximumf_apply, lanes_from 0 _ _ (by norm_num) r j, lanes_from 128 _ _ (by norm_num) r j]
  simp only [Nat.zero_add]

theorem tall2_apply (r : Fin 4096) (j : Fin 128) :
    tall2 x0 x1 x2 x3 (ix2 r j) = max (wide2 x0 x1 x2 x3 (ix2 (⟨2 * r.val, by have := r.isLt; omega⟩ : Fin 8192) j))
      (wide2 x0 x1 x2 x3 (ix2 (⟨2 * r.val + 1, by have := r.isLt; omega⟩ : Fin 8192) j)) := by
  unfold tall2 fold2
  rw [maximumf_apply]
  exact congrArg₂ max
    (pair_left (R := 4096) (C := 128) (M := 8192) (W := 256) (wide2 x0 x1 x2 x3) shapeCasts_S8192x128_S4096x256
      slices_S4096x256_o0_0_S4096x128 (by norm_num) (by norm_num) (by norm_num) r j)
    (pair_right (R := 4096) (C := 128) (M := 8192) (W := 256) (wide2 x0 x1 x2 x3) shapeCasts_S8192x128_S4096x256
      slices_S4096x256_o0_128_S4096x128 (by norm_num) (by norm_num) (by norm_num) r j)

theorem act2_apply (r : Fin 4096) (j : Fin 128) :
    act2 x0 x1 x2 x3 x4 (ix2 r j) = max (tall2 x0 x1 x2 x3 (ix2 r j) + x4 (ix2 (0 : Fin 1) j)) 0 := by
  unfold act2
  rw [truncf_apply, maximumf_apply, addf_apply, row_down _ _ (by norm_num) r j, shapeCast_self]
  show max _ (Ideal.ofBits .f32 0x00000000#32) = _
  rw [Ideal.ofBits_zero_f32]

/-- Lane `k` of image `b`'s flattened activations is lane `k % 128` of its row `k / 128`. -/
theorem flat2_apply (b : Fin 512) (k : Fin 1024) :
    flat2 x0 x1 x2 x3 x4 (ix2 b k) = act2 x0 x1 x2 x3 x4 (ix2 (⟨8 * b.val + k.val / 128, by have := b.isLt; have := k.isLt; omega⟩ : Fin 4096)
      (⟨k.val % 128, Nat.mod_lt _ (by norm_num)⟩ : Fin 128)) := by
  unfold flat2
  exact fold_rows (R := 512) (C := 128) (M := 4096) (W := 1024) 8 _ _ (by norm_num) (by norm_num) (by norm_num) b k

theorem acc3_apply (b : Fin 512) (o : Fin 120) :
    acc3 x0 x1 x2 x3 x4 x5 (ix2 b o) = ∑ k : Fin 1024, flat2 x0 x1 x2 x3 x4 (ix2 b k) * x5 (ix2 k o) := by
  unfold acc3
  rw [fc1_dot, shapeCast_self]

theorem act3_apply (b : Fin 512) (o : Fin 120) :
    act3 x0 x1 x2 x3 x4 x5 x6 (ix2 b o) = max (acc3 x0 x1 x2 x3 x4 x5 (ix2 b o) + x6 (ix2 (0 : Fin 1) o)) 0 := by
  unfold act3
  rw [truncf_apply, maximumf_apply, addf_apply, row_down _ _ (by norm_num) b o]
  show max _ (Ideal.ofBits .f32 0x00000000#32) = _
  rw [Ideal.ofBits_zero_f32]

theorem acc4_apply (b : Fin 512) (o : Fin 84) :
    acc4 x0 x1 x2 x3 x4 x5 x6 x7 (ix2 b o) = ∑ k : Fin 120, act3 x0 x1 x2 x3 x4 x5 x6 (ix2 b k) * x7 (ix2 k o) := by
  unfold acc4
  rw [fc2_dot]

theorem act4_apply (b : Fin 512) (o : Fin 84) :
    act4 x0 x1 x2 x3 x4 x5 x6 x7 x8 (ix2 b o) = max (acc4 x0 x1 x2 x3 x4 x5 x6 x7 (ix2 b o) + x8 (ix2 (0 : Fin 1) o)) 0 := by
  unfold act4
  rw [truncf_apply, maximumf_apply, addf_apply, row_down _ _ (by norm_num) b o]
  show max _ (Ideal.ofBits .f32 0x00000000#32) = _
  rw [Ideal.ofBits_zero_f32]

theorem logits_apply (b : Fin 512) (o : Fin 10) :
    logits x0 x1 x2 x3 x4 x5 x6 x7 x8 x9 x10 (ix2 b o)
      = (∑ k : Fin 84, act4 x0 x1 x2 x3 x4 x5 x6 x7 x8 (ix2 b k) * x9 (ix2 k o)) + x10 (ix2 (0 : Fin 1) o) := by
  unfold logits
  rw [addf_apply, fc3_dot, row_down _ _ (by norm_num) b o]

end Cert.KernelIdeal.Body

end
-- ==== Proof.LibFinSums.lean ====
/-
  Two facts about finite sums over an additive commutative monoid.
  * A sum over `a·b` positions is the double sum over (n, c) of the term at position `n·b + c`.
  * A sum whose terms vanish from position `n` on is the sum of its first `n` terms.
-/
import Mathlib.Algebra.BigOperators.Fin
import Idealize.ShloMosaic.Lib.ValueIdx

namespace Cert.FinSums

/-- A sum over `a·b` positions as a double sum: position `n·b + c`. -/
theorem sum_split {M : Type*} [AddCommMonoid M] (a b K : Nat) (hK : K = a * b) (f : Fin K → M) :
    ∑ k, f k = ∑ n : Fin a, ∑ c : Fin b,
      f ⟨n.val * b + c.val, by subst hK; have := n.isLt; have := c.isLt; nlinarith⟩ := by
  subst hK
  rw [← Equiv.sum_comp finProdFinEquiv f, Fintype.sum_prod_type]
  refine Finset.sum_congr rfl fun n _ => Finset.sum_congr rfl fun c _ => congrArg f (Fin.ext ?_)
  simp only [finProdFinEquiv_apply_val]
  ring

/-- A sum whose terms vanish from position `n` on is the sum of its first `n` terms. -/
theorem sum_prefix {M : Type*} [AddCommMonoid M] (n N : Nat) (h : n ≤ N) (f : Fin N → M)
    (hz : ∀ k : Fin N, n ≤ k.val → f k = 0) :
    ∑ k, f k = ∑ k : Fin n, f ⟨k.val, lt_of_lt_of_le k.isLt h⟩ := by
  obtain ⟨m, rfl⟩ := Nat.exists_eq_add_of_le h
  rw [Fin.sum_univ_add]
  have hzero : ∑ i : Fin m, f (Fin.natAdd n i) = 0 := Finset.sum_eq_zero fun i _ => hz _ (by simp)
  rw [hzero, add_zero]
  exact Finset.sum_congr rfl fun k _ => congrArg f (Fin.ext rfl)

end Cert.FinSums
-- ==== Proof.KerBodyConv.lean ====
/-
  The two convolution levels of the kernel's chain are the network's, on the rows that belong to an image.
  Row `32·bl + i` of the stack is row `i` of image `bl`; a tap `n ≤ 4` above a row `i ≤ 27` stays inside the image, so the
  product at row `32·bl + i`, column `128·p + j` (`j < 84`) is `conv1` of that image at (i, p, j) — the sum over the 480
  contracted positions split into five taps of 96 lanes, the lanes `32·c + w` matched with the network's `3·w + c`.
  Pooling pairs the rows `2·hp`, `2·hp + 1`, which for `hp ≤ 13` are rows of the same image. The second level repeats
  this on 16 rows per image (taps stay inside for `i ≤ 9`), with no change of lane order.
-/
import proofs.«158183_g2000402634679036_pallasbulk_659_42_alg».proof.Proof.KerBodyIndex
import proofs.«158183_g2000402634679036_pallasbulk_659_42_alg».proof.Proof.LibFinSums
import proofs.«158183_g2000402634679036_pallasbulk_659_42_alg».proof.Proof.Spec

noncomputable section

namespace Cert.KernelIdeal.Body

open Cert.KernelIdeal Cert.KernelIdeal.Gen Idealize.ShloMosaic Idealize.ShloMosaic.ValueIdx Cert.Layout Cert.FinSums

/-- Image `bl` of grid point `t`. -/
def imgOf (t : Fin 8) (bl : Fin 512) : Fin 4096 := ⟨512 * t.val + bl.val, by have := t.isLt; have := bl.isLt; omega⟩

/-- The kernel's lane `32·c + w` is the network's lane `3·w + c`. -/
def lanePerm : Fin 96 ≃ Fin 96 where
  toFun c := ⟨3 * (c.val % 32) + c.val / 32, by have := c.isLt; omega⟩
  invFun l := ⟨32 * (l.val % 3) + l.val / 3, by have := l.isLt; omega⟩
  left_inv c := Fin.ext (by have := c.isLt; show 32 * ((3 * (c.val % 32) + c.val / 32) % 3) + (3 * (c.val % 32) + c.val / 32) / 3 = c.val; omega)
  right_inv l := Fin.ext (by have := l.isLt; show 3 * ((32 * (l.val % 3) + l.val / 3) % 32) + (32 * (l.val % 3) + l.val / 3) / 32 = l.val; omega)

variable (x0 : Vec Ideal S512x32x96 .bf16) (x1 : Vec Ideal S480x256 .bf16) (x2 : Vec Ideal S1x128 .f32)
  (x3 : Vec Ideal S420x256 .bf16) (x4 : Vec Ideal S1x128 .f32) (x5 : Vec Ideal S1024x120 .bf16)
  (x6 : Vec Ideal S1x120 .f32) (x7 : Vec Ideal S120x84 .bf16) (x8 : Vec Ideal S1x84 .f32)
  (x9 : Vec Ideal S84x10 .bf16) (x10 : Vec Ideal S1x10 .f32)
variable (A : Cert.Spec.Args) (t : Fin 8)
variable (hx0 : ∀ (bl : Fin 512) (h : Fin 32) (l : Fin 96), x0 (ix3 bl h l) =
      A.X (ix4 (⟨512 * t.val + bl.val, by have := t.isLt; have := bl.isLt; omega⟩ : Fin 4096)
               (⟨l.val / 32, by have := l.isLt; omega⟩ : Fin 3) h (⟨l.val % 32, Nat.mod_lt _ (by norm_num)⟩ : Fin 32)))
variable (hx1 : ∀ (k : Fin 480) (q : Fin 256), x1 (ix2 k q) =
      if hq : q.val % 128 < 84 then
        A.W1 (ix4 (⟨k.val / 96, by have := k.isLt; omega⟩ : Fin 5) (⟨q.val / 128, by have := q.isLt; omega⟩ : Fin 2)
                  (⟨3 * (k.val % 32) + (k.val % 96) / 32, by omega⟩ : Fin 96) (⟨q.val % 128, hq⟩ : Fin 84))
      else 0)
variable (hx2 : ∀ j : Fin 128, x2 (ix2 (0 : Fin 1) j) = if hj : j.val < 84 then A.B1 (ix2 (0 : Fin 1) (⟨j.val, hj⟩ : Fin 84)) else 0)
variable (hx3 : ∀ (k : Fin 420) (q : Fin 256), x3 (ix2 k q) =
      if hq : q.val % 128 < 80 then
        A.W2 (ix4 (⟨k.val / 84, by have := k.isLt; omega⟩ : Fin 5) (⟨q.val / 128, by have := q.isLt; omega⟩ : Fin 2)
                  (⟨k.val % 84, Nat.mod_lt _ (by norm_num)⟩ : Fin 84) (⟨q.val % 128, hq⟩ : Fin 80))
      else 0)
variable (hx4 : ∀ j : Fin 128, x4 (ix2 (0 : Fin 1) j) = if hj : j.val < 80 then A.B2 (ix2 (0 : Fin 1) (⟨j.val, hj⟩ : Fin 80)) else 0)

include hx0 in
/-- Row `32·bl + h` of the stack at the kernel's lane `c` is the image's row `h` at the network's lane of `c`. -/
theorem rows1_img (bl : Fin 512) (h : Fin 32) (c : Fin 96) (r : Fin 16384) (hr : r.val = 32 * bl.val + h.val) :
    rows1 x0 (ix2 r c) = Cert.Spec.img A (imgOf t bl) h (lanePerm c) := by
  rw [rows1_apply]
  have e : (ix3 (⟨r.val / 32, by have := r.isLt; omega⟩ : Fin 512) (⟨r.val % 32, Nat.mod_lt _ (by norm_num)⟩ : Fin 32) c) = ix3 bl h c := by
    refine funext fun a => Fin.ext ?_
    have := h.isLt
    match a with
    | ⟨0, _⟩ => show r.val / 32 = bl.val; omega
    | ⟨1, _⟩ => show r.val % 32 = h.val; omega
    | ⟨2, _⟩ => rfl
  rw [e, hx0 bl h c]
  unfold Cert.Spec.img
  refine congrArg A.X (funext fun a => Fin.ext ?_)
  have := c.isLt
  match a with
  | ⟨0, _⟩ => rfl
  | ⟨1, _⟩ => show c.val / 32 = (3 * (c.val % 32) + c.val / 32) % 3; omega
  | ⟨2, _⟩ => rfl
  | ⟨3, _⟩ => show c.val % 32 = (3 * (c.val % 32) + c.val / 32) / 3; omega

include hx0 hx1 in
/-- The first product on an image's rows is the network's first convolution. -/
theorem acc1_conv (bl : Fin 512) (i : Fin 28) (p : Fin 2) (j : Fin 84) (r : Fin 16384) (hr : r.val = 32 * bl.val + i.val)
    (q : Fin 256) (hq : q.val = 128 * p.val + j.val) :
    acc1 x0 x1 (ix2 r q) = Cert.Spec.conv1 A (imgOf t bl) i p j := by
  rw [acc1_apply, sum_split 5 96 480 (by norm_num)]
  unfold Cert.Spec.conv1
  refine Finset.sum_congr rfl fun n _ => ?_
  refine (Finset.sum_congr rfl fun c _ => ?_).trans
    (Equiv.sum_comp lanePerm (fun l => Cert.Spec.img A (imgOf t bl)
      (⟨i.val + n.val, by have := i.isLt; have := n.isLt; omega⟩ : Fin 32) l * A.W1 (ix4 n p l j)))
  have hi := i.isLt; have hn := n.isLt; have hc := c.isLt; have hb := bl.isLt; have hj := j.isLt; have hp := p.isLt
  congr 1
  · rw [taps1_apply x0 r n c _ rfl]
    exact rows1_img x0 A t hx0 bl (⟨i.val + n.val, by omega⟩ : Fin 32) c _ (by
      show (r.val + n.val) % 16384 = 32 * bl.val + (i.val + n.val); omega)
  · rw [hx1, dif_pos (by show q.val % 128 < 84; omega)]
    refine congrArg A.W1 (funext fun a => Fin.ext ?_)
    match a with
    | ⟨0, _⟩ => show (n.val * 96 + c.val) / 96 = n.val; omega
    | ⟨1, _⟩ => show q.val / 128 = p.val; omega
    | ⟨2, _⟩ => show 3 * ((n.val * 96 + c.val) % 32) + ((n.val * 96 + c.val) % 96) / 32 = 3 * (c.val % 32) + c.val / 32; omega
    | ⟨3, _⟩ => show q.val % 128 = j.val; omega

include hx0 hx1 hx2 in
/-- The first clamped activation on an image's pooled rows is the network's. -/
theorem act1_pool (bl : Fin 512) (hp : Fin 14) (j : Fin 84) (r : Fin 8192) (hr : r.val = 16 * bl.val + hp.val)
    (jj : Fin 128) (hjj : jj.val = j.val) :
    act1 x0 x1 x2 (ix2 r jj) = Cert.Spec.pool1 A (imgOf t bl) hp j := by
  have hh := hp.isLt; have hb := bl.isLt; have hj := j.isLt
  rw [act1_apply, tall1_apply, wide1_apply, wide1_apply,
    acc1_conv x0 x1 A t hx0 hx1 bl (⟨2 * hp.val, by omega⟩ : Fin 28) 0 j _ (by show 2 * r.val = 32 * bl.val + 2 * hp.val; omega) _ (by show jj.val = 128 * 0 + j.val; omega),
    acc1_conv x0 x1 A t hx0 hx1 bl (⟨2 * hp.val, by omega⟩ : Fin 28) 1 j _ (by show 2 * r.val = 32 * bl.val + 2 * hp.val; omega) _ (by show 128 + jj.val = 128 * 1 + j.val; omega),
    acc1_conv x0 x1 A t hx0 hx1 bl (⟨2 * hp.val + 1, by omega⟩ : Fin 28) 0 j _ (by show 2 * r.val + 1 = 32 * bl.val + (2 * hp.val + 1); omega) _ (by show jj.val = 128 * 0 + j.val; omega),
    acc1_conv x0 x1 A t hx0 hx1 bl (⟨2 * hp.val + 1, by omega⟩ : Fin 28) 1 j _ (by show 2 * r.val + 1 = 32 * bl.val + (2 * hp.val + 1); omega) _ (by show 128 + jj.val = 128 * 1 + j.val; omega),
    hx2 jj, dif_pos (by omega : jj.val < 84)]
  unfold Cert.Spec.pool1
  have ej : (⟨jj.val, by omega⟩ : Fin 84) = j := Fin.ext hjj
  rw [ej]

include hx0 hx1 hx2 in
theorem live1_pool (bl : Fin 512) (hp : Fin 14) (l : Fin 84) (r : Fin 8192) (hr : r.val = 16 * bl.val + hp.val) :
    live1 x0 x1 x2 (ix2 r l) = Cert.Spec.pool1 A (imgOf t bl) hp l := by
  rw [live1_apply]
  exact act1_pool x0 x1 x2 A t hx0 hx1 hx2 bl hp l r hr _ rfl

include hx0 hx1 hx2 hx3 in
/-- The second product on an image's rows is the network's second convolution. -/
theorem acc2_conv (bl : Fin 512) (i : Fin 10) (p : Fin 2) (j : Fin 80) (r : Fin 8192) (hr : r.val = 16 * bl.val + i.val)
    (q : Fin 256) (hq : q.val = 128 * p.val + j.val) :
    acc2 x0 x1 x2 x3 (ix2 r q) = Cert.Spec.conv2 A (imgOf t bl) i p j := by
  rw [acc2_apply, sum_split 5 84 420 (by norm_num)]
  unfold Cert.Spec.conv2
  refine Finset.sum_congr rfl fun n _ => Finset.sum_congr rfl fun c _ => ?_
  have hi := i.isLt; have hn := n.isLt; have hc := c.isLt; have hb := bl.isLt; have hj := j.isLt; have hp := p.isLt
  congr 1
  · rw [taps2_apply x0 x1 x2 r n c _ rfl]
    exact live1_pool x0 x1 x2 A t hx0 hx1 hx2 bl (⟨i.val + n.val, by omega⟩ : Fin 14) c _ (by
      show (r.val + n.val) % 8192 = 16 * bl.val + (i.val + n.val); omega)
  · rw [hx3, dif_pos (by show q.val % 128 < 80; omega)]
    refine congrArg A.W2 (funext fun a => Fin.ext ?_)
    match a with
    | ⟨0, _⟩ => show (n.val * 84 + c.val) / 84 = n.val; omega
    | ⟨1, _⟩ => show q.val / 128 = p.val; omega
    | ⟨2, _⟩ => show (n.val * 84 + c.val) % 84 = c.val; omega
    | ⟨3, _⟩ => show q.val % 128 = j.val; omega

include hx0 hx1 hx2 hx3 hx4 in
/-- The second clamped activation on an image's pooled rows is the network's. -/
theorem act2_pool (bl : Fin 512) (hp : Fin 5) (j : Fin 80) (r : Fin 4096) (hr : r.val = 8 * bl.val + hp.val)
    (jj : Fin 128) (hjj : jj.val = j.val) :
    act2 x0 x1 x2 x3 x4 (ix2 r jj) = Cert.Spec.pool2 A (imgOf t bl) hp j := by
  have hh := hp.isLt; have hb := bl.isLt; have hj := j.isLt
  rw [act2_apply, tall2_apply, wide2_apply, wide2_apply,
    acc2_conv x0 x1 x2 x3 A t hx0 hx1 hx2 hx3 bl (⟨2 * hp.val, by omega⟩ : Fin 10) 0 j _ (by show 2 * r.val = 16 * bl.val + 2 * hp.val; omega) _ (by show jj.val = 128 * 0 + j.val; omega),
    acc2_conv x0 x1 x2 x3 A t hx0 hx1 hx2 hx3 bl (⟨2 * hp.val, by omega⟩ : Fin 10) 1 j _ (by show 2 * r.val = 16 * bl.val + 2 * hp.val; omega) _ (by show 128 + jj.val = 128 * 1 + j.val; omega),
    acc2_conv x0 x1 x2 x3 A t hx0 hx1 hx2 hx3 bl (⟨2 * hp.val + 1, by omega⟩ : Fin 10) 0 j _ (by show 2 * r.val + 1 = 16 * bl.val + (2 * hp.val + 1); omega) _ (by show jj.val = 128 * 0 + j.val; omega),
    acc2_conv x0 x1 x2 x3 A t hx0 hx1 hx2 hx3 bl (⟨2 * hp.val + 1, by omega⟩ : Fin 10) 1 j _ (by show 2 * r.val + 1 = 16 * bl.val + (2 * hp.val + 1); omega) _ (by show 128 + jj.val = 128 * 1 + j.val; omega),
    hx4 jj, dif_pos (by omega : jj.val < 80)]
  unfold Cert.Spec.pool2
  have ej : (⟨jj.val, by omega⟩ : Fin 80) = j := Fin.ext hjj
  rw [ej]

end Cert.KernelIdeal.Body

end
-- ==== Proof.KerBodyDense.lean ====
/-
  The three dense layers of the kernel's chain are the network's, and with them the whole body.
  The first contracts the 1024 lanes of an image's flattened activations, lane `128·hp + j` being lane `j` of its row
  `hp`; the weight at that lane is zero for `hp ≥ 5` or `j ≥ 80`, and a product with zero is zero over the extended reals
  whatever the other factor, so only the 5 × 80 terms of the network's contraction remain.
-/
import proofs.«158183_g2000402634679036_pallasbulk_659_42_alg».proof.Proof.KerBodyConv
import proofs.«158183_g2000402634679036_pallasbulk_659_42_alg».proof.Proof.Interface

noncomputable section

namespace Cert.KernelIdeal.Body

open Cert.KernelIdeal Cert.KernelIdeal.Gen Idealize.ShloMosaic Idealize.ShloMosaic.ValueIdx Cert.Layout Cert.FinSums

variable (x0 : Vec Ideal S512x32x96 .bf16) (x1 : Vec Ideal S480x256 .bf16) (x2 : Vec Ideal S1x128 .f32)
  (x3 : Vec Ideal S420x256 .bf16) (x4 : Vec Ideal S1x128 .f32) (x5 : Vec Ideal S1024x120 .bf16)
  (x6 : Vec Ideal S1x120 .f32) (x7 : Vec Ideal S120x84 .bf16) (x8 : Vec Ideal S1x84 .f32)
  (x9 : Vec Ideal S84x10 .bf16) (x10 : Vec Ideal S1x10 .f32)
variable (A : Cert.Spec.Args) (t : Fin 8)
variable (hx0 : ∀ (bl : Fin 512) (h : Fin 32) (l : Fin 96), x0 (ix3 bl h l) =
      A.X (ix4 (⟨512 * t.val + bl.val, by have := t.isLt; have := bl.isLt; omega⟩ : Fin 4096)
               (⟨l.val / 32, by have := l.isLt; omega⟩ : Fin 3) h (⟨l.val % 32, Nat.mod_lt _ (by norm_num)⟩ : Fin 32)))
variable (hx1 : ∀ (k : Fin 480) (q : Fin 256), x1 (ix2 k q) =
      if hq : q.val % 128 < 84 then
        A.W1 (ix4 (⟨k.val / 96, by have := k.isLt; omega⟩ : Fin 5) (⟨q.val / 128, by have := q.isLt; omega⟩ : Fin 2)
                  (⟨3 * (k.val % 32) + (k.val % 96) / 32, by omega⟩ : Fin 96) (⟨q.val % 128, hq⟩ : Fin 84))
      else 0)
variable (hx2 : ∀ j : Fin 128, x2 (ix2 (0 : Fin 1) j) = if hj : j.val < 84 then A.B1 (ix2 (0 : Fin 1) (⟨j.val, hj⟩ : Fin 84)) else 0)
variable (hx3 : ∀ (k : Fin 420) (q : Fin 256), x3 (ix2 k q) =
      if hq : q.val % 128 < 80 then
        A.W2 (ix4 (⟨k.val / 84, by have := k.isLt; omega⟩ : Fin 5) (⟨q.val / 128, by have := q.isLt; omega⟩ : Fin 2)
                  (⟨k.val % 84, Nat.mod_lt _ (by norm_num)⟩ : Fin 84) (⟨q.val % 128, hq⟩ : Fin 80))
      else 0)
variable (hx4 : ∀ j : Fin 128, x4 (ix2 (0 : Fin 1) j) = if hj : j.val < 80 then A.B2 (ix2 (0 : Fin 1) (⟨j.val, hj⟩ : Fin 80)) else 0)
variable (hx5 : ∀ (k : Fin 1024) (o : Fin 120), x5 (ix2 k o) =
      if hk : k.val / 128 < 5 ∧ k.val % 128 < 80 then
        A.WF1 (ix3 (⟨k.val / 128, hk.1⟩ : Fin 5) (⟨k.val % 128, hk.2⟩ : Fin 80) o)
      else 0)
variable (hx6 : x6 = A.BF1) (hx7 : x7 = A.WF2) (hx8 : x8 = A.BF2) (hx9 : x9 = A.WF3) (hx10 : x10 = A.BF3)

include hx0 hx1 hx2 hx3 hx4 hx5 hx6 in
/-- The first dense layer. -/
theorem act3_fc1 (bl : Fin 512) (o : Fin 120) :
    act3 x0 x1 x2 x3 x4 x5 x6 (ix2 bl o) = Cert.Spec.fc1 A (imgOf t bl) o := by
  have hb := bl.isLt
  have key : (∑ k : Fin 1024, flat2 x0 x1 x2 x3 x4 (ix2 bl k) * x5 (ix2 k o))
      = ∑ hp : Fin 5, ∑ j : Fin 80, Cert.Spec.pool2 A (imgOf t bl) hp j * A.WF1 (ix3 hp j o) := by
    rw [sum_split 8 128 1024 (by norm_num)]
    refine (sum_prefix 5 8 (by norm_num) _ ?hz).trans ?_
    case hz =>
      intro hp h5
      refine Finset.sum_eq_zero fun j _ => ?_
      have hj := j.isLt
      rw [hx5, dif_neg (fun h => by have h1 : (hp.val * 128 + j.val) / 128 < 5 := h.1; omega), mul_zero]
    refine Finset.sum_congr rfl fun hp _ => ?_
    have hh := hp.isLt
    refine (sum_prefix 80 128 (by norm_num) _ ?hz2).trans ?_
    case hz2 =>
      intro j h80
      have hj := j.isLt
      rw [hx5, dif_neg (fun h => by have h2 : (hp.val * 128 + j.val) % 128 < 80 := h.2; omega), mul_zero]
    refine Finset.sum_congr rfl fun j _ => ?_
    have hj := j.isLt
    congr 1
    · rw [flat2_apply]
      exact act2_pool x0 x1 x2 x3 x4 A t hx0 hx1 hx2 hx3 hx4 bl hp j _
        (by show 8 * bl.val + (hp.val * 128 + j.val) / 128 = 8 * bl.val + hp.val; omega) _
        (by show (hp.val * 128 + j.val) % 128 = j.val; omega)
    · rw [hx5, dif_pos ⟨by show (hp.val * 128 + j.val) / 128 < 5; omega, by show (hp.val * 128 + j.val) % 128 < 80; omega⟩]
      refine congrArg A.WF1 (funext fun a => Fin.ext ?_)
      match a with
      | ⟨0, _⟩ => show (hp.val * 128 + j.val) / 128 = hp.val; omega
      | ⟨1, _⟩ => show (hp.val * 128 + j.val) % 128 = j.val; omega
      | ⟨2, _⟩ => rfl
  rw [act3_apply, acc3_apply, key, hx6]
  unfold Cert.Spec.fc1
  rw [add_comm]

include hx0 hx1 hx2 hx3 hx4 hx5 hx6 hx7 hx8 in
/-- The second dense layer. -/
theorem act4_fc2 (bl : Fin 512) (o : Fin 84) :
    act4 x0 x1 x2 x3 x4 x5 x6 x7 x8 (ix2 bl o) = Cert.Spec.fc2 A (imgOf t bl) o := by
  have key : (∑ k : Fin 120, act3 x0 x1 x2 x3 x4 x5 x6 (ix2 bl k) * x7 (ix2 k o))
      = ∑ k : Fin 120, Cert.Spec.fc1 A (imgOf t bl) k * A.WF2 (ix2 k o) :=
    Finset.sum_congr rfl fun k _ => by rw [act3_fc1 x0 x1 x2 x3 x4 x5 x6 A t hx0 hx1 hx2 hx3 hx4 hx5 hx6 bl k, hx7]
  rw [act4_apply, acc4_apply, key, hx8]
  unfold Cert.Spec.fc2
  rfl

include hx0 hx1 hx2 hx3 hx4 hx5 hx6 hx7 hx8 hx9 hx10 in
/-- The third dense layer: the stored block holds the images' logits. -/
theorem logits_out (bl : Fin 512) (o : Fin 10) :
    logits x0 x1 x2 x3 x4 x5 x6 x7 x8 x9 x10 (ix2 bl o) = Cert.Spec.out A (imgOf t bl) o := by
  have key : (∑ k : Fin 84, act4 x0 x1 x2 x3 x4 x5 x6 x7 x8 (ix2 bl k) * x9 (ix2 k o))
      = ∑ k : Fin 84, Cert.Spec.fc2 A (imgOf t bl) k * A.WF3 (ix2 k o) :=
    Finset.sum_congr rfl fun k _ => by rw [act4_fc2 x0 x1 x2 x3 x4 x5 x6 x7 x8 A t hx0 hx1 hx2 hx3 hx4 hx5 hx6 hx7 hx8 bl k, hx9]
  rw [logits_apply, key, hx10]
  unfold Cert.Spec.out
  rfl

end Cert.KernelIdeal.Body

/-- One launch of the kernel's body writes the logits of its 512 images. -/
theorem Cert.Bridge.ker_body : Cert.Bridge.KerBody := by
  intro A t x0 x1 x2 x3 x4 x5 x6 x7 x8 x9 x10 hx0 hx1 hx2 hx3 hx4 hx5 hx6 hx7 hx8 hx9 hx10 bl o
  rw [Cert.KernelIdeal.Body.out_eq_logits]
  exact Cert.KernelIdeal.Body.logits_out x0 x1 x2 x3 x4 x5 x6 x7 x8 x9 x10 A t hx0 hx1 hx2 hx3 hx4 hx5 hx6 hx7 hx8 hx9 hx10 bl o

end
-- ==== Proof.KerRunHostX.lean ====
/-
  The staged images the region finds, read at an index: the image array with its format narrowed (the identity over the
  extended reals), the channel axis moved behind the row axis, and the last two axes flattened to 96 lanes — so lane
  `l = 32·c + w` of row `h` of image `b` is channel `c`, row `h`, column `w` of the argument.
-/
import proofs.«158183_g2000402634679036_pallasbulk_659_42_alg».proof.Proof.Interface
import proofs.«158183_g2000402634679036_pallasbulk_659_42_alg».proof.Proof.Gen.KernelIdeal.Value
import Idealize.ShloMosaic.Lib.KernelVsHost
import Idealize.ShloMosaic.Lib.Pipeline.Value
import Idealize.ShloMosaic.Lib.ValueIdx
import Idealize.ShloMosaic.Lib.Tactic

noncomputable section

open Idealize.ShloMosaic Idealize.ShloMosaic.ValueIdx Idealize.SL.Sem Idealize.ShloMosaic.TcCoe
open Idealize.ShloMosaic.StableHlo

namespace Cert.KerSide

open Cert.KernelIdeal Cert.KernelIdeal.Gen

variable (m : (ℓ : Loc Cert.KernelIdeal.nD Cert.KernelIdeal.τ Cert.KernelIdeal.sig) → Buf (Elt Ideal) ℓ)

/-- Row `h`, lane `l` of staged image `b` is the argument at channel `l / 32`, row `h`, column `l % 32`. -/
theorem host_x (c : Dev nD) (b : Fin 4096) (h : Fin 32) (l : Fin 96) :
    (V m c main_call0_v2 : S4096x32x96.Idx → EReal) (ix3 b h l)
      = (args m c).X (ix4 b (⟨l.val / 32, by have := l.isLt; omega⟩ : Fin 3) h (⟨l.val % 32, Nat.mod_lt _ (by norm_num)⟩ : Fin 32)) := by
  have e : (V m c main_call0_v2 : S4096x32x96.Idx → EReal)
      = shapeCast S4096x32x96 (transpose S4096x32x3x32 [0, 2, 1, 3]
          (truncf (F := Ideal) .bf16 (m ((c : Thread nD τ).loc main_arg0) : S4096x3x32x32.Idx → EReal) bitsLt_bf16_f32)
          transposes_S4096x3x32x32_S4096x32x3x32_0_2_1_3) shapeCasts_S4096x32x3x32_S4096x32x96 := by
    dsimp only [Gen.V, Gen.hostOps0]; after_results; rfl
  rw [e]
  refine (shapeCast_apply _ _ (ix3 b h l)
    (ix4 b h (⟨l.val / 32, by have := l.isLt; omega⟩ : Fin 3) (⟨l.val % 32, Nat.mod_lt _ (by norm_num)⟩ : Fin 32)) ?_).trans ?_
  · rw [Shape.rowMajor_val_four, Shape.rowMajor_val_three]
    show ((b.val * 32 + h.val) * 3 + l.val / 32) * 32 + l.val % 32 = (b.val * 32 + h.val) * 96 + l.val
    omega
  refine (transpose_apply _ _ _ _
    (ix4 b (⟨l.val / 32, by have := l.isLt; omega⟩ : Fin 3) h (⟨l.val % 32, Nat.mod_lt _ (by norm_num)⟩ : Fin 32)) fun a => ?_).trans rfl
  match a with
  | ⟨0, _⟩ => rfl
  | ⟨1, _⟩ => rfl
  | ⟨2, _⟩ => rfl
  | ⟨3, _⟩ => rfl

end Cert.KerSide

end
-- ==== Proof.KerRunHostW1.lean ====
/-
  The first convolution's weights as the region finds them, read at an index. The argument [5, 2, 96, 84] has its row axis
  re-ordered from `3·w + c` to `32·c + w` (split into [32, 3], the two swapped, merged again), is padded with zeros to 128
  lanes, and its two parity slices are laid side by side along the lanes ([5, 96, 256]) with the first two axes
  flattened — so row `96·di + 32·c + w`, column `128·p + j` is `w1[di, p, 3·w + c, j]` for `j < 84` and zero for `j ≥ 84`.
-/
import proofs.«158183_g2000402634679036_pallasbulk_659_42_alg».proof.Proof.Interface
import proofs.«158183_g2000402634679036_pallasbulk_659_42_alg».proof.Proof.Gen.KernelIdeal.Value
import Idealize.ShloMosaic.Lib.KernelVsHost
import Idealize.ShloMosaic.Lib.Pipeline.Value
import Idealize.ShloMosaic.Lib.ValueIdx
import Idealize.ShloMosaic.Lib.Tactic

noncomputable section

open Idealize.ShloMosaic Idealize.ShloMosaic.ValueIdx Idealize.SL.Sem Idealize.ShloMosaic.TcCoe
open Idealize.ShloMosaic.StableHlo

namespace Cert.KerSide

open Cert.KernelIdeal Cert.KernelIdeal.Gen

variable (m : (ℓ : Loc Cert.KernelIdeal.nD Cert.KernelIdeal.τ Cert.KernelIdeal.sig) → Buf (Elt Ideal) ℓ)

/-- The re-ordered rows: row `r = 32·c + w` of the re-ordered array is row `3·w + c` of the argument. -/
theorem w1_perm (W : S5x2x96x84.Idx → EReal) (di : Fin 5) (p : Fin 2) (r : Fin 96) (j : Fin 84) :
    shapeCast S5x2x96x84 (transpose S5x2x3x32x84 [0, 1, 3, 2, 4]
        (shapeCast S5x2x32x3x84 W shapeCasts_S5x2x96x84_S5x2x32x3x84)
        transposes_S5x2x32x3x84_S5x2x3x32x84_0_1_3_2_4) shapeCasts_S5x2x3x32x84_S5x2x96x84 (ix4 di p r j)
      = W (ix4 di p (⟨3 * (r.val % 32) + r.val / 32, by have := r.isLt; omega⟩ : Fin 96) j) := by
  have hr := r.isLt
  refine (shapeCast_apply _ _ (ix4 di p r j)
    (ix5 di p (⟨r.val / 32, by omega⟩ : Fin 3) (⟨r.val % 32, Nat.mod_lt _ (by norm_num)⟩ : Fin 32) j) ?_).trans ?_
  · rw [Shape.rowMajor_val_five, Shape.rowMajor_val_four]
    show (((di.val * 2 + p.val) * 3 + r.val / 32) * 32 + r.val % 32) * 84 + j.val = ((di.val * 2 + p.val) * 96 + r.val) * 84 + j.val
    omega
  refine (transpose_apply _ _ _ _
    (ix5 di p (⟨r.val % 32, Nat.mod_lt _ (by norm_num)⟩ : Fin 32) (⟨r.val / 32, by omega⟩ : Fin 3) j) fun a => ?_).trans ?_
  · match a with
    | ⟨0, _⟩ => rfl
    | ⟨1, _⟩ => rfl
    | ⟨2, _⟩ => rfl
    | ⟨3, _⟩ => rfl
    | ⟨4, _⟩ => rfl
  refine shapeCast_apply _ _ _ (ix4 di p (⟨3 * (r.val % 32) + r.val / 32, by omega⟩ : Fin 96) j) ?_
  rw [Shape.rowMajor_val_five, Shape.rowMajor_val_four]
  show ((di.val * 2 + p.val) * 96 + (3 * (r.val % 32) + r.val / 32)) * 84 + j.val
    = (((di.val * 2 + p.val) * 32 + r.val % 32) * 3 + r.val / 32) * 84 + j.val
  omega

/-- The padded weights at tap `di`, parity `p`, row `r`, lane `q`. -/
theorem w1_pad (W : S5x2x96x84.Idx → EReal) (di : Fin 5) (p : Fin 2) (r : Fin 96) (q : Fin 128) :
    pad S5x2x96x128 ![0, 0, 0, 0] ![0, 0, 0, 44] ![0, 0, 0, 0] W
        (sitofp (F := Ideal) .bf16 (constantI S_ 32 0#32)) pads_S5x2x96x84_S5x2x96x128_000_000_000_0440 h_S_ (ix4 di p r q)
      = if hq : q.val < 84 then W (ix4 di p r (⟨q.val, hq⟩ : Fin 84)) else 0 := by
  by_cases hq : q.val < 84
  · rw [dif_pos hq]
    refine pad_apply_of_inside _ _ _ _ _ _ _ _ (ix4 di p r (⟨q.val, hq⟩ : Fin 84)) fun a => ?_
    match a with
    | ⟨0, _⟩ => show di.val = 0 + di.val * (0 + 1); omega
    | ⟨1, _⟩ => show p.val = 0 + p.val * (0 + 1); omega
    | ⟨2, _⟩ => show r.val = 0 + r.val * (0 + 1); omega
    | ⟨3, _⟩ => show q.val = 0 + q.val * (0 + 1); omega
  · rw [dif_neg hq]
    refine (pad_apply_of_not_inside _ _ _ _ _ _ _ _ (3 : Fin 4) fun h => ?_).trans (sitofp_zero (φ := .bf16))
    have h3 : (q.val - 0) / (0 + 1) < 84 := h.2.2
    omega

/-- The even-parity slice with its unit axis dropped. -/
theorem w1_piece0 (Y : S5x2x96x128.Idx → EReal) (di : Fin 5) (r : Fin 96) (q : Fin 128) :
    shapeCast S5x96x128 (extractStridedSlice S5x1x96x128 ![0, 0, 0, 0] Y slices_S5x2x96x128_S5x1x96x128_0_0_0_0)
        shapeCasts_S5x1x96x128_S5x96x128 (ix3 di r q) = Y (ix4 di (0 : Fin 2) r q) := by
  refine (shapeCast_apply _ _ (ix3 di r q) (ix4 di (0 : Fin 1) r q) ?_).trans ?_
  · rw [Shape.rowMajor_val_four, Shape.rowMajor_val_three]
    show ((di.val * 1 + 0) * 96 + r.val) * 128 + q.val = (di.val * 96 + r.val) * 128 + q.val
    omega
  refine extractStridedSlice_apply _ _ _ _ (ix4 di (0 : Fin 2) r q) fun a => ?_
  match a with
  | ⟨0, _⟩ => show di.val = 0 + di.val; omega
  | ⟨1, _⟩ => show 0 = 0 + 0; omega
  | ⟨2, _⟩ => show r.val = 0 + r.val; omega
  | ⟨3, _⟩ => show q.val = 0 + q.val; omega

/-- The odd-parity slice with its unit axis dropped. -/
theorem w1_piece1 (Y : S5x2x96x128.Idx → EReal) (di : Fin 5) (r : Fin 96) (q : Fin 128) :
    shapeCast S5x96x128 (extractStridedSlice S5x1x96x128 ![0, 1, 0, 0] Y slices_S5x2x96x128_S5x1x96x128_0_1_0_0)
        shapeCasts_S5x1x96x128_S5x96x128 (ix3 di r q) = Y (ix4 di (1 : Fin 2) r q) := by
  refine (shapeCast_apply _ _ (ix3 di r q) (ix4 di (0 : Fin 1) r q) ?_).trans ?_
  · rw [Shape.rowMajor_val_four, Shape.rowMajor_val_three]
    show ((di.val * 1 + 0) * 96 + r.val) * 128 + q.val = (di.val * 96 + r.val) * 128 + q.val
    omega
  refine extractStridedSlice_apply _ _ _ _ (ix4 di (1 : Fin 2) r q) fun a => ?_
  match a with
  | ⟨0, _⟩ => show di.val = 0 + di.val; omega
  | ⟨1, _⟩ => show 1 = 1 + 0; omega
  | ⟨2, _⟩ => show r.val = 0 + r.val; omega
  | ⟨3, _⟩ => show q.val = 0 + q.val; omega

/-- Two [5, 96, 128] arrays side by side along the lanes, the first two axes flattened: column `q < 128` reads the first,
    column `q ≥ 128` the second at `q - 128`. -/
theorem w1_cat (A B : S5x96x128.Idx → EReal) (k : Fin 480) (q : Fin 256) :
    shapeCast S480x256 (concatenate S5x96x256 2 [⟨S5x96x128, A⟩, ⟨S5x96x128, B⟩] concatenates_S5x96x128_S5x96x128_S5x96x256_d2)
        shapeCasts_S5x96x256_S480x256 (ix2 k q)
      = if q.val < 128 then
          A (ix3 (⟨k.val / 96, by have := k.isLt; omega⟩ : Fin 5) (⟨k.val % 96, Nat.mod_lt _ (by norm_num)⟩ : Fin 96) (⟨q.val % 128, Nat.mod_lt _ (by norm_num)⟩ : Fin 128))
        else
          B (ix3 (⟨k.val / 96, by have := k.isLt; omega⟩ : Fin 5) (⟨k.val % 96, Nat.mod_lt _ (by norm_num)⟩ : Fin 96) (⟨q.val % 128, Nat.mod_lt _ (by norm_num)⟩ : Fin 128)) := by
  refine (shapeCast_apply _ _ (ix2 k q)
    (ix3 (⟨k.val / 96, by have := k.isLt; omega⟩ : Fin 5) (⟨k.val % 96, Nat.mod_lt _ (by norm_num)⟩ : Fin 96) q) ?_).trans ?_
  · rw [Shape.rowMajor_val_three, Shape.rowMajor_val_two]
    show (k.val / 96 * 96 + k.val % 96) * 256 + q.val = k.val * 256 + q.val
    omega
  by_cases hq : q.val < 128
  · rw [if_pos hq]
    refine concatenate_pair_apply_left (t := S5x96x256) (2 : Fin 3) A B _ _ rfl _ fun b => ?_
    match b with
    | ⟨0, _⟩ => rfl
    | ⟨1, _⟩ => rfl
    | ⟨2, _⟩ => show q.val % 128 = q.val; omega
  · rw [if_neg hq]
    refine concatenate_pair_apply_right (t := S5x96x256) (2 : Fin 3) A B _ _ rfl rfl _ (fun b hb => ?_) ?_
    · match b with
      | ⟨0, _⟩ => rfl
      | ⟨1, _⟩ => rfl
      | ⟨2, _⟩ => exact absurd rfl hb
    · show q.val % 128 + 128 = q.val
      have := q.isLt
      omega

set_option maxHeartbeats 8000000 in
/-- The staged matrix as the host operations' term over the argument. -/
theorem v12_term (c : Dev nD) : (V m c main_call0_v12 : S480x256.Idx → EReal)
      = shapeCast S480x256 (concatenate S5x96x256 2
          [⟨S5x96x128, shapeCast S5x96x128 (extractStridedSlice S5x1x96x128 ![0, 0, 0, 0]
              (pad S5x2x96x128 ![0, 0, 0, 0] ![0, 0, 0, 44] ![0, 0, 0, 0]
                (shapeCast S5x2x96x84 (transpose S5x2x3x32x84 [0, 1, 3, 2, 4]
                  (shapeCast S5x2x32x3x84 (m ((c : Thread nD τ).loc main_arg1) : S5x2x96x84.Idx → EReal) shapeCasts_S5x2x96x84_S5x2x32x3x84)
                  transposes_S5x2x32x3x84_S5x2x3x32x84_0_1_3_2_4) shapeCasts_S5x2x3x32x84_S5x2x96x84)
                (sitofp (F := Ideal) .bf16 (constantI S_ 32 0#32)) pads_S5x2x96x84_S5x2x96x128_000_000_000_0440 h_S_)
              slices_S5x2x96x128_S5x1x96x128_0_0_0_0) shapeCasts_S5x1x96x128_S5x96x128⟩,
           ⟨S5x96x128, shapeCast S5x96x128 (extractStridedSlice S5x1x96x128 ![0, 1, 0, 0]
              (pad S5x2x96x128 ![0, 0, 0, 0] ![0, 0, 0, 44] ![0, 0, 0, 0]
                (shapeCast S5x2x96x84 (transpose S5x2x3x32x84 [0, 1, 3, 2, 4]
                  (shapeCast S5x2x32x3x84 (m ((c : Thread nD τ).loc main_arg1) : S5x2x96x84.Idx → EReal) shapeCasts_S5x2x96x84_S5x2x32x3x84)
                  transposes_S5x2x32x3x84_S5x2x3x32x84_0_1_3_2_4) shapeCasts_S5x2x3x32x84_S5x2x96x84)
                (sitofp (F := Ideal) .bf16 (constantI S_ 32 0#32)) pads_S5x2x96x84_S5x2x96x128_000_000_000_0440 h_S_)
              slices_S5x2x96x128_S5x1x96x128_0_1_0_0) shapeCasts_S5x1x96x128_S5x96x128⟩]
          concatenates_S5x96x128_S5x96x128_S5x96x256_d2) shapeCasts_S5x96x256_S480x256 := by
  dsimp only [Gen.V, Gen.hostOps0]; after_results; rfl

/-- Row `k`, column `q` of the staged matrix is `w1[k / 96, q / 128, 3·(k % 32) + (k % 96) / 32, q % 128]` when
    `q % 128 < 84`, else zero. -/
theorem host_w1 (c : Dev nD) (k : Fin 480) (q : Fin 256) :
    (V m c main_call0_v12 : S480x256.Idx → EReal) (ix2 k q)
      = if hq : q.val % 128 < 84 then
          (args m c).W1 (ix4 (⟨k.val / 96, by have := k.isLt; omega⟩ : Fin 5) (⟨q.val / 128, by have := q.isLt; omega⟩ : Fin 2)
            (⟨3 * (k.val % 32) + (k.val % 96) / 32, by omega⟩ : Fin 96) (⟨q.val % 128, hq⟩ : Fin 84))
        else 0 := by
  rw [v12_term, w1_cat]
  have hq2 := q.isLt
  have hrow : 3 * ((k.val % 96) % 32) + (k.val % 96) / 32 = 3 * (k.val % 32) + (k.val % 96) / 32 := by omega
  by_cases hq : q.val < 128
  · rw [if_pos hq, w1_piece0, w1_pad]
    by_cases h84 : q.val % 128 < 84
    · rw [dif_pos h84, dif_pos h84, w1_perm]
      exact congrArg (m ((c : Thread nD τ).loc main_arg1) : S5x2x96x84.Idx → EReal) (funext fun a => by
        match a with
        | ⟨0, _⟩ => rfl
        | ⟨1, _⟩ => exact Fin.ext (by show 0 = q.val / 128; omega)
        | ⟨2, _⟩ => exact Fin.ext hrow
        | ⟨3, _⟩ => rfl)
    · rw [dif_neg h84, dif_neg h84]
  · rw [if_neg hq, w1_piece1, w1_pad]
    by_cases h84 : q.val % 128 < 84
    · rw [dif_pos h84, dif_pos h84, w1_perm]
      exact congrArg (m ((c : Thread nD τ).loc main_arg1) : S5x2x96x84.Idx → EReal) (funext fun a => by
        match a with
        | ⟨0, _⟩ => rfl
        | ⟨1, _⟩ => exact Fin.ext (by show 1 = q.val / 128; omega)
        | ⟨2, _⟩ => exact Fin.ext hrow
        | ⟨3, _⟩ => rfl)
    · rw [dif_neg h84, dif_neg h84]

end Cert.KerSide

end
-- ==== Proof.KerRunHostW2.lean ====
/-
  The second convolution's weights as the region finds them, read at an index: the argument [5, 2, 84, 80] padded with
  zeros to 128 lanes, its two parity slices laid side by side along the lanes ([5, 84, 256]) and the first two axes
  flattened — so row `84·di + l`, column `128·p + j` is `w2[di, p, l, j]` for `j < 80` and zero for `j ≥ 80`.
-/
import proofs.«158183_g2000402634679036_pallasbulk_659_42_alg».proof.Proof.Interface
import proofs.«158183_g2000402634679036_pallasbulk_659_42_alg».proof.Proof.Gen.KernelIdeal.Value
import Idealize.ShloMosaic.Lib.KernelVsHost
import Idealize.ShloMosaic.Lib.Pipeline.Value
import Idealize.ShloMosaic.Lib.ValueIdx
import Idealize.ShloMosaic.Lib.Tactic

noncomputable section

open Idealize.ShloMosaic Idealize.ShloMosaic.ValueIdx Idealize.SL.Sem Idealize.ShloMosaic.TcCoe
open Idealize.ShloMosaic.StableHlo

namespace Cert.KerSide

open Cert.KernelIdeal Cert.KernelIdeal.Gen

variable (m : (ℓ : Loc Cert.KernelIdeal.nD Cert.KernelIdeal.τ Cert.KernelIdeal.sig) → Buf (Elt Ideal) ℓ)

/-- The padded weights at tap `di`, parity `p`, row `r`, lane `q`. -/
theorem w2_pad (W : S5x2x84x80.Idx → EReal) (di : Fin 5) (p : Fin 2) (r : Fin 84) (q : Fin 128) :
    pad S5x2x84x128 ![0, 0, 0, 0] ![0, 0, 0, 48] ![0, 0, 0, 0] W
        (sitofp (F := Ideal) .bf16 (constantI S_ 32 0#32)) pads_S5x2x84x80_S5x2x84x128_000_000_000_0480 h_S_ (ix4 di p r q)
      = if hq : q.val < 80 then W (ix4 di p r (⟨q.val, hq⟩ : Fin 80)) else 0 := by
  by_cases hq : q.val < 80
  · rw [dif_pos hq]
    refine pad_apply_of_inside _ _ _ _ _ _ _ _ (ix4 di p r (⟨q.val, hq⟩ : Fin 80)) fun a => ?_
    match a with
    | ⟨0, _⟩ => show di.val = 0 + di.val * (0 + 1); omega
    | ⟨1, _⟩ => show p.val = 0 + p.val * (0 + 1); omega
    | ⟨2, _⟩ => show r.val = 0 + r.val * (0 + 1); omega
    | ⟨3, _⟩ => show q.val = 0 + q.val * (0 + 1); omega
  · rw [dif_neg hq]
    refine (pad_apply_of_not_inside _ _ _ _ _ _ _ _ (3 : Fin 4) fun h => ?_).trans (sitofp_zero (φ := .bf16))
    have h3 : (q.val - 0) / (0 + 1) < 80 := h.2.2
    omega

/-- The even-parity slice with its unit axis dropped. -/
theorem w2_piece0 (Y : S5x2x84x128.Idx → EReal) (di : Fin 5) (r : Fin 84) (q : Fin 128) :
    shapeCast S5x84x128 (extractStridedSlice S5x1x84x128 ![0, 0, 0, 0] Y slices_S5x2x84x128_S5x1x84x128_0_0_0_0)
        shapeCasts_S5x1x84x128_S5x84x128 (ix3 di r q) = Y (ix4 di (0 : Fin 2) r q) := by
  refine (shapeCast_apply _ _ (ix3 di r q) (ix4 di (0 : Fin 1) r q) ?_).trans ?_
  · rw [Shape.rowMajor_val_four, Shape.rowMajor_val_three]
    show ((di.val * 1 + 0) * 84 + r.val) * 128 + q.val = (di.val * 84 + r.val) * 128 + q.val
    omega
  refine extractStridedSlice_apply _ _ _ _ (ix4 di (0 : Fin 2) r q) fun a => ?_
  match a with
  | ⟨0, _⟩ => show di.val = 0 + di.val; omega
  | ⟨1, _⟩ => show 0 = 0 + 0; omega
  | ⟨2, _⟩ => show r.val = 0 + r.val; omega
  | ⟨3, _⟩ => show q.val = 0 + q.val; omega

/-- The odd-parity slice with its unit axis dropped. -/
theorem w2_piece1 (Y : S5x2x84x128.Idx → EReal) (di : Fin 5) (r : Fin 84) (q : Fin 128) :
    shapeCast S5x84x128 (extractStridedSlice S5x1x84x128 ![0, 1, 0, 0] Y slices_S5x2x84x128_S5x1x84x128_0_1_0_0)
        shapeCasts_S5x1x84x128_S5x84x128 (ix3 di r q) = Y (ix4 di (1 : Fin 2) r q) := by
  refine (shapeCast_apply _ _ (ix3 di r q) (ix4 di (0 : Fin 1) r q) ?_).trans ?_
  · rw [Shape.rowMajor_val_four, Shape.rowMajor_val_three]
    show ((di.val * 1 + 0) * 84 + r.val) * 128 + q.val = (di.val * 84 + r.val) * 128 + q.val
    omega
  refine extractStridedSlice_apply _ _ _ _ (ix4 di (1 : Fin 2) r q) fun a => ?_
  match a with
  | ⟨0, _⟩ => show di.val = 0 + di.val; omega
  | ⟨1, _⟩ => show 1 = 1 + 0; omega
  | ⟨2, _⟩ => show r.val = 0 + r.val; omega
  | ⟨3, _⟩ => show q.val = 0 + q.val; omega

/-- Two [5, 84, 128] arrays side by side along the lanes, the first two axes flattened: column `q < 128` reads the first,
    column `q ≥ 128` the second at `q - 128`. -/
theorem w2_cat (A B : S5x84x128.Idx → EReal) (k : Fin 420) (q : Fin 256) :
    shapeCast S420x256 (concatenate S5x84x256 2 [⟨S5x84x128, A⟩, ⟨S5x84x128, B⟩] concatenates_S5x84x128_S5x84x128_S5x84x256_d2)
        shapeCasts_S5x84x256_S420x256 (ix2 k q)
      = if q.val < 128 then
          A (ix3 (⟨k.val / 84, by have := k.isLt; omega⟩ : Fin 5) (⟨k.val % 84, Nat.mod_lt _ (by norm_num)⟩ : Fin 84) (⟨q.val % 128, Nat.mod_lt _ (by norm_num)⟩ : Fin 128))
        else
          B (ix3 (⟨k.val / 84, by have := k.isLt; omega⟩ : Fin 5) (⟨k.val % 84, Nat.mod_lt _ (by norm_num)⟩ : Fin 84) (⟨q.val % 128, Nat.mod_lt _ (by norm_num)⟩ : Fin 128)) := by
  refine (shapeCast_apply _ _ (ix2 k q)
    (ix3 (⟨k.val / 84, by have := k.isLt; omega⟩ : Fin 5) (⟨k.val % 84, Nat.mod_lt _ (by norm_num)⟩ : Fin 84) q) ?_).trans ?_
  · rw [Shape.rowMajor_val_three, Shape.rowMajor_val_two]
    show (k.val / 84 * 84 + k.val % 84) * 256 + q.val = k.val * 256 + q.val
    omega
  by_cases hq : q.val < 128
  · rw [if_pos hq]
    refine concatenate_pair_apply_left (t := S5x84x256) (2 : Fin 3) A B _ _ rfl _ fun b => ?_
    match b with
    | ⟨0, _⟩ => rfl
    | ⟨1, _⟩ => rfl
    | ⟨2, _⟩ => show q.val % 128 = q.val; omega
  · rw [if_neg hq]
    refine concatenate_pair_apply_right (t := S5x84x256) (2 : Fin 3) A B _ _ rfl rfl _ (fun b hb => ?_) ?_
    · match b with
      | ⟨0, _⟩ => rfl
      | ⟨1, _⟩ => rfl
      | ⟨2, _⟩ => exact absurd rfl hb
    · show q.val % 128 + 128 = q.val
      have := q.isLt
      omega

set_option maxHeartbeats 4000000 in
/-- Row `k`, column `q` of the staged matrix is `w2[k / 84, q / 128, k % 84, q % 128]` when `q % 128 < 80`, else zero. -/
theorem host_w2 (c : Dev nD) (k : Fin 420) (q : Fin 256) :
    (V m c main_call0_v19 : S420x256.Idx → EReal) (ix2 k q)
      = if hq : q.val % 128 < 80 then
          (args m c).W2 (ix4 (⟨k.val / 84, by have := k.isLt; omega⟩ : Fin 5) (⟨q.val / 128, by have := q.isLt; omega⟩ : Fin 2)
            (⟨k.val % 84, Nat.mod_lt _ (by norm_num)⟩ : Fin 84) (⟨q.val % 128, hq⟩ : Fin 80))
        else 0 := by
  have e : (V m c main_call0_v19 : S420x256.Idx → EReal)
      = shapeCast S420x256 (concatenate S5x84x256 2
          [⟨S5x84x128, shapeCast S5x84x128 (extractStridedSlice S5x1x84x128 ![0, 0, 0, 0]
              (pad S5x2x84x128 ![0, 0, 0, 0] ![0, 0, 0, 48] ![0, 0, 0, 0] (m ((c : Thread nD τ).loc main_arg3) : S5x2x84x80.Idx → EReal)
                (sitofp (F := Ideal) .bf16 (constantI S_ 32 0#32)) pads_S5x2x84x80_S5x2x84x128_000_000_000_0480 h_S_)
              slices_S5x2x84x128_S5x1x84x128_0_0_0_0) shapeCasts_S5x1x84x128_S5x84x128⟩,
           ⟨S5x84x128, shapeCast S5x84x128 (extractStridedSlice S5x1x84x128 ![0, 1, 0, 0]
              (pad S5x2x84x128 ![0, 0, 0, 0] ![0, 0, 0, 48] ![0, 0, 0, 0] (m ((c : Thread nD τ).loc main_arg3) : S5x2x84x80.Idx → EReal)
                (sitofp (F := Ideal) .bf16 (constantI S_ 32 0#32)) pads_S5x2x84x80_S5x2x84x128_000_000_000_0480 h_S_)
              slices_S5x2x84x128_S5x1x84x128_0_1_0_0) shapeCasts_S5x1x84x128_S5x84x128⟩]
          concatenates_S5x84x128_S5x84x128_S5x84x256_d2) shapeCasts_S5x84x256_S420x256 := by
    dsimp only [Gen.V, Gen.hostOps0]; after_results; rfl
  rw [e, w2_cat]
  have hq2 := q.isLt
  by_cases hq : q.val < 128
  · rw [if_pos hq, w2_piece0, w2_pad]
    by_cases h80 : q.val % 128 < 80
    · rw [dif_pos h80, dif_pos h80]
      exact congrArg (m ((c : Thread nD τ).loc main_arg3) : S5x2x84x80.Idx → EReal) (funext fun a => by
        match a with
        | ⟨0, _⟩ => rfl
        | ⟨1, _⟩ => exact Fin.ext (by show 0 = q.val / 128; omega)
        | ⟨2, _⟩ => rfl
        | ⟨3, _⟩ => rfl)
    · rw [dif_neg h80, dif_neg h80]
  · rw [if_neg hq, w2_piece1, w2_pad]
    by_cases h80 : q.val % 128 < 80
    · rw [dif_pos h80, dif_pos h80]
      exact congrArg (m ((c : Thread nD τ).loc main_arg3) : S5x2x84x80.Idx → EReal) (funext fun a => by
        match a with
        | ⟨0, _⟩ => rfl
        | ⟨1, _⟩ => exact Fin.ext (by show 1 = q.val / 128; omega)
        | ⟨2, _⟩ => rfl
        | ⟨3, _⟩ => rfl)
    · rw [dif_neg h80, dif_neg h80]

end Cert.KerSide

end
-- ==== Proof.KerRunHostRest.lean ====
/-
  The padded arrays the region finds, read at an index: the two biases padded with zeros to 128 lanes and the first
  dense layer's weights padded with zeros to [8, 128, 120] and flattened to [1024, 120]. Each is the host's `pad`
  (of the argument array, with the integer constant 0 converted to a float as the padding value) read inside or
  outside the operand; the flattening keeps the row-major position.
-/
import proofs.«158183_g2000402634679036_pallasbulk_659_42_alg».proof.Proof.Interface
import proofs.«158183_g2000402634679036_pallasbulk_659_42_alg».proof.Proof.Gen.KernelIdeal.Value
import Idealize.ShloMosaic.Lib.KernelVsHost
import Idealize.ShloMosaic.Lib.Pipeline.Value
import Idealize.ShloMosaic.Lib.ValueIdx
import Idealize.ShloMosaic.Lib.Tactic

noncomputable section

open Idealize.ShloMosaic Idealize.ShloMosaic.ValueIdx Idealize.SL.Sem Idealize.ShloMosaic.TcCoe
open Idealize.ShloMosaic.StableHlo

namespace Cert.KerSide

open Cert.KernelIdeal Cert.KernelIdeal.Gen

variable (m : (ℓ : Loc Cert.KernelIdeal.nD Cert.KernelIdeal.τ Cert.KernelIdeal.sig) → Buf (Elt Ideal) ℓ)

/-- The first bias padded to 128 lanes: lane `j < 84` is `b1[0, j]`, the rest zero. -/
theorem host_b1 (c : Dev nD) (j : Fin 128) :
    (V m c main_call0_v22 : S1x128.Idx → EReal) (ix2 (0 : Fin 1) j)
      = if hj : j.val < 84 then (args m c).B1 (ix2 (0 : Fin 1) (⟨j.val, hj⟩ : Fin 84)) else 0 := by
  have e : (V m c main_call0_v22 : S1x128.Idx → EReal)
      = pad S1x128 ![0, 0] ![0, 44] ![0, 0] (m ((c : Thread nD τ).loc main_arg2) : S1x84.Idx → EReal)
          (sitofp (F := Ideal) .f32 (constantI S_ 32 0#32)) pads_S1x84_S1x128_000_0440 h_S_ := by
    dsimp only [Gen.V, Gen.hostOps0]; after_results; rfl
  rw [e]
  by_cases hj : j.val < 84
  · rw [dif_pos hj]
    refine pad_apply_of_inside _ _ _ _ _ _ _ (ix2 (0 : Fin 1) j) (ix2 (0 : Fin 1) (⟨j.val, hj⟩ : Fin 84)) fun a => ?_
    match a with
    | ⟨0, _⟩ => rfl
    | ⟨1, _⟩ => show j.val = 0 + j.val * (0 + 1); omega
  · rw [dif_neg hj]
    refine (pad_apply_of_not_inside _ _ _ _ _ _ _ (ix2 (0 : Fin 1) j) (1 : Fin 2) fun h => ?_).trans (sitofp_zero (φ := .f32))
    have h3 : (j.val - 0) / (0 + 1) < 84 := h.2.2
    omega

/-- The second bias padded to 128 lanes: lane `j < 80` is `b2[0, j]`, the rest zero. -/
theorem host_b2 (c : Dev nD) (j : Fin 128) :
    (V m c main_call0_v23 : S1x128.Idx → EReal) (ix2 (0 : Fin 1) j)
      = if hj : j.val < 80 then (args m c).B2 (ix2 (0 : Fin 1) (⟨j.val, hj⟩ : Fin 80)) else 0 := by
  have e : (V m c main_call0_v23 : S1x128.Idx → EReal)
      = pad S1x128 ![0, 0] ![0, 48] ![0, 0] (m ((c : Thread nD τ).loc main_arg4) : S1x80.Idx → EReal)
          (sitofp (F := Ideal) .f32 (constantI S_ 32 0#32)) pads_S1x80_S1x128_000_0480 h_S_ := by
    dsimp only [Gen.V, Gen.hostOps0]; after_results; rfl
  rw [e]
  by_cases hj : j.val < 80
  · rw [dif_pos hj]
    refine pad_apply_of_inside _ _ _ _ _ _ _ (ix2 (0 : Fin 1) j) (ix2 (0 : Fin 1) (⟨j.val, hj⟩ : Fin 80)) fun a => ?_
    match a with
    | ⟨0, _⟩ => rfl
    | ⟨1, _⟩ => show j.val = 0 + j.val * (0 + 1); omega
  · rw [dif_neg hj]
    refine (pad_apply_of_not_inside _ _ _ _ _ _ _ (ix2 (0 : Fin 1) j) (1 : Fin 2) fun h => ?_).trans (sitofp_zero (φ := .f32))
    have h3 : (j.val - 0) / (0 + 1) < 80 := h.2.2
    omega

/-- The first dense layer's weights as one [1024, 120] matrix: row `128·hp + j` is `wf1[hp, j, ·]` for `hp < 5` and
    `j < 80`, the rest zero. -/
theorem host_wf1 (c : Dev nD) (k : Fin 1024) (o : Fin 120) :
    (V m c main_call0_v21 : S1024x120.Idx → EReal) (ix2 k o)
      = if hk : k.val / 128 < 5 ∧ k.val % 128 < 80 then
          (args m c).WF1 (ix3 (⟨k.val / 128, hk.1⟩ : Fin 5) (⟨k.val % 128, hk.2⟩ : Fin 80) o)
        else 0 := by
  have e : (V m c main_call0_v21 : S1024x120.Idx → EReal)
      = shapeCast S1024x120 (pad S8x128x120 ![0, 0, 0] ![3, 48, 0] ![0, 0, 0] (m ((c : Thread nD τ).loc main_arg5) : S5x80x120.Idx → EReal)
          (sitofp (F := Ideal) .bf16 (constantI S_ 32 0#32)) pads_S5x80x120_S8x128x120_030_0480_000 h_S_) shapeCasts_S8x128x120_S1024x120 := by
    dsimp only [Gen.V, Gen.hostOps0]; after_results; rfl
  rw [e]
  have hk8 : k.val / 128 < 8 := by have := k.isLt; omega
  refine (shapeCast_apply _ _ (ix2 k o) (ix3 (⟨k.val / 128, hk8⟩ : Fin 8) (⟨k.val % 128, Nat.mod_lt _ (by norm_num)⟩ : Fin 128) o) ?_).trans ?_
  · rw [Shape.rowMajor_val_three, Shape.rowMajor_val_two]
    show (k.val / 128 * 128 + k.val % 128) * 120 + o.val = k.val * 120 + o.val
    omega
  by_cases hk : k.val / 128 < 5 ∧ k.val % 128 < 80
  · rw [dif_pos hk]
    refine pad_apply_of_inside _ _ _ _ _ _ _ _ (ix3 (⟨k.val / 128, hk.1⟩ : Fin 5) (⟨k.val % 128, hk.2⟩ : Fin 80) o) fun a => ?_
    match a with
    | ⟨0, _⟩ => show k.val / 128 = 0 + k.val / 128 * (0 + 1); omega
    | ⟨1, _⟩ => show k.val % 128 = 0 + k.val % 128 * (0 + 1); omega
    | ⟨2, _⟩ => show o.val = 0 + o.val * (0 + 1); omega
  · rw [dif_neg hk]
    by_cases h5 : k.val / 128 < 5
    · refine (pad_apply_of_not_inside _ _ _ _ _ _ _ _ (1 : Fin 3) fun h => ?_).trans (sitofp_zero (φ := .bf16))
      have h3 : (k.val % 128 - 0) / (0 + 1) < 80 := h.2.2
      omega
    · refine (pad_apply_of_not_inside _ _ _ _ _ _ _ _ (0 : Fin 3) fun h => ?_).trans (sitofp_zero (φ := .bf16))
      have h3 : (k.val / 128 - 0) / (0 + 1) < 5 := h.2.2
      omega

end Cert.KerSide

end
-- ==== Proof.KerRunBlocks.lean ====
/-
  From the blocks to the array. At grid point `t` the image window's block is images `512·t … 512·t + 511` of the staged
  image array and every other input window's block is its whole array; with the staged arrays read in terms of the
  arguments, one launch of the body writes rows `512·t … 512·t + 511` of the network's result, so what point `t` writes
  back is block `t` of that one array. The eight blocks cover the [4096, 10] result (row `r` is in block `r / 512`), so
  the result array ends holding the network's result.
-/
import proofs.«158183_g2000402634679036_pallasbulk_659_42_alg».proof.Proof.Interface
import proofs.«158183_g2000402634679036_pallasbulk_659_42_alg».proof.Proof.Gen.KernelIdeal.Value
import Idealize.ShloMosaic.Lib.KernelVsHost
import Idealize.ShloMosaic.Lib.Pipeline.Value
import Idealize.ShloMosaic.Lib.ValueIdx
import Idealize.ShloMosaic.Lib.Tactic
import proofs.«158183_g2000402634679036_pallasbulk_659_42_alg».proof.Proof.KerRunHostX
import proofs.«158183_g2000402634679036_pallasbulk_659_42_alg».proof.Proof.KerRunHostW1
import proofs.«158183_g2000402634679036_pallasbulk_659_42_alg».proof.Proof.KerRunHostW2
import proofs.«158183_g2000402634679036_pallasbulk_659_42_alg».proof.Proof.KerRunHostRest

noncomputable section

open Idealize.ShloMosaic Idealize.ShloMosaic.ValueIdx Idealize.SL.Sem Idealize.ShloMosaic.TcCoe
open Idealize.ShloMosaic.StableHlo

namespace Cert.KerSide

open Cert.KernelIdeal Cert.KernelIdeal.Gen

variable (m : (ℓ : Loc Cert.KernelIdeal.nD Cert.KernelIdeal.τ Cert.KernelIdeal.sig) → Buf (Elt Ideal) ℓ)

open Cert.KernelIdeal.Value
open Idealize.ShloMosaic.Pipeline (Dat)

/-! ## The printed index maps, decided over the grid -/

/-- The image window moves one block of 512 images per grid point. -/
theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)

/-- The output window moves one block of 512 rows per grid point. -/
theorem idx_out : ∀ t : Fin cfg0.N, win0_11.index t (0 : Fin 2) = t.val ∧ win0_11.index t (1 : Fin 2) = 0 :=
  (by decide +kernel : ∀ t : Fin grid0.N, _)

/-- The ten whole-array windows sit at block index zero at every grid point (decided over the 8 points). -/
theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## Each input block, read off the array the region finds -/

/-- The image window's block at point `t`: image `bl` of the block is image `512·t + bl` of the staged array. -/
theorem blk_x (c : Dev nD) (t : Fin cfg0.N) (bl : Fin 512) (h : Fin 32) (l : Fin 96) :
    (iblk m c 0 t : Vec Ideal S512x32x96 .bf16) (ix3 bl h l)
      = (V m c main_call0_v2 : S4096x32x96.Idx → EReal)
          (ix3 (⟨512 * t.val + bl.val, by have := lt_of_lt_of_eq t.isLt N_0; have := bl.isLt; omega⟩ : Fin 4096) h l) := by
  obtain ⟨e0, e1, e2⟩ := idx_x t
  unfold iblk
  rw [View.read_apply]
  show V m c main_call0_v2 _ = V m c main_call0_v2 _
  congr 1
  funext a
  apply Fin.ext
  match a with
  | ⟨0, _⟩ => show win0_0.index t (0 : Fin 3) * 512 + 1 * bl.val = 512 * t.val + bl.val; rw [e0]; omega
  | ⟨1, _⟩ => show win0_0.index t (1 : Fin 3) * 32 + 1 * h.val = h.val; rw [e1]; omega
  | ⟨2, _⟩ => show win0_0.index t (2 : Fin 3) * 96 + 1 * l.val = l.val; rw [e2]; omega

/-- Window 1's block at any grid point is the whole array the region finds. -/
theorem blk_1 (c : Dev nD) (t : Fin cfg0.N) :
    (iblk m c 1 t : Vec Ideal S480x256 .bf16) = (V m c main_call0_v12 : S480x256.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_call0_v12 _ = V m c main_call0_v12 y
  congr 1
  funext a
  apply Fin.ext
  match a with
  | ⟨0, _⟩ => show win0_1.index t (0 : Fin 2) * 480 + 1 * (y 0).val = (y 0).val; rw [e1a]; omega
  | ⟨1, _⟩ => show win0_1.index t (1 : Fin 2) * 256 + 1 * (y 1).val = (y 1).val; rw [e1b]; omega

/-- Window 2's block at any grid point is the whole array the region finds. -/
theorem blk_2 (c : Dev nD) (t : Fin cfg0.N) :
    (iblk m c 2 t : Vec Ideal S1x128 .f32) = (V m c main_call0_v22 : S1x128.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_call0_v22 _ = V m c main_call0_v22 y
  congr 1
  funext a
  apply Fin.ext
  match a with
  | ⟨0, _⟩ => show win0_2.index t (0 : Fin 2) * 1 + 1 * (y 0).val = (y 0).val; rw [e2a]; omega
  | ⟨1, _⟩ => show win0_2.index t (1 : Fin 2) * 128 + 1 * (y 1).val = (y 1).val; rw [e2b]; omega

/-- Window 3's block at any grid point is the whole array the region finds. -/
theorem blk_3 (c : Dev nD) (t : Fin cfg0.N) :
    (iblk m c 3 t : Vec Ideal S420x256 .bf16) = (V m c main_call0_v19 : S420x256.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_call0_v19 _ = V m c main_call0_v19 y
  congr 1
  funext a
  apply Fin.ext
  match a with
  | ⟨0, _⟩ => show win0_3.index t (0 : Fin 2) * 420 + 1 * (y 0).val = (y 0).val; rw [e3a]; omega
  | ⟨1, _⟩ => show win0_3.index t (1 : Fin 2) * 256 + 1 * (y 1).val = (y 1).val; rw [e3b]; omega

/-- Window 4's block at any grid point is the whole array the region finds. -/
theorem blk_4 (c : Dev nD) (t : Fin cfg0.N) :
    (iblk m c 4 t : Vec Ideal S1x128 .f32) = (V m c main_call0_v23 : S1x128.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_call0_v23 _ = V m c main_call0_v23 y
  congr 1
  funext a
  apply Fin.ext
  match a with
  | ⟨0, _⟩ => show win0_4.index t (0 : Fin 2) * 1 + 1 * (y 0).val = (y 0).val; rw [e4a]; omega
  | ⟨1, _⟩ => show win0_4.index t (1 : Fin 2) * 128 + 1 * (y 1).val = (y 1).val; rw [e4b]; omega

/-- Window 5's block at any grid point is the whole array the region finds. -/
theorem blk_5 (c : Dev nD) (t : Fin cfg0.N) :
    (iblk m c 5 t : Vec Ideal S1024x120 .bf16) = (V m c main_call0_v21 : S1024x120.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_call0_v21 _ = V m c main_call0_v21 y
  congr 1
  funext a
  apply Fin.ext
  match a with
  | ⟨0, _⟩ => show win0_5.index t (0 : Fin 2) * 1024 + 1 * (y 0).val = (y 0).val; rw [e5a]; omega
  | ⟨1, _⟩ => show win0_5.index t (1 : Fin 2) * 120 + 1 * (y 1).val = (y 1).val; rw [e5b]; omega

/-- Window 6's block at any grid point is the whole array the region finds. -/
theorem blk_6 (c : Dev nD) (t : Fin cfg0.N) :
    (iblk m c 6 t : Vec Ideal S1x120 .f32) = (V m c main_arg6 : S1x120.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_arg6 _ = V m c main_arg6 y
  congr 1
  funext a
  apply Fin.ext
  match a with
  | ⟨0, _⟩ => show win0_6.index t (0 : Fin 2) * 1 + 1 * (y 0).val = (y 0).val; rw [e6a]; omega
  | ⟨1, _⟩ => show win0_6.index t (1 : Fin 2) * 120 + 1 * (y 1).val = (y 1).val; rw [e6b]; omega

/-- Window 7's block at any grid point is the whole array the region finds. -/
theorem blk_7 (c : Dev nD) (t : Fin cfg0.N) :
    (iblk m c 7 t : Vec Ideal S120x84 .bf16) = (V m c main_arg7 : S120x84.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_arg7 _ = V m c main_arg7 y
  congr 1
  funext a
  apply Fin.ext
  match a with
  | ⟨0, _⟩ => show win0_7.index t (0 : Fin 2) * 120 + 1 * (y 0).val = (y 0).val; rw [e7a]; omega
  | ⟨1, _⟩ => show win0_7.index t (1 : Fin 2) * 84 + 1 * (y 1).val = (y 1).val; rw [e7b]; omega

/-- Window 8's block at any grid point is the whole array the region finds. -/
theorem blk_8 (c : Dev nD) (t : Fin cfg0.N) :
    (iblk m c 8 t : Vec Ideal S1x84 .f32) = (V m c main_arg8 : S1x84.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_arg8 _ = V m c main_arg8 y
  congr 1
  funext a
  apply Fin.ext
  match a with
  | ⟨0, _⟩ => show win0_8.index t (0 : Fin 2) * 1 + 1 * (y 0).val = (y 0).val; rw [e8a]; omega
  | ⟨1, _⟩ => show win0_8.index t (1 : Fin 2) * 84 + 1 * (y 1).val = (y 1).val; rw [e8b]; omega

/-- Window 9's block at any grid point is the whole array the region finds. -/
theorem blk_9 (c : Dev nD) (t : Fin cfg0.N) :
    (iblk m c 9 t : Vec Ideal S84x10 .bf16) = (V m c main_arg9 : S84x10.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_arg9 _ = V m c main_arg9 y
  congr 1
  funext a
  apply Fin.ext
  match a with
  | ⟨0, _⟩ => show win0_9.index t (0 : Fin 2) * 84 + 1 * (y 0).val = (y 0).val; rw [e9a]; omega
  | ⟨1, _⟩ => show win0_9.index t (1 : Fin 2) * 10 + 1 * (y 1).val = (y 1).val; rw [e9b]; omega

/-- Window 10's block at any grid point is the whole array the region finds. -/
theorem blk_10 (c : Dev nD) (t : Fin cfg0.N) :
    (iblk m c 10 t : Vec Ideal S1x10 .f32) = (V m c main_arg10 : S1x10.Idx → EReal) := by
  obtain ⟨e1a, e1b, e2a, e2b, e3a, e3b, e4a, e4b, e5a, e5b, e6a, e6b, e7a, e7b, e8a, e8b, e9a, e9b, e10a, e10b⟩ := idx_whole t
  funext y
  unfold iblk
  rw [View.read_apply]
  show V m c main_arg10 _ = V m c main_arg10 y
  congr 1
  funext a
  apply Fin.ext
  match a with
  | ⟨0, _⟩ => show win0_10.index t (0 : Fin 2) * 1 + 1 * (y 0).val = (y 0).val; rw [e10a]; omega
  | ⟨1, _⟩ => show win0_10.index t (1 : Fin 2) * 10 + 1 * (y 1).val = (y 1).val; rw [e10b]; omega

/-! ## What a grid point writes back -/

/-- WHAT POINT `t` WRITES BACK is block `t` of the network's result on the argument arrays: the body's fact applied to
    the blocks at `t`, each read in terms of the arguments. -/
theorem flushed_eq (hb : Cert.Bridge.KerBody) (c : Dev nD) (t : Fin cfg0.N) :
    (dats m 0 c).flushed 11 t = ((cfg0.win 11).blk t).view.read (Elt Ideal) (Cert.Spec.net (args m c)) := by
  have ht : t.val < 8 := lt_of_lt_of_eq t.isLt N_0
  obtain ⟨e0, e1⟩ := idx_out t
  have key := hb (args m c) (⟨t.val, ht⟩ : Fin 8) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun bl h l => (blk_x m c t bl h l).trans (host_x m c _ h l))
    (fun k q => (congrFun (blk_1 m c t) (ix2 k q)).trans (host_w1 m c k q))
    (fun j => (congrFun (blk_2 m c t) (ix2 (0 : Fin 1) j)).trans (host_b1 m c j))
    (fun k q => (congrFun (blk_3 m c t) (ix2 k q)).trans (host_w2 m c k q))
    (fun j => (congrFun (blk_4 m c t) (ix2 (0 : Fin 1) j)).trans (host_b2 m c j))
    (fun k o => (congrFun (blk_5 m c t) (ix2 k o)).trans (host_wf1 m c k o))
    ((blk_6 m c t).trans (V_main_arg6 m c))
    ((blk_7 m c t).trans (V_main_arg7 m c))
    ((blk_8 m c t).trans (V_main_arg8 m c))
    ((blk_9 m c t).trans (V_main_arg9 m c))
    ((blk_10 m c t).trans (V_main_arg10 m c))
  rw [Value.flushed11]
  refine funext fun (y : S512x10.Idx) => ?_
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = Cert.Spec.out (args m c) ((((cfg0.win 11).blk t).view.emb y) 0) ((((cfg0.win 11).blk t).view.emb y) 1)
  refine ((congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (eq_ix2 y)).trans (key (y 0) (y 1))).trans ?_
  refine congrArg₂ (Cert.Spec.out (args m c)) (Fin.ext ?_) (Fin.ext ?_)
  · show 512 * t.val + (y 0).val = win0_11.index t (0 : Fin 2) * 512 + 1 * (y 0).val
    rw [e0]; omega
  · show (y 1).val = win0_11.index t (1 : Fin 2) * 10 + 1 * (y 1).val
    rw [e1]; omega

/-! ## The blocks cover the result array -/

/-- An index of the result array is in point `t`'s block iff each coordinate is in the block's range on its axis. -/
theorem mem_blk (t : Fin cfg0.N) (i : S4096x10.Idx) :
    i ∈ ((cfg0.win 11).blk t).view.set ↔ ∀ a : Fin 2, win0_11.index t a * S512x10.size a ≤ (i a).val ∧ (i a).val < win0_11.index t a * S512x10.size a + S512x10.size a := by
  show i ∈ ((View.whole main_v0).slice (win0_11.rect t)).set ↔ _
  rw [View.set_slice_whole, Rect.mem_set_unit]
  exact Iff.rfl

/-- Row `r` of the result array is in the block of point `r / 512`. -/
theorem cover (i : S4096x10.Idx) :
    ∃ t : Fin cfg0.N, (cfg0.win 11).flush t = true ∧ i ∈ ((cfg0.win 11).blk t).view.set := by
  have hi0 : (i 0).val < 4096 := (i 0).isLt
  have hi1 : (i 1).val < 10 := (i 1).isLt
  obtain ⟨t, ht⟩ : ∃ t : Fin cfg0.N, t.val = (i 0).val / 512 :=
    ⟨⟨(i 0).val / 512, by rw [show cfg0.N = 8 from N_0]; omega⟩, rfl⟩
  obtain ⟨e0, e1⟩ := idx_out t
  refine ⟨t, flush0_11 t, ?_⟩
  rw [mem_blk]
  intro a
  match a with
  | ⟨0, _⟩ =>
    show win0_11.index t (0 : Fin 2) * 512 ≤ (i 0).val ∧ (i 0).val < win0_11.index t (0 : Fin 2) * 512 + 512
    rw [e0]; omega
  | ⟨1, _⟩ =>
    show win0_11.index t (1 : Fin 2) * 10 ≤ (i 1).val ∧ (i 1).val < win0_11.index t (1 : Fin 2) * 10 + 10
    rw [e1]; omega

/-- THE RESULT ARRAY after the run is the network's result on the argument arrays. -/
theorem final (hb : Cert.Bridge.KerBody) (c : Dev nD) :
    (dats m 0 c).arrAt 11 cfg0.N = Cert.Spec.net (args m c) :=
  (dats m 0 c).arrAt_eq_of_cover 11 (Cert.Spec.net (args m c)) (fun t _ => flushed_eq m hb c t) cover

end Cert.KerSide

end
-- ==== Proof.KerRun.lean ====
/-
  The kernel's run: every weakly fair execution of the kernel's program ends with the result array holding the network's
  result on the argument arrays, and the argument arrays unchanged — the blockwise run with the result array read by the
  cover of its eight blocks.
-/
import proofs.«158183_g2000402634679036_pallasbulk_659_42_alg».proof.Proof.KerRunBlocks

noncomputable section

open Idealize.ShloMosaic Idealize.SL.Sem

theorem Cert.KerSide.run_of (hb : Cert.Bridge.KerBody)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = Cert.Spec.net (Cert.KerSide.args m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono
    (fun r h c => ⟨(h c).1.trans (Cert.KerSide.final m hb c), (h c).2⟩)
    (Cert.KernelIdeal.Value.run_blocks m ρ)

end
-- ==== Proof.RefBodyOps.lean ====
/-
  Layout and contraction operations read at an index given by coordinates, for the shapes a LeNet body meets:
  a plain matrix product [M, K] by [K, N] read at (i, j) as the accumulator plus the sum over the contracted
  coordinate, and a [1, 1, a, b] block cast to [a, b].
-/
import Idealize.ShloMosaic.PureOps.Ideal.Laws
import Idealize.ShloMosaic.Lib.ValueIdx
import Idealize.ShloMosaic.Lib.ValueLayout

noncomputable section

namespace Cert.RefOps

open Idealize.ShloMosaic Idealize.ShloMosaic.ValueIdx

/-- A plain matrix product ([M, K] by [K, N], contracting the inner axis, no batch axis) read at (i, j):
    the accumulator there plus the sum over k of lhs (i, k) * rhs (k, j). -/
theorem matmul_plain_apply {M K N : Nat} {φ₁ φ₂ : FTy}
    (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision) (lhs : FVec Ideal ⟨2, ![M, K]⟩ φ₁) (rhs : FVec Ideal ⟨2, ![K, N]⟩ φ₂)
    (acc : FVec Ideal ⟨2, ![M, N]⟩ .f32) (i : Fin M) (j : Fin N) :
    FloatOps.matmul D prec lhs rhs acc (ix2 i j) = acc (ix2 i j) + ∑ k : Fin K, lhs (ix2 i k) * rhs (ix2 k j) := by
  have hr : D.contr.rank = 1 := by rw [D.rank_contr, hlc]; rfl
  have hs : D.contr.size ⟨0, by omega⟩ = K := by
    have h := D.size_contr 0 (by rw [hlc]; exact Nat.one_pos)
    simp only [hlc] at h
    exact h
  rw [Ideal.matmul_apply]
  refine congrArg (acc (ix2 i j) + ·) ?_
  rw [← Equiv.sum_comp (contrEquiv1 D K hr hs).symm]
  refine Finset.sum_congr rfl fun k _ => ?_
  have e1 : D.lhsIdx (ix2 i j) ((contrEquiv1 D K hr hs).symm k) = ix2 i k := by
    funext a; apply Fin.ext
    match a with
    | ⟨0, _⟩ =>
      have key : ∀ (p : Nat) (hp : p < 2), p = 0 →
          ((ix2 i j : (⟨2, ![M, N]⟩ : Shape).Idx) ⟨p, hp⟩).val = i.val := fun p hp h => by subst h; rfl
      unfold DotDims.lhsIdx
      rw [dif_neg (by rw [hlb]; exact List.not_mem_nil), dif_pos (by rw [hln]; exact List.mem_singleton.mpr rfl)]
      simp only [Fin.val_cast]
      exact key _ _ (by simp [hlb, hln])
    | ⟨1, _⟩ =>
      exact (D.lhsIdx_val_of_single hlc _ _).trans (contrEquiv1_symm_val D K hr hs k)
  have e2 : D.rhsIdx (ix2 i j) ((contrEquiv1 D K hr hs).symm k) = ix2 k j := by
    funext a; apply Fin.ext
    match a with
    | ⟨0, _⟩ =>
      exact (D.rhsIdx_val_of_single hrc _ _).trans (contrEquiv1_symm_val D K hr hs k)
    | ⟨1, _⟩ =>
      have key : ∀ (p : Nat) (hp : p < 2), p = 1 →
          ((ix2 i j : (⟨2, ![M, N]⟩ : Shape).Idx) ⟨p, hp⟩).val = j.val := fun p hp h => by subst h; rfl
      unfold DotDims.rhsIdx
      rw [dif_neg (by rw [hrb]; exact List.not_mem_nil), dif_pos (by rw [hrn]; exact List.mem_singleton.mpr rfl)]
      simp only [Fin.val_cast]
      exact key _ _ (by simp [hlb, hln, hrn])
  rw [e1, e2]

/-- A [1, 1, a, b] block cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Cert.RefOps

end
-- ==== Proof.RefBodyConv1.lean ====
/-
  The first convolution's accumulators as pure functions of the loaded blocks, read at (i, j): each tap's
  [28, 96] by [96, 84] product is the sum over the 96 lanes, and the zero accumulators add nothing.
-/
import proofs.«158183_g2000402634679036_pallasbulk_659_42_alg».proof.Proof.Gen.ReferenceIdeal.Skeleton
import proofs.«158183_g2000402634679036_pallasbulk_659_42_alg».proof.Proof.RefBodyOps

set_option maxRecDepth 16384

noncomputable section

namespace Cert.RefBody

open Idealize.ShloMosaic Idealize.ShloMosaic.ValueIdx Cert.ReferenceIdeal Cert.ReferenceIdeal.Gen Cert.RefOps

/-- The [28, 96] by [96, 84] product into the zero splat, at (i, j). -/
theorem mm1_apply (lhs : FVec Ideal S28x96 .bf16) (rhs : FVec Ideal S96x84 .bf16) (i : Fin 28) (j : Fin 84) :
    matmul dot_S28x96_S96x84_S28x84_1_0_0_1_n_n none lhs rhs (constant (F := Ideal) S28x84 .f32 0x00000000#32) (ix2 i j)
      = ∑ l : Fin 96, lhs (ix2 i l) * rhs (ix2 l j) :=
  (matmul_plain_apply dot_S28x96_S96x84_S28x84_1_0_0_1_n_n rfl rfl rfl rfl rfl rfl none lhs rhs _ i j).trans (by
    show Ideal.ofBits .f32 0x00000000#32 + _ = _
    rw [Ideal.ofBits_zero_f32, zero_add])

/-- One tap: a [1, 28, 96] block of image rows against a [1, 1, 96, 84] block of weights. -/
def tap1 (v : Vec Ideal S1x28x96 .bf16) (w : Vec Ideal S1x1x96x84 .bf16) (i : Fin 28) (j : Fin 84) : EReal :=
  ∑ l : Fin 96, v (ix3 (0 : Fin 1) i l) * w (ix4 (0 : Fin 1) (0 : Fin 1) l j)

/-- The same with the rows already cast to [28, 96]. -/
def tap1c (v : FVec Ideal S28x96 .bf16) (w : Vec Ideal S1x1x96x84 .bf16) (i : Fin 28) (j : Fin 84) : EReal :=
  ∑ l : Fin 96, v (ix2 i l) * w (ix4 (0 : Fin 1) (0 : Fin 1) l j)

theorem tap1c_pay5 (v22 : Vec Ideal S1x28x96 .bf16) (w : Vec Ideal S1x1x96x84 .bf16) (i : Fin 28) (j : Fin 84) :
    tap1c (k0_pay5 v22) w i j = tap1 v22 w i j := by
  unfold tap1c tap1 k0_pay5
  simp only [shapeCast_1ab_ab_apply]

theorem pay3_apply (v2 : Vec Ideal S1x28x96 .bf16) (v4 : Vec Ideal S1x1x96x84 .bf16) (v12 : Vec Ideal S1x28x96 .bf16)
    (v14 : Vec Ideal S1x1x96x84 .bf16) (i : Fin 28) (j : Fin 84) :
    k0_pay3 v2 v4 v12 v14 (ix2 i j) = tap1 v2 v4 i j + tap1 v12 v14 i j := by
  unfold k0_pay3 tap1
  simp only [addf_apply, broadcast_apply, mm1_apply, k0_pay1, k0_pay2, shapeCast_1ab_ab_apply, shapeCast_11ab_ab_apply,
    Ideal.ofBits_def, Ideal.ofBits_zero_f32, zero_add]

theorem pay4_apply (v2 : Vec Ideal S1x28x96 .bf16) (v8 : Vec Ideal S1x1x96x84 .bf16) (v12 : Vec Ideal S1x28x96 .bf16)
    (v18 : Vec Ideal S1x1x96x84 .bf16) (i : Fin 28) (j : Fin 84) :
    k0_pay4 v2 v8 v12 v18 (ix2 i j) = tap1 v2 v8 i j + tap1 v12 v18 i j := by
  unfold k0_pay4 tap1
  simp only [addf_apply, broadcast_apply, mm1_apply, k0_pay1, k0_pay2, shapeCast_1ab_ab_apply, shapeCast_11ab_ab_apply,
    Ideal.ofBits_def, Ideal.ofBits_zero_f32, zero_add]

theorem pay8_apply (v17 : FVec Ideal S28x84 .f32) (v23 : FVec Ideal S28x96 .bf16) (v24 : Vec Ideal S1x1x96x84 .bf16)
    (v32 : Vec Ideal S1x28x96 .bf16) (v34 : Vec Ideal S1x1x96x84 .bf16) (v42 : Vec Ideal S1x28x96 .bf16)
    (v44 : Vec Ideal S1x1x96x84 .bf16) (i : Fin 28) (j : Fin 84) :
    k0_pay8 v17 v23 v24 v32 v34 v42 v44 (ix2 i j)
      = v17 (ix2 i j) + tap1c v23 v24 i j + tap1 v32 v34 i j + tap1 v42 v44 i j := by
  unfold k0_pay8 tap1 tap1c
  simp only [addf_apply, mm1_apply, k0_pay6, k0_pay7, shapeCast_1ab_ab_apply, shapeCast_11ab_ab_apply]

theorem pay9_apply (v21 : FVec Ideal S28x84 .f32) (v23 : FVec Ideal S28x96 .bf16) (v28 : Vec Ideal S1x1x96x84 .bf16)
    (v32 : Vec Ideal S1x28x96 .bf16) (v38 : Vec Ideal S1x1x96x84 .bf16) (v42 : Vec Ideal S1x28x96 .bf16)
    (v48 : Vec Ideal S1x1x96x84 .bf16) (i : Fin 28) (j : Fin 84) :
    k0_pay9 v21 v23 v28 v32 v38 v42 v48 (ix2 i j)
      = v21 (ix2 i j) + tap1c v23 v28 i j + tap1 v32 v38 i j + tap1 v42 v48 i j := by
  unfold k0_pay9 tap1 tap1c
  simp only [addf_apply, mm1_apply, k0_pay6, k0_pay7, shapeCast_1ab_ab_apply, shapeCast_11ab_ab_apply]

/-- The maximum over the two parities, at an index. -/
theorem pay10_apply (v47 v51 : FVec Ideal S28x84 .f32) (y : S28x84.Idx) :
    k0_pay10 v47 v51 y = max (v47 y) (v51 y) := rfl

end Cert.RefBody

end
-- ==== Proof.RefBodyLoads.lean ====
/-
  What a load through a unit-stride rectangle reads of a whole buffer, at an index given by coordinates: the
  buffer's contents at the coordinates shifted by the rectangle's offsets. Ranks two, three and four.
-/
import Idealize.ShloMosaic.Lib.Pipeline.RowLoads

noncomputable section

namespace Cert.RefOps

open Idealize.ShloMosaic Idealize.ShloMosaic.ValueIdx

variable {sig : RefSig} {κ : Kind} {sp : Space} {Val : EltTy → Type} {e : EltTy}

/-- A load from a whole buffer whose contents read X reads X at the box's indices. -/
theorem readAt_unread {s : Shape} (m : Memref sig κ sp s e) (h : m.IsWhole) (X : s.Idx → Val e) (B : LoadRect s)
    (y : B.shape.Idx) : m.view.readAt Val B (h.unread X) y = X (B.idx y) := by
  rw [View.readAt_apply, h.read_unread]

/-- The index a rank-two unit-stride rectangle gives local coordinates (a, b): each shifted by its offset. -/
theorem idx_unit2 {n0 n1 m0 m1 : Nat} (o0 o1 : Nat)
    (inb : ∀ x, (![o0, o1] : Fin 2 → Nat) x + (⟨2, ![m0, m1]⟩ : Shape).size x ≤ (⟨2, ![n0, n1]⟩ : Shape).size x)
    (a : Fin m0) (b : Fin m1) (a' : Fin n0) (b' : Fin n1) (ha : a'.val = o0 + a.val) (hb : b'.val = o1 + b.val) :
    (Rect.unit (s := (⟨2, ![n0, n1]⟩ : Shape)) ![o0, o1] (⟨2, ![m0, m1]⟩ : Shape).size inb).toLoadRect.idx (ix2 a b)
      = ix2 a' b' := by
  funext x; apply Fin.ext
  match x with
  | ⟨0, _⟩ => show o0 + 1 * a.val = a'.val; omega
  | ⟨1, _⟩ => show o1 + 1 * b.val = b'.val; omega

/-- The same at rank three. -/
theorem idx_unit3 {n0 n1 n2 m0 m1 m2 : Nat} (o0 o1 o2 : Nat)
    (inb : ∀ x, (![o0, o1, o2] : Fin 3 → Nat) x + (⟨3, ![m0, m1, m2]⟩ : Shape).size x ≤ (⟨3, ![n0, n1, n2]⟩ : Shape).size x)
    (a : Fin m0) (b : Fin m1) (c : Fin m2) (a' : Fin n0) (b' : Fin n1) (c' : Fin n2)
    (ha : a'.val = o0 + a.val) (hb : b'.val = o1 + b.val) (hc : c'.val = o2 + c.val) :
    (Rect.unit (s := (⟨3, ![n0, n1, n2]⟩ : Shape)) ![o0, o1, o2] (⟨3, ![m0, m1, m2]⟩ : Shape).size inb).toLoadRect.idx (ix3 a b c)
      = ix3 a' b' c' := by
  funext x; apply Fin.ext
  match x with
  | ⟨0, _⟩ => show o0 + 1 * a.val = a'.val; omega
  | ⟨1, _⟩ => show o1 + 1 * b.val = b'.val; omega
  | ⟨2, _⟩ => show o2 + 1 * c.val = c'.val; omega

/-- The same at rank four. -/
theorem idx_unit4 {n0 n1 n2 n3 m0 m1 m2 m3 : Nat} (o0 o1 o2 o3 : Nat)
    (inb : ∀ x, (![o0, o1, o2, o3] : Fin 4 → Nat) x + (⟨4, ![m0, m1, m2, m3]⟩ : Shape).size x ≤ (⟨4, ![n0, n1, n2, n3]⟩ : Shape).size x)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    (Rect.unit (s := (⟨4, ![n0, n1, n2, n3]⟩ : Shape)) ![o0, o1, o2, o3] (⟨4, ![m0, m1, m2, m3]⟩ : Shape).size inb).toLoadRect.idx (ix4 a b c d)
      = ix4 a' b' c' d' := by
  funext x; apply Fin.ext
  match x with
  | ⟨0, _⟩ => show o0 + 1 * a.val = a'.val; omega
  | ⟨1, _⟩ => show o1 + 1 * b.val = b'.val; omega
  | ⟨2, _⟩ => show o2 + 1 * c.val = c'.val; omega
  | ⟨3, _⟩ => show o3 + 1 * d.val = d'.val; omega

/-- A load of a rank-two unit-stride rectangle of a whole buffer reading X, at (a, b). -/
theorem readAt_unit2 {n0 n1 m0 m1 : Nat} (m : Memref sig κ sp (⟨2, ![n0, n1]⟩ : Shape) e) (h : m.IsWhole)
    (X : (⟨2, ![n0, n1]⟩ : Shape).Idx → Val e) (o0 o1 : Nat)
    (inb : ∀ x, (![o0, o1] : Fin 2 → Nat) x + (⟨2, ![m0, m1]⟩ : Shape).size x ≤ (⟨2, ![n0, n1]⟩ : Shape).size x)
    (a : Fin m0) (b : Fin m1) (a' : Fin n0) (b' : Fin n1) (ha : a'.val = o0 + a.val) (hb : b'.val = o1 + b.val) :
    m.view.readAt Val (Rect.unit (s := (⟨2, ![n0, n1]⟩ : Shape)) ![o0, o1] (⟨2, ![m0, m1]⟩ : Shape).size inb).toLoadRect
        (h.unread X) (ix2 a b) = X (ix2 a' b') :=
  (readAt_unread m h X _ _).trans (congrArg X (idx_unit2 o0 o1 inb a b a' b' ha hb))

/-- The same at rank three. -/
theorem readAt_unit3 {n0 n1 n2 m0 m1 m2 : Nat} (m : Memref sig κ sp (⟨3, ![n0, n1, n2]⟩ : Shape) e) (h : m.IsWhole)
    (X : (⟨3, ![n0, n1, n2]⟩ : Shape).Idx → Val e) (o0 o1 o2 : Nat)
    (inb : ∀ x, (![o0, o1, o2] : Fin 3 → Nat) x + (⟨3, ![m0, m1, m2]⟩ : Shape).size x ≤ (⟨3, ![n0, n1, n2]⟩ : Shape).size x)
    (a : Fin m0) (b : Fin m1) (c : Fin m2) (a' : Fin n0) (b' : Fin n1) (c' : Fin n2)
    (ha : a'.val = o0 + a.val) (hb : b'.val = o1 + b.val) (hc : c'.val = o2 + c.val) :
    m.view.readAt Val (Rect.unit (s := (⟨3, ![n0, n1, n2]⟩ : Shape)) ![o0, o1, o2] (⟨3, ![m0, m1, m2]⟩ : Shape).size inb).toLoadRect
        (h.unread X) (ix3 a b c) = X (ix3 a' b' c') :=
  (readAt_unread m h X _ _).trans (congrArg X (idx_unit3 o0 o1 o2 inb a b c a' b' c' ha hb hc))

/-- The same at rank four. -/
theorem readAt_unit4 {n0 n1 n2 n3 m0 m1 m2 m3 : Nat} (m : Memref sig κ sp (⟨4, ![n0, n1, n2, n3]⟩ : Shape) e) (h : m.IsWhole)
    (X : (⟨4, ![n0, n1, n2, n3]⟩ : Shape).Idx → Val e) (o0 o1 o2 o3 : Nat)
    (inb : ∀ x, (![o0, o1, o2, o3] : Fin 4 → Nat) x + (⟨4, ![m0, m1, m2, m3]⟩ : Shape).size x ≤ (⟨4, ![n0, n1, n2, n3]⟩ : Shape).size x)
    (a : Fin m0) (b : Fin m1) (c : Fin m2) (d : Fin m3) (a' : Fin n0) (b' : Fin n1) (c' : Fin n2) (d' : Fin n3)
    (ha : a'.val = o0 + a.val) (hb : b'.val = o1 + b.val) (hc : c'.val = o2 + c.val) (hd : d'.val = o3 + d.val) :
    m.view.readAt Val (Rect.unit (s := (⟨4, ![n0, n1, n2, n3]⟩ : Shape)) ![o0, o1, o2, o3] (⟨4, ![m0, m1, m2, m3]⟩ : Shape).size inb).toLoadRect
        (h.unread X) (ix4 a b c d) = X (ix4 a' b' c' d') :=
  (readAt_unread m h X _ _).trans (congrArg X (idx_unit4 o0 o1 o2 o3 inb a b c d a' b' c' d' ha hb hc hd))

variable [∀ e, Nonempty (Val e)]

/-- A rank-two array written one row at a time: when the newest piece is row r, the canonical contents at (r, j)
    are its payload at (0, j). -/
theorem canon_row_hit {n0 n1 : Nat} (r : Nat) (hp : Fin n0) (hr : hp.val = r)
    (inb : ∀ x, (![r, 0] : Fin 2 → Nat) x + (⟨2, ![1, n1]⟩ : Shape).size x ≤ (⟨2, ![n0, n1]⟩ : Shape).size x)
    (w : (⟨2, ![1, n1]⟩ : Shape).Idx → Val e) (L : List (View.Piece Val (⟨2, ![n0, n1]⟩ : Shape) e)) (j : Fin n1) :
    View.canon ((⟨Rect.unit (s := (⟨2, ![n0, n1]⟩ : Shape)) ![r, 0] (⟨2, ![1, n1]⟩ : Shape).size inb, w⟩ :
        View.Piece Val (⟨2, ![n0, n1]⟩ : Shape) e) :: L) (ix2 hp j) = w (ix2 (0 : Fin 1) j) := by
  have he : (Rect.unit (s := (⟨2, ![n0, n1]⟩ : Shape)) ![r, 0] (⟨2, ![1, n1]⟩ : Shape).size inb).emb (ix2 (0 : Fin 1) j)
      = ix2 hp j := by
    funext x; apply Fin.ext
    match x with
    | ⟨0, _⟩ => show r + 1 * 0 = hp.val; omega
    | ⟨1, _⟩ => show 0 + 1 * j.val = j.val; omega
  exact (congrArg (View.canon _) he.symm).trans
    (View.canon_cons_emb (Rect.unit (s := (⟨2, ![n0, n1]⟩ : Shape)) ![r, 0] (⟨2, ![1, n1]⟩ : Shape).size inb) w L
      (ix2 (0 : Fin 1) j))

/-- When the newest piece is another row, the canonical contents at (hp, j) are the older pieces'. -/
theorem canon_row_miss {n0 n1 : Nat} (r : Nat) (hp : Fin n0) (hr : hp.val ≠ r)
    (inb : ∀ x, (![r, 0] : Fin 2 → Nat) x + (⟨2, ![1, n1]⟩ : Shape).size x ≤ (⟨2, ![n0, n1]⟩ : Shape).size x)
    (w : (⟨2, ![1, n1]⟩ : Shape).Idx → Val e) (L : List (View.Piece Val (⟨2, ![n0, n1]⟩ : Shape) e)) (j : Fin n1) :
    View.canon ((⟨Rect.unit (s := (⟨2, ![n0, n1]⟩ : Shape)) ![r, 0] (⟨2, ![1, n1]⟩ : Shape).size inb, w⟩ :
        View.Piece Val (⟨2, ![n0, n1]⟩ : Shape) e) :: L) (ix2 hp j) = View.canon L (ix2 hp j) := by
  refine View.canon_cons_of_not_mem _ L ?_
  intro hm
  obtain ⟨i, hi, he⟩ := (LoadRect.mem_set _).mp hm (0 : Fin 2)
  have hi1 : i < 1 := hi
  have he' : hp.val = r + 1 * i := he
  omega

end Cert.RefOps

end
-- ==== Proof.RefBodyConv1W.lean ====
/-
  The first convolution's accumulators as the run names them, in terms of the network: accumulator p at (i, j) is
  the banded convolution of the image at row i, parity p, lane j.
-/
import proofs.«158183_g2000402634679036_pallasbulk_659_42_alg».proof.Proof.Interface
import proofs.«158183_g2000402634679036_pallasbulk_659_42_alg».proof.Proof.RefBodyConv1
import proofs.«158183_g2000402634679036_pallasbulk_659_42_alg».proof.Proof.RefBodyLoads

set_option maxRecDepth 16384

noncomputable section

namespace Cert.RefBody

open Idealize.ShloMosaic Idealize.ShloMosaic.ValueIdx Cert.ReferenceIdeal Cert.ReferenceIdeal.Gen Cert.RefOps

variable (A : Cert.Spec.Args) (b : Fin 4096) (c : Dev nD)
  (arg1 : Memref sig .tc .vmem S1x32x96 .bf16) (harg1 : arg1.IsWhole)
  (arg2 : Memref sig .tc .vmem S5x2x96x84 .bf16) (harg2 : arg2.IsWhole)
  (x0 : Vec Ideal S1x32x96 .bf16) (x1 : Vec Ideal S5x2x96x84 .bf16)

/-- One tap of the first convolution over the loaded blocks: rows d .. d + 27 of the image against W1[d, p]. -/
theorem tap1_loads (hx0 : ∀ (h : Fin 32) (l : Fin 96), x0 (ix3 (0 : Fin 1) h l) = Cert.Spec.img A b h l) (hx1 : x1 = A.W1)
    (d p : Nat) (di : Fin 5) (pp : Fin 2) (hd : di.val = d) (hp : pp.val = p)
    (inb1 : ∀ a, (![0, d, 0] : Fin 3 → Nat) a + S1x28x96.size a ≤ S1x32x96.size a)
    (inb2 : ∀ a, (![d, p, 0, 0] : Fin 4 → Nat) a + S1x1x96x84.size a ≤ S5x2x96x84.size a)
    (i : Fin 28) (j : Fin 84) :
    tap1 (View.readAt (Elt Ideal) arg1.view (Rect.unit (s := S1x32x96) ![0, d, 0] S1x28x96.size inb1).toLoadRect (harg1.unread x0))
        (View.readAt (Elt Ideal) arg2.view (Rect.unit (s := S5x2x96x84) ![d, p, 0, 0] S1x1x96x84.size inb2).toLoadRect (harg2.unread x1)) i j
      = ∑ l : Fin 96, Cert.Spec.img A b (⟨i.val + di.val, by have := i.isLt; have := di.isLt; omega⟩ : Fin 32) l
          * A.W1 (ix4 di pp l j) := by
  unfold tap1
  refine Finset.sum_congr rfl fun l _ => ?_
  refine congrArg₂ (· * ·) ?_ ?_
  · exact (readAt_unit3 arg1 harg1 x0 0 d 0 inb1 (0 : Fin 1) i l (0 : Fin 1) _ l (by simp) (by simp; omega) (by simp)).trans (hx0 _ _)
  · exact (readAt_unit4 arg2 harg2 x1 d p 0 0 inb2 (0 : Fin 1) (0 : Fin 1) l j di pp l j (by simp [hd]) (by simp [hp]) (by simp) (by simp)).trans
      (by rw [hx1])

theorem acc0_apply (hx0 : ∀ (h : Fin 32) (l : Fin 96), x0 (ix3 (0 : Fin 1) h l) = Cert.Spec.img A b h l) (hx1 : x1 = A.W1)
    (i : Fin 28) (j : Fin 84) :
    kernelRun0_A.sl.r_3 (F := Ideal) c arg1 harg1 arg2 harg2 x0 x1 (ix2 i j) = Cert.Spec.conv1 A b i 0 j := by
  unfold kernelRun0_A.sl.r_3
  refine (pay8_apply _ _ _ _ _ _ _ i j).trans ?_
  unfold kernelRun0_A.sl.r kernelRun0_A.sl.r_2
  rw [Cert.Spec.conv1, Fin.sum_univ_five]
  refine congrArg₂ (· + ·) (congrArg₂ (· + ·) (congrArg₂ (· + ·) ((pay3_apply _ _ _ _ i j).trans (congrArg₂ (· + ·) ?_ ?_)) ?_) ?_) ?_
  · exact tap1_loads A b arg1 harg1 arg2 harg2 x0 x1 hx0 hx1 0 0 0 0 rfl rfl _ _ i j
  · exact tap1_loads A b arg1 harg1 arg2 harg2 x0 x1 hx0 hx1 1 0 1 0 rfl rfl _ _ i j
  · exact (tap1c_pay5 _ _ i j).trans (tap1_loads A b arg1 harg1 arg2 harg2 x0 x1 hx0 hx1 2 0 2 0 rfl rfl _ _ i j)
  · exact tap1_loads A b arg1 harg1 arg2 harg2 x0 x1 hx0 hx1 3 0 3 0 rfl rfl _ _ i j
  · exact tap1_loads A b arg1 harg1 arg2 harg2 x0 x1 hx0 hx1 4 0 4 0 rfl rfl _ _ i j

theorem acc1_apply (hx0 : ∀ (h : Fin 32) (l : Fin 96), x0 (ix3 (0 : Fin 1) h l) = Cert.Spec.img A b h l) (hx1 : x1 = A.W1)
    (i : Fin 28) (j : Fin 84) :
    kernelRun0_A.sl.r_4 (F := Ideal) c arg1 harg1 arg2 harg2 x0 x1 (ix2 i j) = Cert.Spec.conv1 A b i 1 j := by
  unfold kernelRun0_A.sl.r_4
  refine (pay9_apply _ _ _ _ _ _ _ i j).trans ?_
  unfold kernelRun0_A.sl.r_1 kernelRun0_A.sl.r_2
  rw [Cert.Spec.conv1, Fin.sum_univ_five]
  refine congrArg₂ (· + ·) (congrArg₂ (· + ·) (congrArg₂ (· + ·) ((pay4_apply _ _ _ _ i j).trans (congrArg₂ (· + ·) ?_ ?_)) ?_) ?_) ?_
  · exact tap1_loads A b arg1 harg1 arg2 harg2 x0 x1 hx0 hx1 0 1 0 1 rfl rfl _ _ i j
  · exact tap1_loads A b arg1 harg1 arg2 harg2 x0 x1 hx0 hx1 1 1 1 1 rfl rfl _ _ i j
  · exact (tap1c_pay5 _ _ i j).trans (tap1_loads A b arg1 harg1 arg2 harg2 x0 x1 hx0 hx1 2 1 2 1 rfl rfl _ _ i j)
  · exact tap1_loads A b arg1 harg1 arg2 harg2 x0 x1 hx0 hx1 3 1 3 1 rfl rfl _ _ i j
  · exact tap1_loads A b arg1 harg1 arg2 harg2 x0 x1 hx0 hx1 4 1 4 1 rfl rfl _ _ i j

/-- The parity maximum of the first convolution, as the run names it. -/
theorem v52_apply (hx0 : ∀ (h : Fin 32) (l : Fin 96), x0 (ix3 (0 : Fin 1) h l) = Cert.Spec.img A b h l) (hx1 : x1 = A.W1)
    (i : Fin 28) (j : Fin 84) :
    k0_pay10 (kernelRun0_A.sl.r_3 (F := Ideal) c arg1 harg1 arg2 harg2 x0 x1) (kernelRun0_A.sl.r_4 (F := Ideal) c arg1 harg1 arg2 harg2 x0 x1) (ix2 i j)
      = max (Cert.Spec.conv1 A b i 0 j) (Cert.Spec.conv1 A b i 1 j) := by
  rw [pay10_apply, acc0_apply A b c arg1 harg1 arg2 harg2 x0 x1 hx0 hx1, acc1_apply A b c arg1 harg1 arg2 harg2 x0 x1 hx0 hx1]

end Cert.RefBody

end
-- ==== Proof.RefBodyPool1.lean ====
/-
  The fourteen rows stored into the [14, 84] scratch, as pure functions of the parity maximum V of the first
  convolution and the bias row: row r at lane j is max (max (V (2r, j)) (V (2r + 1, j)) + bias j) 0.
-/
import proofs.«158183_g2000402634679036_pallasbulk_659_42_alg».proof.Proof.Gen.ReferenceIdeal.Skeleton
import Idealize.ShloMosaic.Lib.ValueLayout
import Idealize.ShloMosaic.PureOps.Ideal.Laws

set_option maxRecDepth 16384

noncomputable section

namespace Cert.RefBody

open Idealize.ShloMosaic Idealize.ShloMosaic.ValueIdx Cert.ReferenceIdeal Cert.ReferenceIdeal.Gen

/-- What a pooled row holds at lane j, from the two rows k0, k1 of V it pools. -/
def pooled (V : FVec Ideal S28x84 .f32) (B : Vec Ideal S1x84 .f32) (k0 k1 : Fin 28) (j : Fin 84) : EReal :=
  max (max (V (ix2 k0 j)) (V (ix2 k1 j)) + B (ix2 (0 : Fin 1) j)) 0

theorem pay11_apply (v47 v51 : FVec Ideal S28x84 .f32) (v53 : Vec Ideal S1x84 .f32) (j : Fin 84) :
    k0_pay11 v47 v51 v53 (ix2 (0 : Fin 1) j)
      = pooled (k0_pay10 v47 v51) v53 (⟨0, by norm_num⟩ : Fin 28) (⟨1, by norm_num⟩ : Fin 28) j := by
  unfold k0_pay11 pooled
  simp only [shapeCast_self, maximumf_apply, addf_apply, broadcast_apply, Ideal.ofBits_def, Ideal.ofBits_zero_f32,
    slice2_axis0_eq]
  rfl

theorem pay12_apply (v47 v51 : FVec Ideal S28x84 .f32) (v53 : Vec Ideal S1x84 .f32) (j : Fin 84) :
    k0_pay12 v47 v51 v53 (ix2 (0 : Fin 1) j)
      = pooled (k0_pay10 v47 v51) v53 (⟨2, by norm_num⟩ : Fin 28) (⟨3, by norm_num⟩ : Fin 28) j := by
  unfold k0_pay12 pooled
  simp only [shapeCast_self, maximumf_apply, addf_apply, broadcast_apply, Ideal.ofBits_def, Ideal.ofBits_zero_f32,
    slice2_axis0_eq]
  rfl

theorem pay13_apply (v47 v51 : FVec Ideal S28x84 .f32) (v53 : Vec Ideal S1x84 .f32) (j : Fin 84) :
    k0_pay13 v47 v51 v53 (ix2 (0 : Fin 1) j)
      = pooled (k0_pay10 v47 v51) v53 (⟨4, by norm_num⟩ : Fin 28) (⟨5, by norm_num⟩ : Fin 28) j := by
  unfold k0_pay13 pooled
  simp only [shapeCast_self, maximumf_apply, addf_apply, broadcast_apply, Ideal.ofBits_def, Ideal.ofBits_zero_f32,
    slice2_axis0_eq]
  rfl

theorem pay14_apply (v47 v51 : FVec Ideal S28x84 .f32) (v53 : Vec Ideal S1x84 .f32) (j : Fin 84) :
    k0_pay14 v47 v51 v53 (ix2 (0 : Fin 1) j)
      = pooled (k0_pay10 v47 v51) v53 (⟨6, by norm_num⟩ : Fin 28) (⟨7, by norm_num⟩ : Fin 28) j := by
  unfold k0_pay14 pooled
  simp only [shapeCast_self, maximumf_apply, addf_apply, broadcast_apply, Ideal.ofBits_def, Ideal.ofBits_zero_f32,
    slice2_axis0_eq]
  rfl

theorem pay16_apply (v47 v51 : FVec Ideal S28x84 .f32) (v53 : Vec Ideal S1x84 .f32) (j : Fin 84) :
    k0_pay16 (k0_pay15 v47 v51 v53) (ix2 (0 : Fin 1) j)
      = pooled (k0_pay10 v47 v51) v53 (⟨8, by norm_num⟩ : Fin 28) (⟨9, by norm_num⟩ : Fin 28) j := by
  unfold k0_pay16 k0_pay15 pooled
  simp only [shapeCast_self, maximumf_apply, addf_apply, broadcast_apply, Ideal.ofBits_def, Ideal.ofBits_zero_f32,
    slice2_axis0_eq]
  rfl

theorem pay17_apply (v52 : FVec Ideal S28x84 .f32) (v53 : Vec Ideal S1x84 .f32) (j : Fin 84) :
    k0_pay17 v52 v53 (ix2 (0 : Fin 1) j)
      = pooled v52 v53 (⟨10, by norm_num⟩ : Fin 28) (⟨11, by norm_num⟩ : Fin 28) j := by
  unfold k0_pay17 pooled
  simp only [shapeCast_self, maximumf_apply, addf_apply, broadcast_apply, Ideal.ofBits_def, Ideal.ofBits_zero_f32,
    slice2_axis0_eq]
  rfl

theorem pay18_apply (v52 : FVec Ideal S28x84 .f32) (v53 : Vec Ideal S1x84 .f32) (j : Fin 84) :
    k0_pay18 v52 v53 (ix2 (0 : Fin 1) j)
      = pooled v52 v53 (⟨12, by norm_num⟩ : Fin 28) (⟨13, by norm_num⟩ : Fin 28) j := by
  unfold k0_pay18 pooled
  simp only [shapeCast_self, maximumf_apply, addf_apply, broadcast_apply, Ideal.ofBits_def, Ideal.ofBits_zero_f32,
    slice2_axis0_eq]
  rfl

theorem pay19_apply (v52 : FVec Ideal S28x84 .f32) (v53 : Vec Ideal S1x84 .f32) (j : Fin 84) :
    k0_pay19 v52 v53 (ix2 (0 : Fin 1) j)
      = pooled v52 v53 (⟨14, by norm_num⟩ : Fin 28) (⟨15, by norm_num⟩ : Fin 28) j := by
  unfold k0_pay19 pooled
  simp only [shapeCast_self, maximumf_apply, addf_apply, broadcast_apply, Ideal.ofBits_def, Ideal.ofBits_zero_f32,
    slice2_axis0_eq]
  rfl

theorem pay20_apply (v52 : FVec Ideal S28x84 .f32) (v53 : Vec Ideal S1x84 .f32) (j : Fin 84) :
    k0_pay20 v52 v53 (ix2 (0 : Fin 1) j)
      = pooled v52 v53 (⟨16, by norm_num⟩ : Fin 28) (⟨17, by norm_num⟩ : Fin 28) j := by
  unfold k0_pay20 pooled
  simp only [shapeCast_self, maximumf_apply, addf_apply, broadcast_apply, Ideal.ofBits_def, Ideal.ofBits_zero_f32,
    slice2_axis0_eq]
  rfl

theorem pay21_apply (v52 : FVec Ideal S28x84 .f32) (v53 : Vec Ideal S1x84 .f32) (j : Fin 84) :
    k0_pay21 v52 v53 (ix2 (0 : Fin 1) j)
      = pooled v52 v53 (⟨18, by norm_num⟩ : Fin 28) (⟨19, by norm_num⟩ : Fin 28) j := by
  unfold k0_pay21 pooled
  simp only [shapeCast_self, maximumf_apply, addf_apply, broadcast_apply, Ideal.ofBits_def, Ideal.ofBits_zero_f32,
    slice2_axis0_eq]
  rfl

theorem pay22_apply (v52 : FVec Ideal S28x84 .f32) (v53 : Vec Ideal S1x84 .f32) (j : Fin 84) :
    k0_pay22 v52 v53 (ix2 (0 : Fin 1) j)
      = pooled v52 v53 (⟨20, by norm_num⟩ : Fin 28) (⟨21, by norm_num⟩ : Fin 28) j := by
  unfold k0_pay22 pooled
  simp only [shapeCast_self, maximumf_apply, addf_apply, broadcast_apply, Ideal.ofBits_def, Ideal.ofBits_zero_f32,
    slice2_axis0_eq]
  rfl

theorem pay23_apply (v52 : FVec Ideal S28x84 .f32) (v53 : Vec Ideal S1x84 .f32) (j : Fin 84) :
    k0_pay23 v52 v53 (ix2 (0 : Fin 1) j)
      = pooled v52 v53 (⟨22, by norm_num⟩ : Fin 28) (⟨23, by norm_num⟩ : Fin 28) j := by
  unfold k0_pay23 pooled
  simp only [shapeCast_self, maximumf_apply, addf_apply, broadcast_apply, Ideal.ofBits_def, Ideal.ofBits_zero_f32,
    slice2_axis0_eq]
  rfl

theorem pay24_apply (v52 : FVec Ideal S28x84 .f32) (v53 : Vec Ideal S1x84 .f32) (j : Fin 84) :
    k0_pay24 v52 v53 (ix2 (0 : Fin 1) j)
      = pooled v52 v53 (⟨24, by norm_num⟩ : Fin 28) (⟨25, by norm_num⟩ : Fin 28) j := by
  unfold k0_pay24 pooled
  simp only [shapeCast_self, maximumf_apply, addf_apply, broadcast_apply, Ideal.ofBits_def, Ideal.ofBits_zero_f32,
    slice2_axis0_eq]
  rfl

theorem pay26_apply (v52 : FVec Ideal S28x84 .f32) (v53 : Vec Ideal S1x84 .f32) (j : Fin 84) :
    k0_pay26 (k0_pay25 v52 v53) (ix2 (0 : Fin 1) j)
      = pooled v52 v53 (⟨26, by norm_num⟩ : Fin 28) (⟨27, by norm_num⟩ : Fin 28) j := by
  unfold k0_pay26 k0_pay25 pooled
  simp only [shapeCast_self, maximumf_apply, addf_apply, broadcast_apply, Ideal.ofBits_def, Ideal.ofBits_zero_f32,
    slice2_axis0_eq]
  rfl

end Cert.RefBody

end
-- ==== Proof.RefBodyPool1W.lean ====
/-
  The [14, 84] scratch after its fourteen row stores, read at (hp, j): the first pooled activation of the network.
  Each stored row pools two rows of the parity maximum of the first convolution, adds the bias and clamps at zero; a
  read at row hp passes over the rows stored later and finds row hp's own store.
-/
import proofs.«158183_g2000402634679036_pallasbulk_659_42_alg».proof.Proof.RefBodyConv1W
import proofs.«158183_g2000402634679036_pallasbulk_659_42_alg».proof.Proof.RefBodyPool1

set_option maxRecDepth 16384

noncomputable section

namespace Cert.RefBody

open Idealize.ShloMosaic Idealize.ShloMosaic.ValueIdx Cert.ReferenceIdeal Cert.ReferenceIdeal.Gen Cert.RefOps

variable (A : Cert.Spec.Args) (b : Fin 4096) (c : Dev nD)
  (arg1 : Memref sig .tc .vmem S1x32x96 .bf16) (harg1 : arg1.IsWhole)
  (arg2 : Memref sig .tc .vmem S5x2x96x84 .bf16) (harg2 : arg2.IsWhole)
  (arg3 : Memref sig .tc .vmem S1x84 .f32) (harg3 : arg3.IsWhole)
  (x0 : Vec Ideal S1x32x96 .bf16) (x1 : Vec Ideal S5x2x96x84 .bf16) (x2 : Vec Ideal S1x84 .f32)

/-- A pooled row over the parity maximum of the first convolution and the first bias is the network's first pooled
    activation. -/
theorem pool1_of (V : FVec Ideal S28x84 .f32) (Bv : Vec Ideal S1x84 .f32)
    (hV : ∀ (i : Fin 28) (j : Fin 84), V (ix2 i j) = max (Cert.Spec.conv1 A b i 0 j) (Cert.Spec.conv1 A b i 1 j))
    (hB : ∀ j : Fin 84, Bv (ix2 (0 : Fin 1) j) = A.B1 (ix2 (0 : Fin 1) j))
    (hp : Fin 14) (j : Fin 84) :
    pooled V Bv (⟨2 * hp.val, by have := hp.isLt; omega⟩ : Fin 28) (⟨2 * hp.val + 1, by have := hp.isLt; omega⟩ : Fin 28) j
      = Cert.Spec.pool1 A b hp j := by
  unfold pooled Cert.Spec.pool1
  rw [hV, hV, hB]

set_option maxHeartbeats 1000000 in
/-- The scratch's canonical contents at (hp, j). -/
theorem scratch_apply (hx0 : ∀ (h : Fin 32) (l : Fin 96), x0 (ix3 (0 : Fin 1) h l) = Cert.Spec.img A b h l) (hx1 : x1 = A.W1) (hx2 : x2 = A.B1) (hp : Fin 14) (j : Fin 84) :
    View.canon (kernelRun0_A.sl.HS0_14 (F := Ideal) c arg1 harg1 arg2 harg2 arg3 harg3 x0 x1 x2) (ix2 hp j) = Cert.Spec.pool1 A b hp j := by
  have hV : ∀ (i : Fin 28) (j : Fin 84), k0_pay10 (kernelRun0_A.sl.r_3 (F := Ideal) c arg1 harg1 arg2 harg2 x0 x1) (kernelRun0_A.sl.r_4 (F := Ideal) c arg1 harg1 arg2 harg2 x0 x1) (ix2 i j)
      = max (Cert.Spec.conv1 A b i 0 j) (Cert.Spec.conv1 A b i 1 j) :=
    v52_apply A b c arg1 harg1 arg2 harg2 x0 x1 hx0 hx1
  have hV5 : ∀ (i : Fin 28) (j : Fin 84), kernelRun0_A.sl.r_5 (F := Ideal) c arg1 harg1 arg2 harg2 x0 x1 (ix2 i j)
      = max (Cert.Spec.conv1 A b i 0 j) (Cert.Spec.conv1 A b i 1 j) := hV
  have hB : ∀ (inb : ∀ a, (![0, 0] : Fin 2 → Nat) a + S1x84.size a ≤ S1x84.size a) (j : Fin 84),
      View.readAt (Elt Ideal) arg3.view (Rect.unit (s := S1x84) ![0, 0] S1x84.size inb).toLoadRect (harg3.unread x2) (ix2 (0 : Fin 1) j)
        = A.B1 (ix2 (0 : Fin 1) j) := fun inb j =>
    (readAt_unit2 arg3 harg3 x2 0 0 inb (0 : Fin 1) j (0 : Fin 1) j (by simp) (by simp)).trans (by rw [hx2])
  have hB6 : ∀ j : Fin 84, kernelRun0_A.sl.r_6 (F := Ideal) c arg3 harg3 x2 (ix2 (0 : Fin 1) j) = A.B1 (ix2 (0 : Fin 1) j) := hB _
  unfold kernelRun0_A.sl.HS0_14 kernelRun0_A.sl.r_7 kernelRun0_A.sl.r_8 kernelRun0_A.sl.r_9
  obtain ⟨r, hr⟩ := hp
  interval_cases r
  · -- row 0
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_miss 5 _ (by norm_num) _ _ _ j).trans ?_
    refine (canon_row_miss 4 _ (by norm_num) _ _ _ j).trans ?_
    refine (canon_row_miss 3 _ (by norm_num) _ _ _ j).trans ?_
    refine (canon_row_miss 2 _ (by norm_num) _ _ _ j).trans ?_
    refine (canon_row_miss 1 _ (by norm_num) _ _ _ j).trans ?_
    refine (canon_row_hit 0 _ rfl _ _ _ j).trans ?_
    exact (pay11_apply _ _ _ j).trans (pool1_of A b _ _ hV (hB _) ⟨0, hr⟩ j)
  · -- row 1
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_miss 5 _ (by norm_num) _ _ _ j).trans ?_
    refine (canon_row_miss 4 _ (by norm_num) _ _ _ j).trans ?_
    refine (canon_row_miss 3 _ (by norm_num) _ _ _ j).trans ?_
    refine (canon_row_miss 2 _ (by norm_num) _ _ _ j).trans ?_
    refine (canon_row_hit 1 _ rfl _ _ _ j).trans ?_
    exact (pay12_apply _ _ _ j).trans (pool1_of A b _ _ hV (hB _) ⟨1, hr⟩ j)
  · -- row 2
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_miss 5 _ (by norm_num) _ _ _ j).trans ?_
    refine (canon_row_miss 4 _ (by norm_num) _ _ _ j).trans ?_
    refine (canon_row_miss 3 _ (by norm_num) _ _ _ j).trans ?_
    refine (canon_row_hit 2 _ rfl _ _ _ j).trans ?_
    exact (pay13_apply _ _ _ j).trans (pool1_of A b _ _ hV (hB _) ⟨2, hr⟩ j)
  · -- row 3
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_miss 5 _ (by norm_num) _ _ _ j).trans ?_
    refine (canon_row_miss 4 _ (by norm_num) _ _ _ j).trans ?_
    refine (canon_row_hit 3 _ rfl _ _ _ j).trans ?_
    exact (pay14_apply _ _ _ j).trans (pool1_of A b _ _ hV (hB _) ⟨3, hr⟩ j)
  · -- row 4
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_miss 5 _ (by norm_num) _ _ _ j).trans ?_
    refine (canon_row_hit 4 _ rfl _ _ _ j).trans ?_
    exact (pay16_apply _ _ _ j).trans (pool1_of A b _ _ hV (hB _) ⟨4, hr⟩ j)
  · -- row 5
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_miss 6 _ (by norm_num) _ _ _ j).trans ?_
    refine (canon_row_hit 5 _ rfl _ _ _ j).trans ?_
    exact (pay17_apply _ _ j).trans (pool1_of A b _ _ hV5 hB6 ⟨5, hr⟩ j)
  · -- row 6
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_miss 7 _ (by norm_num) _ _ _ j).trans ?_
    refine (canon_row_hit 6 _ rfl _ _ _ j).trans ?_
    exact (pay18_apply _ _ j).trans (pool1_of A b _ _ hV5 hB6 ⟨6, hr⟩ j)
  · -- row 7
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_miss 8 _ (by norm_num) _ _ _ j).trans ?_
    refine (canon_row_hit 7 _ rfl _ _ _ j).trans ?_
    exact (pay19_apply _ _ j).trans (pool1_of A b _ _ hV5 hB6 ⟨7, hr⟩ j)
  · -- row 8
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_miss 9 _ (by norm_num) _ _ _ j).trans ?_
    refine (canon_row_hit 8 _ rfl _ _ _ j).trans ?_
    exact (pay20_apply _ _ j).trans (pool1_of A b _ _ hV5 hB6 ⟨8, hr⟩ j)
  · -- row 9
    refine (canon_row_miss 13 _ (by norm_num) _ _ _ j).trans ?_
    refine (canon_row_miss 12 _ (by norm_num) _ _ _ j).trans ?_
    refine (canon_row_miss 11 _ (by norm_num) _ _ _ j).trans ?_
    refine (canon_row_miss 10 _ (by norm_num) _ _ _ j).trans ?_
    refine (canon_row_hit 9 _ rfl _ _ _ j).trans ?_
    exact (pay21_apply _ _ j).trans (pool1_of A b _ _ hV5 hB6 ⟨9, hr⟩ j)
  · -- row 10
    refine (canon_row_miss 13 _ (by norm_num) _ _ _ j).trans ?_
    refine (canon_row_miss 12 _ (by norm_num) _ _ _ j).trans ?_
    refine (canon_row_miss 11 _ (by norm_num) _ _ _ j).trans ?_
    refine (canon_row_hit 10 _ rfl _ _ _ j).trans ?_
    exact (pay22_apply _ _ j).trans (pool1_of A b _ _ hV5 hB6 ⟨10, hr⟩ j)
  · -- row 11
    refine (canon_row_miss 13 _ (by norm_num) _ _ _ j).trans ?_
    refine (canon_row_miss 12 _ (by norm_num) _ _ _ j).trans ?_
    refine (canon_row_hit 11 _ rfl _ _ _ j).trans ?_
    exact (pay23_apply _ _ j).trans (pool1_of A b _ _ hV5 hB6 ⟨11, hr⟩ j)
  · -- row 12
    refine (canon_row_miss 13 _ (by norm_num) _ _ _ j).trans ?_
    refine (canon_row_hit 12 _ rfl _ _ _ j).trans ?_
    exact (pay24_apply _ _ j).trans (pool1_of A b _ _ hV5 hB6 ⟨12, hr⟩ j)
  · -- row 13
    refine (canon_row_hit 13 _ rfl _ _ _ j).trans ?_
    exact (pay26_apply _ _ j).trans (pool1_of A b _ _ hV5 hB6 ⟨13, hr⟩ j)

end Cert.RefBody

end
-- ==== Proof.RefBodyConv2.lean ====
/-
  The second convolution's accumulators as pure functions of the loaded blocks, read at (i, j): each tap's
  [10, 84] by [84, 80] product is the sum over the 84 lanes; the format change of the activations is the identity.
-/
import proofs.«158183_g2000402634679036_pallasbulk_659_42_alg».proof.Proof.Gen.ReferenceIdeal.Skeleton
import proofs.«158183_g2000402634679036_pallasbulk_659_42_alg».proof.Proof.RefBodyOps

set_option maxRecDepth 16384

noncomputable section

namespace Cert.RefBody

open Idealize.ShloMosaic Idealize.ShloMosaic.ValueIdx Cert.ReferenceIdeal Cert.ReferenceIdeal.Gen Cert.RefOps

/-- The [10, 84] by [84, 80] product into the zero splat, at (i, j). -/
theorem mm2_apply (lhs : FVec Ideal S10x84 .bf16) (rhs : FVec Ideal S84x80 .bf16) (i : Fin 10) (j : Fin 80) :
    matmul dot_S10x84_S84x80_S10x80_1_0_0_1_n_n none lhs rhs (constant (F := Ideal) S10x80 .f32 0x00000000#32) (ix2 i j)
      = ∑ l : Fin 84, lhs (ix2 i l) * rhs (ix2 l j) :=
  (matmul_plain_apply dot_S10x84_S84x80_S10x80_1_0_0_1_n_n rfl rfl rfl rfl rfl rfl none lhs rhs _ i j).trans (by
    show Ideal.ofBits .f32 0x00000000#32 + _ = _
    rw [Ideal.ofBits_zero_f32, zero_add])

/-- One tap: ten rows of pooled activations against a [1, 1, 84, 80] block of weights. -/
def tap2 (v : S10x84.Idx → EReal) (w : Vec Ideal S1x1x84x80 .bf16) (i : Fin 10) (j : Fin 80) : EReal :=
  ∑ l : Fin 84, v (ix2 i l) * w (ix4 (0 : Fin 1) (0 : Fin 1) l j)

theorem pay29_apply (v182 : Vec Ideal S10x84 .f32) (v184 : Vec Ideal S1x1x84x80 .bf16) (v192 : Vec Ideal S10x84 .f32)
    (v194 : Vec Ideal S1x1x84x80 .bf16) (i : Fin 10) (j : Fin 80) :
    k0_pay29 v182 v184 v192 v194 (ix2 i j) = tap2 v182 v184 i j + tap2 v192 v194 i j := by
  unfold k0_pay29 tap2
  simp only [addf_apply, broadcast_apply, mm2_apply, k0_pay27, k0_pay28, truncf_apply, shapeCast_11ab_ab_apply,
    Ideal.ofBits_def, Ideal.ofBits_zero_f32, zero_add]

theorem pay30_apply (v182 : Vec Ideal S10x84 .f32) (v188 : Vec Ideal S1x1x84x80 .bf16) (v192 : Vec Ideal S10x84 .f32)
    (v198 : Vec Ideal S1x1x84x80 .bf16) (i : Fin 10) (j : Fin 80) :
    k0_pay30 v182 v188 v192 v198 (ix2 i j) = tap2 v182 v188 i j + tap2 v192 v198 i j := by
  unfold k0_pay30 tap2
  simp only [addf_apply, broadcast_apply, mm2_apply, k0_pay27, k0_pay28, truncf_apply, shapeCast_11ab_ab_apply,
    Ideal.ofBits_def, Ideal.ofBits_zero_f32, zero_add]

theorem pay34_apply (v197 : FVec Ideal S10x80 .f32) (v203 : FVec Ideal S10x84 .bf16) (v204 : Vec Ideal S1x1x84x80 .bf16)
    (v212 : Vec Ideal S10x84 .f32) (v214 : Vec Ideal S1x1x84x80 .bf16) (v222 : Vec Ideal S10x84 .f32)
    (v224 : Vec Ideal S1x1x84x80 .bf16) (i : Fin 10) (j : Fin 80) :
    k0_pay34 v197 v203 v204 v212 v214 v222 v224 (ix2 i j)
      = v197 (ix2 i j) + tap2 v203 v204 i j + tap2 v212 v214 i j + tap2 v222 v224 i j := by
  unfold k0_pay34 tap2
  simp only [addf_apply, mm2_apply, k0_pay32, k0_pay33, truncf_apply, shapeCast_11ab_ab_apply]

theorem pay35_apply (v201 : FVec Ideal S10x80 .f32) (v203 : FVec Ideal S10x84 .bf16) (v208 : Vec Ideal S1x1x84x80 .bf16)
    (v212 : Vec Ideal S10x84 .f32) (v218 : Vec Ideal S1x1x84x80 .bf16) (v222 : Vec Ideal S10x84 .f32)
    (v228 : Vec Ideal S1x1x84x80 .bf16) (i : Fin 10) (j : Fin 80) :
    k0_pay35 v201 v203 v208 v212 v218 v222 v228 (ix2 i j)
      = v201 (ix2 i j) + tap2 v203 v208 i j + tap2 v212 v218 i j + tap2 v222 v228 i j := by
  unfold k0_pay35 tap2
  simp only [addf_apply, mm2_apply, k0_pay32, k0_pay33, truncf_apply, shapeCast_11ab_ab_apply]

/-- The format change of ten activation rows is the identity, so a tap over them is the tap over the rows. -/
theorem tap2_pay31 (v202 : Vec Ideal S10x84 .f32) (w : Vec Ideal S1x1x84x80 .bf16) (i : Fin 10) (j : Fin 80) :
    tap2 (k0_pay31 v202) w i j = tap2 v202 w i j := rfl

/-- The maximum over the two parities, at an index. -/
theorem pay36_apply (v227 v231 : FVec Ideal S10x80 .f32) (y : S10x80.Idx) :
    k0_pay36 v227 v231 y = max (v227 y) (v231 y) := rfl

end Cert.RefBody

end
-- ==== Proof.RefBodyConv2W.lean ====
/-
  The second convolution's accumulators as the run names them, in terms of the network. The ten-row loads of the
  scratch read the first pooled activations at rows d .. d + 9; accumulator p at (i, j) is the banded convolution of
  those activations at row i, parity p, lane j.
-/
import proofs.«158183_g2000402634679036_pallasbulk_659_42_alg».proof.Proof.RefBodyPool1W
import proofs.«158183_g2000402634679036_pallasbulk_659_42_alg».proof.Proof.RefBodyConv2

set_option maxRecDepth 16384

noncomputable section

namespace Cert.RefBody

open Idealize.ShloMosaic Idealize.ShloMosaic.ValueIdx Cert.ReferenceIdeal Cert.ReferenceIdeal.Gen Cert.RefOps

variable (A : Cert.Spec.Args) (b : Fin 4096) (c : Dev nD)
  (arg1 : Memref sig .tc .vmem S1x32x96 .bf16) (harg1 : arg1.IsWhole)
  (arg2 : Memref sig .tc .vmem S5x2x96x84 .bf16) (harg2 : arg2.IsWhole)
  (arg3 : Memref sig .tc .vmem S1x84 .f32) (harg3 : arg3.IsWhole)
  (arg4 : Memref sig .tc .vmem S5x2x84x80 .bf16) (harg4 : arg4.IsWhole)
  (arg13 : Memref sig .tc .vmem S14x84 .f32)
  (x0 : Vec Ideal S1x32x96 .bf16) (x1 : Vec Ideal S5x2x96x84 .bf16) (x2 : Vec Ideal S1x84 .f32) (x3 : Vec Ideal S5x2x84x80 .bf16)

/-- A ten-row load of the scratch from row d, at (i, l): the first pooled activation at row i + d. -/
theorem scr_load (hx0 : ∀ (h : Fin 32) (l : Fin 96), x0 (ix3 (0 : Fin 1) h l) = Cert.Spec.img A b h l) (hx1 : x1 = A.W1) (hx2 : x2 = A.B1) (d : Nat) (di : Fin 5) (hd : di.val = d)
    (inb : ∀ a, (![d, 0] : Fin 2 → Nat) a + S10x84.size a ≤ S14x84.size a) (i : Fin 10) (l : Fin 84) :
    arg13.view.readCov (kernelRun0_A.sl.HS0_14 (F := Ideal) c arg1 harg1 arg2 harg2 arg3 harg3 x0 x1 x2)
        (Rect.unit (s := S14x84) ![d, 0] S10x84.size inb).toLoadRect (ix2 i l)
      = Cert.Spec.pool1 A b (⟨i.val + di.val, by have := i.isLt; have := di.isLt; omega⟩ : Fin 14) l := by
  rw [View.readCov_eq_canon']
  refine (congrArg (View.canon _) (idx_unit2 d 0 inb i l
    (⟨i.val + di.val, by have := i.isLt; have := di.isLt; omega⟩ : Fin 14) l (by simp; omega) (by simp))).trans ?_
  exact scratch_apply A b c arg1 harg1 arg2 harg2 arg3 harg3 x0 x1 x2 hx0 hx1 hx2 _ l

/-- One tap of the second convolution: ten activation rows from row d against W2[d, p]. -/
theorem tap2_loads (x3 : Vec Ideal S5x2x84x80 .bf16) (hx3 : x3 = A.W2) (V : S10x84.Idx → EReal) (d p : Nat) (di : Fin 5) (pp : Fin 2)
    (hd : di.val = d) (hp : pp.val = p)
    (hV : ∀ (i : Fin 10) (l : Fin 84), V (ix2 i l)
      = Cert.Spec.pool1 A b (⟨i.val + di.val, by have := i.isLt; have := di.isLt; omega⟩ : Fin 14) l)
    (inb2 : ∀ a, (![d, p, 0, 0] : Fin 4 → Nat) a + S1x1x84x80.size a ≤ S5x2x84x80.size a)
    (i : Fin 10) (j : Fin 80) :
    tap2 V (View.readAt (Elt Ideal) arg4.view (Rect.unit (s := S5x2x84x80) ![d, p, 0, 0] S1x1x84x80.size inb2).toLoadRect (harg4.unread x3)) i j
      = ∑ l : Fin 84, Cert.Spec.pool1 A b (⟨i.val + di.val, by have := i.isLt; have := di.isLt; omega⟩ : Fin 14) l
          * A.W2 (ix4 di pp l j) := by
  unfold tap2
  refine Finset.sum_congr rfl fun l _ => ?_
  refine congrArg₂ (· * ·) (hV i l) ?_
  exact (readAt_unit4 arg4 harg4 x3 d p 0 0 inb2 (0 : Fin 1) (0 : Fin 1) l j di pp l j (by simp [hd]) (by simp [hp]) (by simp) (by simp)).trans
    (by rw [hx3])

theorem acc2_0_apply (hx0 : ∀ (h : Fin 32) (l : Fin 96), x0 (ix3 (0 : Fin 1) h l) = Cert.Spec.img A b h l) (hx1 : x1 = A.W1) (hx2 : x2 = A.B1) (hx3 : x3 = A.W2) (i : Fin 10) (j : Fin 80) :
    kernelRun0_A.sl.r_13 (F := Ideal) c arg1 harg1 arg2 harg2 arg3 harg3 arg4 harg4 arg13 x0 x1 x2 x3 (ix2 i j) = Cert.Spec.conv2 A b i 0 j := by
  unfold kernelRun0_A.sl.r_13
  refine (pay34_apply _ _ _ _ _ _ _ i j).trans ?_
  unfold kernelRun0_A.sl.r_10 kernelRun0_A.sl.r_12 kernelRun0_A.sl.v182 kernelRun0_A.sl.v192 kernelRun0_A.sl.v202
    kernelRun0_A.sl.v212 kernelRun0_A.sl.v222
  rw [Cert.Spec.conv2, Fin.sum_univ_five]
  refine congrArg₂ (· + ·) (congrArg₂ (· + ·) (congrArg₂ (· + ·) ((pay29_apply _ _ _ _ i j).trans (congrArg₂ (· + ·) ?_ ?_)) ?_) ?_) ?_
  · exact tap2_loads A b arg4 harg4 x3 hx3 _ 0 0 0 0 rfl rfl (fun i l => scr_load A b c arg1 harg1 arg2 harg2 arg3 harg3 arg13 x0 x1 x2 hx0 hx1 hx2 0 0 rfl _ i l) _ i j
  · exact tap2_loads A b arg4 harg4 x3 hx3 _ 1 0 1 0 rfl rfl (fun i l => scr_load A b c arg1 harg1 arg2 harg2 arg3 harg3 arg13 x0 x1 x2 hx0 hx1 hx2 1 1 rfl _ i l) _ i j
  · exact (tap2_pay31 _ _ i j).trans (tap2_loads A b arg4 harg4 x3 hx3 _ 2 0 2 0 rfl rfl (fun i l => scr_load A b c arg1 harg1 arg2 harg2 arg3 harg3 arg13 x0 x1 x2 hx0 hx1 hx2 2 2 rfl _ i l) _ i j)
  · exact tap2_loads A b arg4 harg4 x3 hx3 _ 3 0 3 0 rfl rfl (fun i l => scr_load A b c arg1 harg1 arg2 harg2 arg3 harg3 arg13 x0 x1 x2 hx0 hx1 hx2 3 3 rfl _ i l) _ i j
  · exact tap2_loads A b arg4 harg4 x3 hx3 _ 4 0 4 0 rfl rfl (fun i l => scr_load A b c arg1 harg1 arg2 harg2 arg3 harg3 arg13 x0 x1 x2 hx0 hx1 hx2 4 4 rfl _ i l) _ i j

theorem acc2_1_apply (hx0 : ∀ (h : Fin 32) (l : Fin 96), x0 (ix3 (0 : Fin 1) h l) = Cert.Spec.img A b h l) (hx1 : x1 = A.W1) (hx2 : x2 = A.B1) (hx3 : x3 = A.W2) (i : Fin 10) (j : Fin 80) :
    kernelRun0_A.sl.r_14 (F := Ideal) c arg1 harg1 arg2 harg2 arg3 harg3 arg4 harg4 arg13 x0 x1 x2 x3 (ix2 i j) = Cert.Spec.conv2 A b i 1 j := by
  unfold kernelRun0_A.sl.r_14
  refine (pay35_apply _ _ _ _ _ _ _ i j).trans ?_
  unfold kernelRun0_A.sl.r_11 kernelRun0_A.sl.r_12 kernelRun0_A.sl.v182 kernelRun0_A.sl.v192 kernelRun0_A.sl.v202
    kernelRun0_A.sl.v212 kernelRun0_A.sl.v222
  rw [Cert.Spec.conv2, Fin.sum_univ_five]
  refine congrArg₂ (· + ·) (congrArg₂ (· + ·) (congrArg₂ (· + ·) ((pay30_apply _ _ _ _ i j).trans (congrArg₂ (· + ·) ?_ ?_)) ?_) ?_) ?_
  · exact tap2_loads A b arg4 harg4 x3 hx3 _ 0 1 0 1 rfl rfl (fun i l => scr_load A b c arg1 harg1 arg2 harg2 arg3 harg3 arg13 x0 x1 x2 hx0 hx1 hx2 0 0 rfl _ i l) _ i j
  · exact tap2_loads A b arg4 harg4 x3 hx3 _ 1 1 1 1 rfl rfl (fun i l => scr_load A b c arg1 harg1 arg2 harg2 arg3 harg3 arg13 x0 x1 x2 hx0 hx1 hx2 1 1 rfl _ i l) _ i j
  · exact (tap2_pay31 _ _ i j).trans (tap2_loads A b arg4 harg4 x3 hx3 _ 2 1 2 1 rfl rfl (fun i l => scr_load A b c arg1 harg1 arg2 harg2 arg3 harg3 arg13 x0 x1 x2 hx0 hx1 hx2 2 2 rfl _ i l) _ i j)
  · exact tap2_loads A b arg4 harg4 x3 hx3 _ 3 1 3 1 rfl rfl (fun i l => scr_load A b c arg1 harg1 arg2 harg2 arg3 harg3 arg13 x0 x1 x2 hx0 hx1 hx2 3 3 rfl _ i l) _ i j
  · exact tap2_loads A b arg4 harg4 x3 hx3 _ 4 1 4 1 rfl rfl (fun i l => scr_load A b c arg1 harg1 arg2 harg2 arg3 harg3 arg13 x0 x1 x2 hx0 hx1 hx2 4 4 rfl _ i l) _ i j

end Cert.RefBody

end
-- ==== Proof.RefBodyBDots.lean ====
/-
  The three matrix products of the reference's dense layers, each read at one entry over the extended reals: a
  [1, K] row by a [K, N] array into a zero accumulator has, at (0, o), the sum over k of lhs (0, k) · rhs (k, o).
-/
import proofs.«158183_g2000402634679036_pallasbulk_659_42_alg».proof.Proof.Gen.ReferenceIdeal.Skeleton
import proofs.«158183_g2000402634679036_pallasbulk_659_42_alg».proof.Proof.RefBodyOps

set_option maxRecDepth 16384

noncomputable section

namespace Cert.RefBodyB

open Idealize.ShloMosaic Idealize.ShloMosaic.ValueIdx Cert.ReferenceIdeal Cert.ReferenceIdeal.Gen Cert.RefOps

/-- The [1, 80] by [80, 120] product into the zero splat, at (0, o). -/
theorem mmF1_apply (lhs : FVec Ideal S1x80 .bf16) (rhs : FVec Ideal S80x120 .bf16) (i : Fin 1) (o : Fin 120) :
    matmul dot_S1x80_S80x120_S1x120_1_0_0_1_n_n none lhs rhs (constant (F := Ideal) S1x120 .f32 0x00000000#32) (ix2 i o)
      = ∑ j : Fin 80, lhs (ix2 i j) * rhs (ix2 j o) :=
  (matmul_plain_apply dot_S1x80_S80x120_S1x120_1_0_0_1_n_n rfl rfl rfl rfl rfl rfl none lhs rhs _ i o).trans (by
    show Ideal.ofBits .f32 0x00000000#32 + _ = _
    rw [Ideal.ofBits_zero_f32, zero_add])

/-- The [1, 120] by [120, 84] product into the zero splat, at (0, k). -/
theorem mmF2_apply (lhs : FVec Ideal S1x120 .bf16) (rhs : FVec Ideal S120x84 .bf16) (i : Fin 1) (k : Fin 84) :
    matmul dot_S1x120_S120x84_S1x84_1_0_0_1_n_n none lhs rhs (constant (F := Ideal) S1x84 .f32 0x00000000#32) (ix2 i k)
      = ∑ q : Fin 120, lhs (ix2 i q) * rhs (ix2 q k) :=
  (matmul_plain_apply dot_S1x120_S120x84_S1x84_1_0_0_1_n_n rfl rfl rfl rfl rfl rfl none lhs rhs _ i k).trans (by
    show Ideal.ofBits .f32 0x00000000#32 + _ = _
    rw [Ideal.ofBits_zero_f32, zero_add])

/-- The [1, 84] by [84, 10] product into the zero splat, at (0, o). -/
theorem mmF3_apply (lhs : FVec Ideal S1x84 .bf16) (rhs : FVec Ideal S84x10 .bf16) (i : Fin 1) (o : Fin 10) :
    matmul dot_S1x84_S84x10_S1x10_1_0_0_1_n_n none lhs rhs (constant (F := Ideal) S1x10 .f32 0x00000000#32) (ix2 i o)
      = ∑ k : Fin 84, lhs (ix2 i k) * rhs (ix2 k o) :=
  (matmul_plain_apply dot_S1x84_S84x10_S1x10_1_0_0_1_n_n rfl rfl rfl rfl rfl rfl none lhs rhs _ i o).trans (by
    show Ideal.ofBits .f32 0x00000000#32 + _ = _
    rw [Ideal.ofBits_zero_f32, zero_add])

end Cert.RefBodyB

end
-- ==== Proof.RefBodyBRows.lean ====
/-
  The second pooling and the first three contractions of the first dense layer, as pure functions of the second
  convolution's two parities: a pooled row at lane j is max (max (V (2·hp, j)) (V (2·hp + 1, j)) + bias j) 0 with V
  the maximum over the parities, and each pooled row is contracted against its own [80, 120] block of weights.
-/
import proofs.«158183_g2000402634679036_pallasbulk_659_42_alg».proof.Proof.RefBodyBDots

set_option maxRecDepth 16384

noncomputable section

namespace Cert.RefBodyB

open Idealize.ShloMosaic Idealize.ShloMosaic.ValueIdx Cert.ReferenceIdeal Cert.ReferenceIdeal.Gen Cert.RefOps

/-- The maximum over the two parities, at an index. -/
theorem pay36_apply (v227 v231 : FVec Ideal S10x80 .f32) (y : S10x80.Idx) :
    k0_pay36 v227 v231 y = max (v227 y) (v231 y) := rfl

/-- A pooled row at lane j, from the two rows k0, k1 of the parity maximum V it pools and the bias row. -/
def prow (V : FVec Ideal S10x80 .f32) (B : Vec Ideal S1x80 .f32) (k0 k1 : Fin 10) (j : Fin 80) : EReal :=
  max (max (V (ix2 k0 j)) (V (ix2 k1 j)) + B (ix2 (0 : Fin 1) j)) 0

/-- One pooled row against its [1, 80, 120] block of weights, at output o. -/
def fterm (V : FVec Ideal S10x80 .f32) (B : Vec Ideal S1x80 .f32) (k0 k1 : Fin 10) (w : Vec Ideal S1x80x120 .bf16)
    (o : Fin 120) : EReal :=
  ∑ j : Fin 80, prow V B k0 k1 j * w (ix3 (0 : Fin 1) j o)

/-- The first dense layer's accumulator after the first three pooled rows: the bias plus three contractions. -/
theorem pay37_apply (v227 v231 : FVec Ideal S10x80 .f32) (v233 : Vec Ideal S1x80 .f32) (v234 : Vec Ideal S1x120 .f32)
    (w0 w1 w2 : Vec Ideal S1x80x120 .bf16) (o : Fin 120) :
    k0_pay37 v227 v231 v233 v234 w0 w1 w2 (ix2 (0 : Fin 1) o)
      = ((v234 (ix2 (0 : Fin 1) o)
          + fterm (k0_pay36 v227 v231) v233 (⟨0, by norm_num⟩ : Fin 10) (⟨1, by norm_num⟩ : Fin 10) w0 o)
          + fterm (k0_pay36 v227 v231) v233 (⟨2, by norm_num⟩ : Fin 10) (⟨3, by norm_num⟩ : Fin 10) w1 o)
          + fterm (k0_pay36 v227 v231) v233 (⟨4, by norm_num⟩ : Fin 10) (⟨5, by norm_num⟩ : Fin 10) w2 o := by
  unfold k0_pay37 fterm prow
  simp only [addf_apply, mmF1_apply, truncf_apply, maximumf_apply, broadcast_apply, shapeCast_1ab_ab_apply,
    Ideal.ofBits_def, Ideal.ofBits_zero_f32, slice2_axis0_eq]
  rfl

/-- The fourth pooled row before its clamp. -/
theorem pay38_apply (v227 v231 : FVec Ideal S10x80 .f32) (v233 : Vec Ideal S1x80 .f32) (j : Fin 80) :
    k0_pay38 v227 v231 v233 (ix2 (0 : Fin 1) j)
      = max (k0_pay36 v227 v231 (ix2 (⟨6, by norm_num⟩ : Fin 10) j)) (k0_pay36 v227 v231 (ix2 (⟨7, by norm_num⟩ : Fin 10) j))
          + v233 (ix2 (0 : Fin 1) j) := by
  unfold k0_pay38
  simp only [addf_apply, maximumf_apply, slice2_axis0_eq]
  rfl

end Cert.RefBodyB

end
-- ==== Proof.RefBodyBOut.lean ====
/-
  The reference's last payload as a pure function of what it is handed: the first dense layer's accumulator after
  three pooled rows, the fourth row before its clamp, the parity maximum of the second convolution (for the fifth
  row), and the dense layers' arrays.
-/
import proofs.«158183_g2000402634679036_pallasbulk_659_42_alg».proof.Proof.RefBodyBRows

set_option maxRecDepth 16384

noncomputable section

namespace Cert.RefBodyB

open Idealize.ShloMosaic Idealize.ShloMosaic.ValueIdx Cert.ReferenceIdeal Cert.ReferenceIdeal.Gen Cert.RefOps

/-- The first dense layer before its clamp, at output q: the accumulator so far plus the contractions of the fourth
    pooled row (clamped here against the constant it is handed) and of the fifth. -/
def fc1pre (V : FVec Ideal S10x80 .f32) (B : Vec Ideal S1x80 .f32) (acc : FVec Ideal S1x120 .f32) (r3 : FVec Ideal S1x80 .f32)
    (cst : Ideal .f32) (w3 w4 : Vec Ideal S1x80x120 .bf16) (q : Fin 120) : EReal :=
  (acc (ix2 (0 : Fin 1) q) + ∑ j : Fin 80, max (r3 (ix2 (0 : Fin 1) j)) cst * w3 (ix3 (0 : Fin 1) j q))
    + fterm V B (⟨8, by norm_num⟩ : Fin 10) (⟨9, by norm_num⟩ : Fin 10) w4 q

/-- The second dense layer at output k, from the first layer's values before their clamp. -/
def fc2of (pre : Fin 120 → EReal) (W2 : Vec Ideal S120x84 .bf16) (B2 : Vec Ideal S1x84 .f32) (k : Fin 84) : EReal :=
  max ((∑ q : Fin 120, max (pre q) 0 * W2 (ix2 q k)) + B2 (ix2 (0 : Fin 1) k)) 0

/-- The last payload at (0, 0, o): the fourth and fifth rows' contractions close the first dense layer, then the
    second and third dense layers, and the [1, 10] row is cast to [1, 1, 10]. -/
theorem pay39_apply (V : FVec Ideal S10x80 .f32) (B : Vec Ideal S1x80 .f32) (acc : FVec Ideal S1x120 .f32)
    (r3 : FVec Ideal S1x80 .f32) (cst : Ideal .f32) (w3 w4 : Vec Ideal S1x80x120 .bf16)
    (W2 : Vec Ideal S120x84 .bf16) (B2 : Vec Ideal S1x84 .f32) (W3 : Vec Ideal S84x10 .bf16) (B3 : Vec Ideal S1x10 .f32)
    (o : Fin 10) :
    k0_pay39 V B acc r3 cst w3 w4 W2 B2 W3 B3 (ix3 (0 : Fin 1) (0 : Fin 1) o)
      = (∑ k : Fin 84, fc2of (fc1pre V B acc r3 cst w3 w4) W2 B2 k * W3 (ix2 k o)) + B3 (ix2 (0 : Fin 1) o) := by
  unfold k0_pay39 fc2of fc1pre fterm prow
  simp only [shapeCast_ab_1ab_apply, addf_apply, mmF1_apply, mmF2_apply, mmF3_apply, truncf_apply, maximumf_apply,
    broadcast_apply, shapeCast_1ab_ab_apply, Ideal.ofBits_def, Ideal.ofBits_zero_f32, slice2_axis0_eq]
  rfl

end Cert.RefBodyB

end
-- ==== Proof.RefBodyB.lean ====
/-
  The dense tail of the reference's body is the specification's dense tail.

  Handed the second convolution's two parities (as the specification's `conv2`), the bias rows and the dense layers'
  arrays, the body pools five rows, contracts each against its block of the first dense layer's weights and adds the
  five contractions to the bias one after the other; the specification adds the bias to the sum over the five rows.
  The two differ by associativity of addition only. The second and third dense layers are the same sums on both sides.
-/
import proofs.«158183_g2000402634679036_pallasbulk_659_42_alg».proof.Proof.Spec
import proofs.«158183_g2000402634679036_pallasbulk_659_42_alg».proof.Proof.RefBodyBOut

set_option maxRecDepth 16384

noncomputable section

namespace Cert.RefBodyB

open Idealize.ShloMosaic Idealize.ShloMosaic.ValueIdx Cert.ReferenceIdeal Cert.ReferenceIdeal.Gen

/-- A pooled row of the body is the specification's second pooled activation. -/
theorem prow_eq (A : Cert.Spec.Args) (b : Fin 4096)
    (v227 v231 : FVec Ideal S10x80 .f32) (v233 : Vec Ideal S1x80 .f32)
    (h0 : ∀ (i : Fin 10) (j : Fin 80), v227 (ix2 i j) = Cert.Spec.conv2 A b i 0 j)
    (h1 : ∀ (i : Fin 10) (j : Fin 80), v231 (ix2 i j) = Cert.Spec.conv2 A b i 1 j)
    (hb2 : ∀ j : Fin 80, v233 (ix2 (0 : Fin 1) j) = A.B2 (ix2 (0 : Fin 1) j)) (hp : Fin 5) (j : Fin 80) :
    prow (k0_pay36 v227 v231) v233 (⟨2 * hp.val, by have := hp.isLt; omega⟩ : Fin 10)
        (⟨2 * hp.val + 1, by have := hp.isLt; omega⟩ : Fin 10) j
      = Cert.Spec.pool2 A b hp j := by
  unfold prow Cert.Spec.pool2
  rw [pay36_apply, pay36_apply, h0, h1, h0, h1, hb2]

/-- A pooled row against its block of the first dense layer's weights is that row's part of the contraction. -/
theorem fterm_eq (A : Cert.Spec.Args) (b : Fin 4096)
    (v227 v231 : FVec Ideal S10x80 .f32) (v233 : Vec Ideal S1x80 .f32)
    (h0 : ∀ (i : Fin 10) (j : Fin 80), v227 (ix2 i j) = Cert.Spec.conv2 A b i 0 j)
    (h1 : ∀ (i : Fin 10) (j : Fin 80), v231 (ix2 i j) = Cert.Spec.conv2 A b i 1 j)
    (hb2 : ∀ j : Fin 80, v233 (ix2 (0 : Fin 1) j) = A.B2 (ix2 (0 : Fin 1) j)) (w : Vec Ideal S1x80x120 .bf16) (hp : Fin 5)
    (hw : ∀ (j : Fin 80) (o : Fin 120), w (ix3 (0 : Fin 1) j o) = A.WF1 (ix3 hp j o)) (q : Fin 120) :
    fterm (k0_pay36 v227 v231) v233 (⟨2 * hp.val, by have := hp.isLt; omega⟩ : Fin 10)
        (⟨2 * hp.val + 1, by have := hp.isLt; omega⟩ : Fin 10) w q
      = ∑ j : Fin 80, Cert.Spec.pool2 A b hp j * A.WF1 (ix3 hp j q) := by
  unfold fterm
  exact Finset.sum_congr rfl fun j _ => by rw [prow_eq A b v227 v231 v233 h0 h1 hb2 hp j, hw]

/-- The first dense layer: the bias and the five rows' contractions, added one after the other, are the bias plus
    the sum over the five rows (associativity only), clamped at zero. -/
theorem fc1_eq (A : Cert.Spec.Args) (b : Fin 4096)
    (v227 v231 : FVec Ideal S10x80 .f32) (v233 : Vec Ideal S1x80 .f32)
    (h0 : ∀ (i : Fin 10) (j : Fin 80), v227 (ix2 i j) = Cert.Spec.conv2 A b i 0 j)
    (h1 : ∀ (i : Fin 10) (j : Fin 80), v231 (ix2 i j) = Cert.Spec.conv2 A b i 1 j)
    (hb2 : ∀ j : Fin 80, v233 (ix2 (0 : Fin 1) j) = A.B2 (ix2 (0 : Fin 1) j)) (v234 : Vec Ideal S1x120 .f32)
    (w0 w1 w2 w3 w4 : Vec Ideal S1x80x120 .bf16) (cst : Ideal .f32)
    (hbf1 : ∀ o : Fin 120, v234 (ix2 (0 : Fin 1) o) = A.BF1 (ix2 (0 : Fin 1) o))
    (hw0 : ∀ (j : Fin 80) (o : Fin 120), w0 (ix3 (0 : Fin 1) j o) = A.WF1 (ix3 (0 : Fin 5) j o))
    (hw1 : ∀ (j : Fin 80) (o : Fin 120), w1 (ix3 (0 : Fin 1) j o) = A.WF1 (ix3 (1 : Fin 5) j o))
    (hw2 : ∀ (j : Fin 80) (o : Fin 120), w2 (ix3 (0 : Fin 1) j o) = A.WF1 (ix3 (2 : Fin 5) j o))
    (hw3 : ∀ (j : Fin 80) (o : Fin 120), w3 (ix3 (0 : Fin 1) j o) = A.WF1 (ix3 (3 : Fin 5) j o))
    (hw4 : ∀ (j : Fin 80) (o : Fin 120), w4 (ix3 (0 : Fin 1) j o) = A.WF1 (ix3 (4 : Fin 5) j o))
    (hc : cst = 0) (q : Fin 120) :
    max (fc1pre (k0_pay36 v227 v231) v233 (k0_pay37 v227 v231 v233 v234 w0 w1 w2) (k0_pay38 v227 v231 v233) cst w3 w4 q) 0
      = Cert.Spec.fc1 A b q := by
  have e0 : fterm (k0_pay36 v227 v231) v233 (⟨0, by norm_num⟩ : Fin 10) (⟨1, by norm_num⟩ : Fin 10) w0 q
      = ∑ j : Fin 80, Cert.Spec.pool2 A b 0 j * A.WF1 (ix3 (0 : Fin 5) j q) :=
    fterm_eq A b v227 v231 v233 h0 h1 hb2 w0 0 hw0 q
  have e1 : fterm (k0_pay36 v227 v231) v233 (⟨2, by norm_num⟩ : Fin 10) (⟨3, by norm_num⟩ : Fin 10) w1 q
      = ∑ j : Fin 80, Cert.Spec.pool2 A b 1 j * A.WF1 (ix3 (1 : Fin 5) j q) :=
    fterm_eq A b v227 v231 v233 h0 h1 hb2 w1 1 hw1 q
  have e2 : fterm (k0_pay36 v227 v231) v233 (⟨4, by norm_num⟩ : Fin 10) (⟨5, by norm_num⟩ : Fin 10) w2 q
      = ∑ j : Fin 80, Cert.Spec.pool2 A b 2 j * A.WF1 (ix3 (2 : Fin 5) j q) :=
    fterm_eq A b v227 v231 v233 h0 h1 hb2 w2 2 hw2 q
  have e4 : fterm (k0_pay36 v227 v231) v233 (⟨8, by norm_num⟩ : Fin 10) (⟨9, by norm_num⟩ : Fin 10) w4 q
      = ∑ j : Fin 80, Cert.Spec.pool2 A b 4 j * A.WF1 (ix3 (4 : Fin 5) j q) :=
    fterm_eq A b v227 v231 v233 h0 h1 hb2 w4 4 hw4 q
  have e3 : (∑ j : Fin 80, max (k0_pay38 v227 v231 v233 (ix2 (0 : Fin 1) j)) cst * w3 (ix3 (0 : Fin 1) j q))
      = ∑ j : Fin 80, Cert.Spec.pool2 A b 3 j * A.WF1 (ix3 (3 : Fin 5) j q) :=
    Finset.sum_congr rfl fun j _ => by
      rw [pay38_apply, hc, hw3]
      exact congrArg (· * A.WF1 (ix3 (3 : Fin 5) j q)) (prow_eq A b v227 v231 v233 h0 h1 hb2 3 j)
  unfold fc1pre Cert.Spec.fc1
  rw [pay37_apply, hbf1, e0, e1, e2, e3, e4, Fin.sum_univ_five]
  simp only [add_assoc]

/-- The dense tail of the reference's body: from the second convolution's two parities and the dense layers'
    arrays to the logits of the image. -/
theorem dense (A : Cert.Spec.Args) (b : Fin 4096)
    (v227 v231 : FVec Ideal S10x80 .f32) (v233 : Vec Ideal S1x80 .f32) (v234 : Vec Ideal S1x120 .f32)
    (w0 w1 w2 w3 w4 : Vec Ideal S1x80x120 .bf16) (cst : Ideal .f32)
    (v293 : Vec Ideal S120x84 .bf16) (v295 : Vec Ideal S1x84 .f32) (v300 : Vec Ideal S84x10 .bf16) (v302 : Vec Ideal S1x10 .f32)
    (h0 : ∀ (i : Fin 10) (j : Fin 80), v227 (ix2 i j) = Cert.Spec.conv2 A b i 0 j)
    (h1 : ∀ (i : Fin 10) (j : Fin 80), v231 (ix2 i j) = Cert.Spec.conv2 A b i 1 j)
    (hb2 : ∀ j : Fin 80, v233 (ix2 (0 : Fin 1) j) = A.B2 (ix2 (0 : Fin 1) j))
    (hbf1 : ∀ o : Fin 120, v234 (ix2 (0 : Fin 1) o) = A.BF1 (ix2 (0 : Fin 1) o))
    (hw0 : ∀ (j : Fin 80) (o : Fin 120), w0 (ix3 (0 : Fin 1) j o) = A.WF1 (ix3 (0 : Fin 5) j o))
    (hw1 : ∀ (j : Fin 80) (o : Fin 120), w1 (ix3 (0 : Fin 1) j o) = A.WF1 (ix3 (1 : Fin 5) j o))
    (hw2 : ∀ (j : Fin 80) (o : Fin 120), w2 (ix3 (0 : Fin 1) j o) = A.WF1 (ix3 (2 : Fin 5) j o))
    (hw3 : ∀ (j : Fin 80) (o : Fin 120), w3 (ix3 (0 : Fin 1) j o) = A.WF1 (ix3 (3 : Fin 5) j o))
    (hw4 : ∀ (j : Fin 80) (o : Fin 120), w4 (ix3 (0 : Fin 1) j o) = A.WF1 (ix3 (4 : Fin 5) j o))
    (hc : cst = 0)
    (h293 : v293 = A.WF2) (h295 : v295 = A.BF2) (h300 : v300 = A.WF3) (h302 : v302 = A.BF3) (o : Fin 10) :
    k0_pay39 (k0_pay36 v227 v231) v233 (k0_pay37 v227 v231 v233 v234 w0 w1 w2) (k0_pay38 v227 v231 v233) cst
        w3 w4 v293 v295 v300 v302 (ix3 (0 : Fin 1) (0 : Fin 1) o)
      = Cert.Spec.out A b o := by
  rw [pay39_apply]
  unfold Cert.Spec.out
  rw [h300, h302]
  refine congrArg (· + A.BF3 (ix2 (0 : Fin 1) o)) (Finset.sum_congr rfl fun k _ => congrArg (· * A.WF3 (ix2 k o)) ?_)
  unfold fc2of Cert.Spec.fc2
  rw [h293, h295]
  refine congrArg (fun x => max (x + A.BF2 (ix2 (0 : Fin 1) k)) 0)
    (Finset.sum_congr rfl fun q _ => congrArg (· * A.WF2 (ix2 q k)) ?_)
  exact fc1_eq A b v227 v231 v233 h0 h1 hb2 v234 w0 w1 w2 w3 w4 cst hbf1 hw0 hw1 hw2 hw3 hw4 hc q

end Cert.RefBodyB

end
-- ==== Proof.RefBody.lean ====
/-
  One launch of the reference's body. The body's single store into the output's [1, 1, 10] staging buffer covers it, so
  what the launch leaves there is that store's payload: the dense tail applied to the two accumulators of the second
  convolution, which are the network's second banded convolution of the first pooled activations read back from the
  scratch. With every load read as the argument array it loads, the payload at (0, 0, o) is the logit o of the image.
-/
import proofs.«158183_g2000402634679036_pallasbulk_659_42_alg».proof.Proof.RefBodyConv2W
import proofs.«158183_g2000402634679036_pallasbulk_659_42_alg».proof.Proof.RefBodyB

set_option maxRecDepth 16384

noncomputable section

namespace Cert.RefBody

open Idealize.ShloMosaic Idealize.ShloMosaic.ValueIdx Cert.ReferenceIdeal Cert.ReferenceIdeal.Gen Cert.RefOps

/-- A load of a whole buffer through the whole-shape rectangle reads its contents. -/
theorem readAt_unread_whole {sig : RefSig} {κ : Kind} {sp : Space} {Val : EltTy → Type} {e : EltTy} {s : Shape}
    (m : Memref sig κ sp s e) (h : m.IsWhole) (X : s.Idx → Val e) {off : Fin s.rank → Nat} (hz : off = fun _ => 0)
    (inb : ∀ a, off a + s.size a ≤ s.size a) :
    m.view.readAt Val (Rect.unit off s.size inb).toLoadRect (h.unread X) = X := by
  rw [View.readAt_eq_ld, h.read_unread]
  exact View.ld_unit_zero hz inb X

theorem hz2 : (![0, 0] : Fin 2 → Nat) = fun _ => 0 := by funext a; fin_cases a <;> rfl
theorem hz3 : (![0, 0, 0] : Fin 3 → Nat) = fun _ => 0 := by funext a; fin_cases a <;> rfl

end Cert.RefBody

namespace Cert.Bridge

open Idealize.ShloMosaic Idealize.ShloMosaic.ValueIdx Cert.ReferenceIdeal Cert.ReferenceIdeal.Gen Cert.RefOps Cert.RefBody

set_option maxHeartbeats 1000000 in
/-- One launch of the reference's body, handed image b and the ten other arrays, writes the logits of image b. -/
theorem ref_body : Cert.Bridge.RefBody := by
  intro A b c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 hx0 hx1 hx2 hx3 hx4 hx5 hx6 hx7 hx8 hx9 hx10 o
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  rw [View.canon_unit_zero (S := S1x1x10) (off := ![0, 0, 0]) hz3]
  unfold kernelRun0_A.sl.r_15 kernelRun0_A.sl.r_16 kernelRun0_A.sl.r_17 kernelRun0_A.sl.r_18 kernelRun0_A.sl.cst_177
  exact Cert.RefBodyB.dense A b _ _ _ _ _ _ _ _ _ _ _ _ _ _
    (acc2_0_apply A b c arg1 harg1 arg2 harg2 arg3 harg3 arg4 harg4 arg13 x0 x1 x2 x3 hx0 hx1 hx2 hx3)
    (acc2_1_apply A b c arg1 harg1 arg2 harg2 arg3 harg3 arg4 harg4 arg13 x0 x1 x2 x3 hx0 hx1 hx2 hx3)
    (fun j => congrFun ((readAt_unread_whole arg5 harg5 x4 hz2 _).trans hx4) _)
    (fun o => congrFun ((readAt_unread_whole arg7 harg7 x6 hz2 _).trans hx6) _)
    (fun j o => (readAt_unit3 arg6 harg6 x5 0 0 0 _ (0 : Fin 1) j o (0 : Fin 5) j o (by simp) (by simp) (by simp)).trans (by rw [hx5]))
    (fun j o => (readAt_unit3 arg6 harg6 x5 1 0 0 _ (0 : Fin 1) j o (1 : Fin 5) j o (by simp) (by simp) (by simp)).trans (by rw [hx5]))
    (fun j o => (readAt_unit3 arg6 harg6 x5 2 0 0 _ (0 : Fin 1) j o (2 : Fin 5) j o (by simp) (by simp) (by simp)).trans (by rw [hx5]))
    (fun j o => (readAt_unit3 arg6 harg6 x5 3 0 0 _ (0 : Fin 1) j o (3 : Fin 5) j o (by simp) (by simp) (by simp)).trans (by rw [hx5]))
    (fun j o => (readAt_unit3 arg6 harg6 x5 4 0 0 _ (0 : Fin 1) j o (4 : Fin 5) j o (by simp) (by simp) (by simp)).trans (by rw [hx5]))
    Ideal.ofBits_zero_f32
    ((readAt_unread_whole arg8 harg8 x7 hz2 _).trans hx7)
    ((readAt_unread_whole arg9 harg9 x8 hz2 _).trans hx8)
    ((readAt_unread_whole arg10 harg10 x9 hz2 _).trans hx9)
    ((readAt_unread_whole arg11 harg11 x10 hz2 _).trans hx10) o

end Cert.Bridge

end
-- ==== Proof.RefRunHost.lean ====
/-
  The image array the reference's region reads, at an index.

  Before its one region the reference transposes the NCHW images to NHWC, flattens the last two axes
  (column `w`, channel `ch`) into one lane axis `l = 3·w + ch`, and changes the float format (the identity over
  the extended reals). So the array the region is handed reads, at image `b`, row `h`, lane `l`, the argument
  array at `(b, l % 3, h, l / 3)`: row `h`, lane `l` of image `b` as the network's specification reads it.
-/
import proofs.«158183_g2000402634679036_pallasbulk_659_42_alg».proof.Proof.Interface
import Idealize.ShloMosaic.Lib.Pipeline.Value

noncomputable section

open Idealize.ShloMosaic Idealize.ShloMosaic.ValueIdx Idealize.ShloMosaic.TcCoe Idealize.SL.Sem

namespace Cert.RefSide

open Cert.ReferenceIdeal Cert.ReferenceIdeal.Gen

variable (m : (ℓ : Loc nD τ sig) → Buf (Elt Ideal) ℓ)

/-- The array handed to the region is the three layout operations applied to the image argument. -/
theorem staged_eq (c : Dev nD) :
    (V m c main_call0_v2 : S4096x32x96.Idx → EReal)
      = truncf (F := Ideal) .bf16 (shapeCast S4096x32x96 (transpose S4096x32x32x3 [0, 2, 3, 1] (m ((c.tc : Thread nD τ).loc main_arg0)) transposes_S4096x3x32x32_S4096x32x32x3_0_2_3_1) shapeCasts_S4096x32x32x3_S4096x32x96) bitsLt_bf16_f32 := by
  show StableHlo.after hostOps0 (fun b => m (c, b)) (Proc.devRef .tc main_call0_v2) = _
  after_results
  rfl

/-- The transpose to NHWC followed by the flattening of (column, channel) into one lane axis: position
    `(b, h, l)` has row-major position `((32·b + h)·32 + l / 3)·3 + l % 3` in NHWC, which the transpose
    reads at `(b, l % 3, h, l / 3)` of NCHW. -/
theorem layout_apply (X : S4096x3x32x32.Idx → EReal) (b : Fin 4096) (h : Fin 32) (l : Fin 96) :
    shapeCast S4096x32x96 (transpose S4096x32x32x3 [0, 2, 3, 1] X transposes_S4096x3x32x32_S4096x32x32x3_0_2_3_1) shapeCasts_S4096x32x32x3_S4096x32x96 (ix3 b h l)
      = X (ix4 b (⟨l.val % 3, Nat.mod_lt _ (by norm_num)⟩ : Fin 3) h (⟨l.val / 3, by have := l.isLt; omega⟩ : Fin 32)) := by
  have hl := l.isLt
  have e1 := shapeCast_apply (transpose S4096x32x32x3 [0, 2, 3, 1] X transposes_S4096x3x32x32_S4096x32x32x3_0_2_3_1) shapeCasts_S4096x32x32x3_S4096x32x96 (ix3 b h l)
    (ix4 b h (⟨l.val / 3, by omega⟩ : Fin 32) (⟨l.val % 3, Nat.mod_lt _ (by norm_num)⟩ : Fin 3))
    (by rw [Shape.rowMajor_val_four, Shape.rowMajor_val_three]
        show ((b.val * 32 + h.val) * 32 + l.val / 3) * 3 + l.val % 3 = (b.val * 32 + h.val) * 96 + l.val
        omega)
  have e2 := transpose_apply (s := S4096x3x32x32) (t := S4096x32x32x3) [0, 2, 3, 1] X transposes_S4096x3x32x32_S4096x32x32x3_0_2_3_1
    (ix4 b h (⟨l.val / 3, by omega⟩ : Fin 32) (⟨l.val % 3, Nat.mod_lt _ (by norm_num)⟩ : Fin 3))
    (ix4 b (⟨l.val % 3, Nat.mod_lt _ (by norm_num)⟩ : Fin 3) h (⟨l.val / 3, by omega⟩ : Fin 32))
    (fun a => match a with | ⟨0, _⟩ => rfl | ⟨1, _⟩ => rfl | ⟨2, _⟩ => rfl | ⟨3, _⟩ => rfl)
  exact e1.trans e2

/-- The array handed to the region, at image `b`, row `h`, lane `l`, is the specification's image. -/
theorem staged_apply (c : Dev nD) (b : Fin 4096) (h : Fin 32) (l : Fin 96) :
    (V m c main_call0_v2 : S4096x32x96.Idx → EReal) (ix3 b h l) = Cert.Spec.img (args m c) b h l :=
  (congrFun (staged_eq m c) (ix3 b h l)).trans
    ((truncf_apply (φ := .f32) (ψ := .bf16)
        (shapeCast S4096x32x96 (transpose S4096x32x32x3 [0, 2, 3, 1] (m ((c.tc : Thread nD τ).loc main_arg0)) transposes_S4096x3x32x32_S4096x32x32x3_0_2_3_1) shapeCasts_S4096x32x32x3_S4096x32x96)
        bitsLt_bf16_f32 (ix3 b h l)).trans
      (layout_apply (m ((c.tc : Thread nD τ).loc main_arg0)) b h l))

end Cert.RefSide

end
-- ==== Proof.RefRunBlocks.lean ====
/-
  What each window of the reference's region reads at a grid point.

  The region runs over 4096 points, one image each. Window 0 is a [1, 32, 96] block of the image array at block index
  `(t, 0, 0)`: a block's coordinate is index × size + the coordinate inside the block, so row `h`, lane `l` of the
  block at point `t` is row `h`, lane `l` of image `t`. Windows 1 to 10 are whole arrays at block index zero, and
  no operation before the region writes them: each block is the argument array itself.
-/
import proofs.«158183_g2000402634679036_pallasbulk_659_42_alg».proof.Proof.RefRunHost

noncomputable section

open Idealize.ShloMosaic Idealize.ShloMosaic.ValueIdx Idealize.ShloMosaic.TcCoe Idealize.SL.Sem

namespace Cert.RefSide

open Cert.ReferenceIdeal Cert.ReferenceIdeal.Gen

variable (m : (ℓ : Loc nD τ sig) → Buf (Elt Ideal) ℓ)

theorem N_eq : cfg0.N = 4096 := N_0

theorem point_lt (t : Fin cfg0.N) : t.val < 4096 := lt_of_lt_of_eq t.isLt N_eq

/-- The grid has one axis: point `t`'s coordinate is `t`. -/
theorem coords_val (t : Fin cfg0.N) : ((grid0.coords t) 0).val = t.val := by
  have ht := point_lt t
  show t.val / grid0.stride 0 % 4096 = t.val
  rw [show grid0.stride 0 = 1 from by decide, Nat.div_one, Nat.mod_eq_of_lt ht]

/-- The image window's block index on the image axis is the point. -/
theorem index0_0 (t : Fin cfg0.N) : win0_0.index t 0 = t.val := by
  have ht := point_lt t
  show (BitVec.ofNat 32 ((grid0.coords t) 0).val).toNat = t.val
  rw [coords_val, BitVec.toNat_ofNat]
  exact Nat.mod_eq_of_lt (lt_trans ht (by norm_num))

/-- So is the output window's. -/
theorem index11_0 (t : Fin cfg0.N) : win0_11.index t 0 = t.val := by
  have ht := point_lt t
  show (BitVec.ofNat 32 ((grid0.coords t) 0).val).toNat = t.val
  rw [coords_val, BitVec.toNat_ofNat]
  exact Nat.mod_eq_of_lt (lt_trans ht (by norm_num))

/-- The image window's block at point `t` is image `t` of the array the region finds. -/
theorem iblk0_apply (c : Dev nD) (t : Fin cfg0.N) (h : Fin 32) (l : Fin 96) :
    (iblk m c 0 t : S1x32x96.Idx → EReal) (ix3 (0 : Fin 1) h l)
      = (V m c main_call0_v2 : S4096x32x96.Idx → EReal) (ix3 (⟨t.val, point_lt t⟩ : Fin 4096) h l) := by
  show V m c main_call0_v2 (((cfg0.win 0).blk t).view.emb (ix3 (0 : Fin 1) h l)) = _
  have h0 : ((cfg0.win 0).blk t).view.emb (ix3 (0 : Fin 1) h l) = ix3 (⟨t.val, point_lt t⟩ : Fin 4096) h l := by
    funext a; apply Fin.ext
    match a with
    | ⟨0, _⟩ => show win0_0.index t 0 * 1 + 1 * 0 = t.val; rw [index0_0]; omega
    | ⟨1, _⟩ => show 0 * 32 + 1 * h.val = h.val; omega
    | ⟨2, _⟩ => show 0 * 96 + 1 * l.val = l.val; omega
  rw [h0]

/-- Window 1 is the whole array at block index zero: its block at any point is the array the region finds,
    which no earlier operation wrote. -/
theorem iblk1_eq (c : Dev nD) (t : Fin cfg0.N) :
    (iblk m c 1 t : S5x2x96x84.Idx → EReal) = m ((c.tc : Thread nD τ).loc main_arg1) := by
  have e : (iblk m c 1 t : S5x2x96x84.Idx → EReal) = V m c main_arg1 := by
    funext y
    show V m c main_arg1 (((cfg0.win 1).blk t).view.emb y) = V m c main_arg1 y
    have h0 : ((cfg0.win 1).blk t).view.emb y = y := by
      funext a; apply Fin.ext
      match a with
    | ⟨0, _⟩ => show 0 * 5 + 1 * (y 0).val = (y 0).val; omega
    | ⟨1, _⟩ => show 0 * 2 + 1 * (y 1).val = (y 1).val; omega
    | ⟨2, _⟩ => show 0 * 96 + 1 * (y 2).val = (y 2).val; omega
    | ⟨3, _⟩ => show 0 * 84 + 1 * (y 3).val = (y 3).val; omega
    rw [h0]
  exact e.trans (V_main_arg1 m c)

/-- Window 2 is the whole array at block index zero: its block at any point is the array the region finds,
    which no earlier operation wrote. -/
theorem iblk2_eq (c : Dev nD) (t : Fin cfg0.N) :
    (iblk m c 2 t : S1x84.Idx → EReal) = m ((c.tc : Thread nD τ).loc main_arg2) := by
  have e : (iblk m c 2 t : S1x84.Idx → EReal) = V m c main_arg2 := by
    funext y
    show V m c main_arg2 (((cfg0.win 2).blk t).view.emb y) = V m c main_arg2 y
    have h0 : ((cfg0.win 2).blk t).view.emb y = y := by
      funext a; apply Fin.ext
      match a with
    | ⟨0, _⟩ => show 0 * 1 + 1 * (y 0).val = (y 0).val; omega
    | ⟨1, _⟩ => show 0 * 84 + 1 * (y 1).val = (y 1).val; omega
    rw [h0]
  exact e.trans (V_main_arg2 m c)

/-- Window 3 is the whole array at block index zero: its block at any point is the array the region finds,
    which no earlier operation wrote. -/
theorem iblk3_eq (c : Dev nD) (t : Fin cfg0.N) :
    (iblk m c 3 t : S5x2x84x80.Idx → EReal) = m ((c.tc : Thread nD τ).loc main_arg3) := by
  have e : (iblk m c 3 t : S5x2x84x80.Idx → EReal) = V m c main_arg3 := by
    funext y
    show V m c main_arg3 (((cfg0.win 3).blk t).view.emb y) = V m c main_arg3 y
    have h0 : ((cfg0.win 3).blk t).view.emb y = y := by
      funext a; apply Fin.ext
      match a with
    | ⟨0, _⟩ => show 0 * 5 + 1 * (y 0).val = (y 0).val; omega
    | ⟨1, _⟩ => show 0 * 2 + 1 * (y 1).val = (y 1).val; omega
    | ⟨2, _⟩ => show 0 * 84 + 1 * (y 2).val = (y 2).val; omega
    | ⟨3, _⟩ => show 0 * 80 + 1 * (y 3).val = (y 3).val; omega
    rw [h0]
  exact e.trans (V_main_arg3 m c)

/-- Window 4 is the whole array at block index zero: its block at any point is the array the region finds,
    which no earlier operation wrote. -/
theorem iblk4_eq (c : Dev nD) (t : Fin cfg0.N) :
    (iblk m c 4 t : S1x80.Idx → EReal) = m ((c.tc : Thread nD τ).loc main_arg4) := by
  have e : (iblk m c 4 t : S1x80.Idx → EReal) = V m c main_arg4 := by
    funext y
    show V m c main_arg4 (((cfg0.win 4).blk t).view.emb y) = V m c main_arg4 y
    have h0 : ((cfg0.win 4).blk t).view.emb y = y := by
      funext a; apply Fin.ext
      match a with
    | ⟨0, _⟩ => show 0 * 1 + 1 * (y 0).val = (y 0).val; omega
    | ⟨1, _⟩ => show 0 * 80 + 1 * (y 1).val = (y 1).val; omega
    rw [h0]
  exact e.trans (V_main_arg4 m c)

/-- Window 5 is the whole array at block index zero: its block at any point is the array the region finds,
    which no earlier operation wrote. -/
theorem iblk5_eq (c : Dev nD) (t : Fin cfg0.N) :
    (iblk m c 5 t : S5x80x120.Idx → EReal) = m ((c.tc : Thread nD τ).loc main_arg5) := by
  have e : (iblk m c 5 t : S5x80x120.Idx → EReal) = V m c main_arg5 := by
    funext y
    show V m c main_arg5 (((cfg0.win 5).blk t).view.emb y) = V m c main_arg5 y
    have h0 : ((cfg0.win 5).blk t).view.emb y = y := by
      funext a; apply Fin.ext
      match a with
    | ⟨0, _⟩ => show 0 * 5 + 1 * (y 0).val = (y 0).val; omega
    | ⟨1, _⟩ => show 0 * 80 + 1 * (y 1).val = (y 1).val; omega
    | ⟨2, _⟩ => show 0 * 120 + 1 * (y 2).val = (y 2).val; omega
    rw [h0]
  exact e.trans (V_main_arg5 m c)

/-- Window 6 is the whole array at block index zero: its block at any point is the array the region finds,
    which no earlier operation wrote. -/
theorem iblk6_eq (c : Dev nD) (t : Fin cfg0.N) :
    (iblk m c 6 t : S1x120.Idx → EReal) = m ((c.tc : Thread nD τ).loc main_arg6) := by
  have e : (iblk m c 6 t : S1x120.Idx → EReal) = V m c main_arg6 := by
    funext y
    show V m c main_arg6 (((cfg0.win 6).blk t).view.emb y) = V m c main_arg6 y
    have h0 : ((cfg0.win 6).blk t).view.emb y = y := by
      funext a; apply Fin.ext
      match a with
    | ⟨0, _⟩ => show 0 * 1 + 1 * (y 0).val = (y 0).val; omega
    | ⟨1, _⟩ => show 0 * 120 + 1 * (y 1).val = (y 1).val; omega
    rw [h0]
  exact e.trans (V_main_arg6 m c)

/-- Window 7 is the whole array at block index zero: its block at any point is the array the region finds,
    which no earlier operation wrote. -/
theorem iblk7_eq (c : Dev nD) (t : Fin cfg0.N) :
    (iblk m c 7 t : S120x84.Idx → EReal) = m ((c.tc : Thread nD τ).loc main_arg7) := by
  have e : (iblk m c 7 t : S120x84.Idx → EReal) = V m c main_arg7 := by
    funext y
    show V m c main_arg7 (((cfg0.win 7).blk t).view.emb y) = V m c main_arg7 y
    have h0 : ((cfg0.win 7).blk t).view.emb y = y := by
      funext a; apply Fin.ext
      match a with
    | ⟨0, _⟩ => show 0 * 120 + 1 * (y 0).val = (y 0).val; omega
    | ⟨1, _⟩ => show 0 * 84 + 1 * (y 1).val = (y 1).val; omega
    rw [h0]
  exact e.trans (V_main_arg7 m c)

/-- Window 8 is the whole array at block index zero: its block at any point is the array the region finds,
    which no earlier operation wrote. -/
theorem iblk8_eq (c : Dev nD) (t : Fin cfg0.N) :
    (iblk m c 8 t : S1x84.Idx → EReal) = m ((c.tc : Thread nD τ).loc main_arg8) := by
  have e : (iblk m c 8 t : S1x84.Idx → EReal) = V m c main_arg8 := by
    funext y
    show V m c main_arg8 (((cfg0.win 8).blk t).view.emb y) = V m c main_arg8 y
    have h0 : ((cfg0.win 8).blk t).view.emb y = y := by
      funext a; apply Fin.ext
      match a with
    | ⟨0, _⟩ => show 0 * 1 + 1 * (y 0).val = (y 0).val; omega
    | ⟨1, _⟩ => show 0 * 84 + 1 * (y 1).val = (y 1).val; omega
    rw [h0]
  exact e.trans (V_main_arg8 m c)

/-- Window 9 is the whole array at block index zero: its block at any point is the array the region finds,
    which no earlier operation wrote. -/
theorem iblk9_eq (c : Dev nD) (t : Fin cfg0.N) :
    (iblk m c 9 t : S84x10.Idx → EReal) = m ((c.tc : Thread nD τ).loc main_arg9) := by
  have e : (iblk m c 9 t : S84x10.Idx → EReal) = V m c main_arg9 := by
    funext y
    show V m c main_arg9 (((cfg0.win 9).blk t).view.emb y) = V m c main_arg9 y
    have h0 : ((cfg0.win 9).blk t).view.emb y = y := by
      funext a; apply Fin.ext
      match a with
    | ⟨0, _⟩ => show 0 * 84 + 1 * (y 0).val = (y 0).val; omega
    | ⟨1, _⟩ => show 0 * 10 + 1 * (y 1).val = (y 1).val; omega
    rw [h0]
  exact e.trans (V_main_arg9 m c)

/-- Window 10 is the whole array at block index zero: its block at any point is the array the region finds,
    which no earlier operation wrote. -/
theorem iblk10_eq (c : Dev nD) (t : Fin cfg0.N) :
    (iblk m c 10 t : S1x10.Idx → EReal) = m ((c.tc : Thread nD τ).loc main_arg10) := by
  have e : (iblk m c 10 t : S1x10.Idx → EReal) = V m c main_arg10 := by
    funext y
    show V m c main_arg10 (((cfg0.win 10).blk t).view.emb y) = V m c main_arg10 y
    have h0 : ((cfg0.win 10).blk t).view.emb y = y := by
      funext a; apply Fin.ext
      match a with
    | ⟨0, _⟩ => show 0 * 1 + 1 * (y 0).val = (y 0).val; omega
    | ⟨1, _⟩ => show 0 * 10 + 1 * (y 1).val = (y 1).val; omega
    rw [h0]
  exact e.trans (V_main_arg10 m c)

end Cert.RefSide

end
-- ==== Proof.RefRunArray.lean ====
/-
  The array the reference's region leaves, as one function of the argument arrays.

  The output window is a [1, 1, 10] block of a [4096, 1, 10] array at block index `(t, 0, 0)`, written back at every
  point. At point `t` the body is handed image `t` and the ten other arrays as they are, so (the body's fact) it leaves
  the logits of image `t`; that is block `t` of the array of all logits. Index `(b, 0, o)` lies in the block of point
  `b`, so the blocks cover the array and it ends holding the logits of every image.
-/
import proofs.«158183_g2000402634679036_pallasbulk_659_42_alg».proof.Proof.RefRunBlocks

noncomputable section

open Idealize.ShloMosaic Idealize.ShloMosaic.ValueIdx Idealize.ShloMosaic.TcCoe Idealize.SL.Sem

namespace Cert.RefSide

open Cert.ReferenceIdeal Cert.ReferenceIdeal.Gen

variable (m : (ℓ : Loc nD τ sig) → Buf (Elt Ideal) ℓ)

/-- The array the region writes, [4096, 1, 10]: the logits of image `b` at `(b, 0, o)`. -/
def logits (A : Cert.Spec.Args) : S4096x1x10.Idx → EReal := fun i => Cert.Spec.out A (i 0) (i 2)

/-- What the body leaves in the output's staging buffer at point `t`: the logits of image `t`. -/
theorem outsAt_apply (hb : Cert.Bridge.RefBody) (c : Dev nD) (t : Fin cfg0.N) (o : Fin 10) :
    (outsAt0 m c t : S1x1x10.Idx → EReal) (ix3 (0 : Fin 1) (0 : Fin 1) o)
      = Cert.Spec.out (args m c) (⟨t.val, point_lt t⟩ : Fin 4096) o := by
  unfold outsAt0
  exact hb (args m c)
      (⟨t.val, point_lt t⟩ : Fin 4096)
      c
      (grid0.coords t)
      (ms0_0 t) (hs0_0 t)
      (ms0_1 t) (hs0_1 t)
      (ms0_2 t) (hs0_2 t)
      (ms0_3 t) (hs0_3 t)
      (ms0_4 t) (hs0_4 t)
      (ms0_5 t) (hs0_5 t)
      (ms0_6 t) (hs0_6 t)
      (ms0_7 t) (hs0_7 t)
      (ms0_8 t) (hs0_8 t)
      (ms0_9 t) (hs0_9 t)
      (ms0_10 t) (hs0_10 t)
      (ms0_11 t) (hs0_11 t)
      scM0_0 (Memref.isWhole_whole _)
      (iblk m c 0 t)
      (iblk m c 1 t)
      (iblk m c 2 t)
      (iblk m c 3 t)
      (iblk m c 4 t)
      (iblk m c 5 t)
      (iblk m c 6 t)
      (iblk m c 7 t)
      (iblk m c 8 t)
      (iblk m c 9 t)
      (iblk m c 10 t)
      (fun h l => (iblk0_apply m c t h l).trans (staged_apply m c (⟨t.val, point_lt t⟩ : Fin 4096) h l))
      (iblk1_eq m c t)
      (iblk2_eq m c t)
      (iblk3_eq m c t)
      (iblk4_eq m c t)
      (iblk5_eq m c t)
      (iblk6_eq m c t)
      (iblk7_eq m c t)
      (iblk8_eq m c t)
      (iblk9_eq m c t)
      (iblk10_eq m c t)
      o

/-- What point `t` writes back is block `t` of the logits array. -/
theorem flushed_eq (hb : Cert.Bridge.RefBody) (c : Dev nD) (t : Fin cfg0.N) :
    (dats m 0 c).flushed 11 t = ((cfg0.win 11).blk t).view.read (Elt Ideal) (logits (args m c)) := by
  show (cfg0.win 11).cut (grid0.coords t) ((dats m 0 c).after 11 t) = _
  rw [after0_11]
  funext y
  have y0 : (y 0).val < 1 := (y 0).isLt
  have y1 : (y 1).val < 1 := (y 1).isLt
  have y2 : (y 2).val < 10 := (y 2).isLt
  obtain ⟨o, rfl⟩ : ∃ o : Fin 10, y = ix3 (0 : Fin 1) (0 : Fin 1) o :=
    ⟨⟨(y 2).val, y2⟩, by
      funext a; apply Fin.ext
      match a with
      | ⟨0, _⟩ => show (y 0).val = 0; omega
      | ⟨1, _⟩ => show (y 1).val = 0; omega
      | ⟨2, _⟩ => rfl⟩
  refine (outsAt_apply m hb c t o).trans ?_
  show _ = logits (args m c) (((cfg0.win 11).blk t).view.emb (ix3 (0 : Fin 1) (0 : Fin 1) o))
  have h0 : ((cfg0.win 11).blk t).view.emb (ix3 (0 : Fin 1) (0 : Fin 1) o) = ix3 (⟨t.val, point_lt t⟩ : Fin 4096) (0 : Fin 1) o := by
    funext a; apply Fin.ext
    match a with
    | ⟨0, _⟩ => show win0_11.index t 0 * 1 + 1 * 0 = t.val; rw [index11_0]; omega
    | ⟨1, _⟩ => show 0 * 1 + 1 * 0 = 0; omega
    | ⟨2, _⟩ => show 0 * 10 + 1 * o.val = o.val; omega
  rw [h0]
  rfl

/-- Every index of the logits array lies in the block of the point named by its image coordinate. -/
theorem cover (i : S4096x1x10.Idx) :
    ∃ t : Fin cfg0.N, (cfg0.win 11).flush t = true ∧ i ∈ ((cfg0.win 11).blk t).view.set := by
  have i0 : (i 0).val < 4096 := (i 0).isLt
  have i1 : (i 1).val < 1 := (i 1).isLt
  have i2 : (i 2).val < 10 := (i 2).isLt
  have hN : (i 0).val < cfg0.N := lt_of_lt_of_eq i0 N_eq.symm
  refine ⟨⟨(i 0).val, hN⟩, flush0_11 _, ?_⟩
  show i ∈ ((View.whole main_call0_v3).slice (win0_11.rect ⟨(i 0).val, hN⟩)).set
  rw [View.set_slice_whole, Rect.mem_set_unit]
  intro a
  match a with
  | ⟨0, _⟩ =>
    show win0_11.index ⟨(i 0).val, hN⟩ 0 * 1 ≤ (i 0).val ∧ (i 0).val < win0_11.index ⟨(i 0).val, hN⟩ 0 * 1 + 1
    rw [index11_0]; show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 10 ≤ (i 2).val ∧ (i 2).val < 0 * 10 + 10; omega

/-- The output array after the run: the logits of every image. -/
theorem final (hb : Cert.Bridge.RefBody) (c : Dev nD) : (dats m 0 c).arrAt 11 cfg0.N = logits (args m c) :=
  (dats m 0 c).arrAt_eq_of_cover 11 (logits (args m c)) (fun t _ => flushed_eq m hb c t) (fun i => cover i)

end Cert.RefSide

end
-- ==== Proof.RefRun.lean ====
/-
  The reference's run, read: the result array is the network of the argument arrays, and the arguments are unchanged.

  The reference stages the images (a transpose, a flattening, a format change), runs one region over 4096 points — one
  image per point —, and drops the unit axis of what the region wrote. Given what one launch of the body writes
  (`Cert.Bridge.RefBody`), the region's array is the logits of every image, and the last reshape makes it the
  [4096, 10] result array of the specification.
-/
import proofs.«158183_g2000402634679036_pallasbulk_659_42_alg».proof.Proof.RefRunArray

noncomputable section

open Idealize.ShloMosaic Idealize.ShloMosaic.ValueIdx Idealize.ShloMosaic.TcCoe Idealize.SL.Sem

namespace Cert.RefSide

open Cert.ReferenceIdeal Cert.ReferenceIdeal.Gen

variable (m : (ℓ : Loc nD τ sig) → Buf (Elt Ideal) ℓ)

/-- After the region the reference drops the unit axis of the logits array: [4096, 1, 10] → [4096, 10], position
    `(b, o)` reading `(b, 0, o)` (the same row-major position). So the result is the network's result array. -/
theorem tail_eq (hb : Cert.Bridge.RefBody) (c : Dev nD) :
    (Pipeline.afterTail₀ cfgs (dats m) 0 (V0 m) [hostOps1] c main_v0 : S4096x10.Idx → EReal) = Cert.Spec.net (args m c) := by
  unfold Pipeline.afterTail₀
  show StableHlo.after hostOps1 _ (Proc.devRef .tc main_v0) = _
  after_results
  have hw : (Pipeline.withArrays (cfgs 0).spec c (V0 m c) (fun w => (dats m 0 c).arrAt w (cfgs 0).N) (Proc.devRef .tc main_call0_v3) : S4096x1x10.Idx → EReal)
      = logits (args m c) :=
    (Pipeline.withArrays_arr spec0 launch0.win.arr_inj c _ _ 11).trans (final m hb c)
  show shapeCast S4096x10 (Pipeline.withArrays (cfgs 0).spec c (V0 m c) (fun w => (dats m 0 c).arrAt w (cfgs 0).N) (Proc.devRef .tc main_call0_v3)) shapeCasts_S4096x1x10_S4096x10 = _
  rw [hw]
  funext j
  obtain ⟨b, o, rfl⟩ : ∃ (b : Fin 4096) (o : Fin 10), j = ix2 b o := ⟨j 0, j 1, eq_ix2 j⟩
  refine (shapeCast_apply (logits (args m c)) shapeCasts_S4096x1x10_S4096x10 (ix2 b o) (ix3 b (0 : Fin 1) o) ?_).trans rfl
  rw [Shape.rowMajor_val_three, Shape.rowMajor_val_two]
  show (b.val * 1 + 0) * 10 + o.val = b.val * 10 + o.val
  omega

/-- The reference's run: every weakly fair execution terminates without a fault, with the result array at the
    network of the argument arrays and every argument array unchanged. The result is the buffer the last
    operation writes, read after the region's exit contents; an argument no window stages keeps its launch contents
    through the operations on both sides of the region, a staged one is an input array of the region. -/
theorem run_of (hb : Cert.Bridge.RefBody) (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v0) = Cert.Spec.net (args m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ h c =>
    ⟨((h c).2 main_v0 (Pipeline.mem_restRefs_of main_v0 (by decide) (by decide))).trans (tail_eq m hb c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.RefSide

end
-- ==== Proof.lean ====
/-
  The kernel and its reference compute one network, and so end with equal result arrays.

  Both programs are LeNet-5 on 4096 images of 3 × 32 × 32: two 5-tap banded convolutions, each followed by a 2 × 2 max
  pool, a bias and a clamp at zero, then three dense layers. The network is written once, as a function of the eleven
  argument arrays over the extended reals (Proof/Spec.lean: `conv1`, `pool1`, `conv2`, `pool2`, `fc1`, `fc2`, `out`).

  The kernel handles 512 images per grid point. It stacks their rows, lays the stack beside itself moved up by one to
  four rows, and takes ONE product with the five taps' weights stacked; a tap above a valid output row stays inside its
  image, so on those rows the product is the sum over the taps (Proof/KerBodyConv.lean). Its lanes are ordered
  `32·c + w` where the network's are `3·w + c`; the weights were re-ordered to match, and the sum over the lanes is
  re-indexed by that bijection. The lanes and rows the padding adds meet zero weights in the first dense layer, and a
  product with zero is zero over the extended reals whatever the other factor (Proof/KerBodyDense.lean). The reference
  handles one image per grid point, tap by tap and row by row through a scratch array (Proof/RefBody.lean). Around the
  bodies, each program's run puts block `t` of the result where its grid point `t` wrote it, and the blocks cover the
  result (Proof/KerRun.lean, Proof/RefRun.lean). No step uses that the inputs are finite: only commutativity and
  associativity of the sum, `0 + x = x` and `x · 0 = 0` are needed, and these hold at the infinities too.

  The three frame claims are the generated frame certificates; the idealization rewrote nothing, so `preserves` is `True`.
-/
import proofs.«158183_g2000402634679036_pallasbulk_659_42_alg».proof.Defs
import proofs.«158183_g2000402634679036_pallasbulk_659_42_alg».proof.Proof.Gen.Kernel
import proofs.«158183_g2000402634679036_pallasbulk_659_42_alg».proof.Proof.Gen.Kernel.Frame
import proofs.«158183_g2000402634679036_pallasbulk_659_42_alg».proof.Proof.Gen.KernelIdeal
import proofs.«158183_g2000402634679036_pallasbulk_659_42_alg».proof.Proof.Gen.KernelIdeal.Frame
import proofs.«158183_g2000402634679036_pallasbulk_659_42_alg».proof.Proof.Gen.KernelIdeal.Value
import proofs.«158183_g2000402634679036_pallasbulk_659_42_alg».proof.Proof.Gen.ReferenceIdeal
import proofs.«158183_g2000402634679036_pallasbulk_659_42_alg».proof.Proof.Gen.ReferenceIdeal.Frame
import proofs.«158183_g2000402634679036_pallasbulk_659_42_alg».proof.Proof.Gen.Pre_finite_inputs
import proofs.«158183_g2000402634679036_pallasbulk_659_42_alg».proof.Proof.Assemble
import proofs.«158183_g2000402634679036_pallasbulk_659_42_alg».proof.Proof.KerBodyDense
import proofs.«158183_g2000402634679036_pallasbulk_659_42_alg».proof.Proof.KerRun
import proofs.«158183_g2000402634679036_pallasbulk_659_42_alg».proof.Proof.RefBody
import proofs.«158183_g2000402634679036_pallasbulk_659_42_alg».proof.Proof.RefRun
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    Cert.Proof.algebraic_of (fun m ρ => Cert.KerSide.run_of Cert.Bridge.ker_body m ρ)
      (fun m ρ => Cert.RefSide.run_of Cert.Bridge.ref_body m ρ)⟩

end Cert.Proof

end
